-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S_ : Shape := ⟨0, ![]⟩
abbrev S1 : Shape := ⟨1, ![1]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  slices_S8192_S1_0 : S8192.Slices ![0] S1
  shapeCasts_S1_S_ : S1.ShapeCasts S_
  bcast_S_S8192 : S_.BroadcastsInDim S8192 (![] : Fin 0 → Fin S8192.rank)
  reducesTo_S8192_S_d0 : S8192.ReducesTo [0] S_

variable [Facts]

def fn_part3 {F : FTy → Type} [FloatOps F] (main_arg1 : IVec S8192 32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : IVec S1 32 := (extractStridedSlice S1 ![0] · slices_S8192_S1_0) main_arg1
  let main_v55 : IVec S_ 32 := shapeCast S_ main_v54 shapeCasts_S1_S_
  let main_v56 : IVec S8192 32 := broadcastInDim S8192 ![] bcast_S_S8192 main_v55
  let main_v57 : IVec S8192 1 := cmpi .ne main_arg1 main_v56
  let main_c_20 : IVec S_ 1 := constantI S_ 1 0#1
  let main_v58 : IVec S_ 1 := (fun x v => Host.reduce IntOp.ori x v reducesTo_S8192_S_d0 h_S_) main_v57 main_c_20
  let main_v59 : IVec S_ 1 := andi main_v53 main_v58
  main_v59

def fn_part2 {F : FTy → Type} [FloatOps F] (main_arg1 : IVec S8192 32) (main_arg8 : FVec F S1024x1024 .f32) (main_arg9 : FVec F S1024 .f32) (main_arg10 : FVec F S1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg1 main_v48 main_v49 main_v50

def fn_part1 {F : FTy → Type} [FloatOps F] (main_arg1 : IVec S8192 32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S8192x1024 .f32) (main_arg1 : IVec S8192 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg5 main_arg6 main_arg7 main_arg8 main_arg9 main_arg10 main_arg11 main_v13 main_v16
-- ==== Kernel.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S8192x1 : Shape := ⟨2, ![8192, 1]⟩
abbrev S1x8192 : Shape := ⟨2, ![1, 8192]⟩
abbrev S512x1 : Shape := ⟨2, ![512, 1]⟩
abbrev S512 : Shape := ⟨1, ![512]⟩

abbrev nBuf : Space → Nat
  | .hbm => 22
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1, .i32⟩
  | .hbm, ⟨20, _⟩ => ⟨S1x8192, .i32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1, .i32⟩
  | .local _ .vmem, ⟨21, _⟩ => ⟨S512x1, .i32⟩
  | .local _ .vmem, ⟨22, _⟩ => ⟨S1x1024, .i32⟩
  | .local _ .vmem, ⟨23, _⟩ => ⟨S1x1024, .i32⟩
  | .local _ .vmem, ⟨24, _⟩ => ⟨S512x1024, .f32⟩
  | .local _ .vmem, ⟨25, _⟩ => ⟨S512x1024, .f32⟩
  | .local _ .vmem, ⟨26, _⟩ => ⟨S1024x1024, .bf16⟩
  | .local _ .vmem, ⟨27, _⟩ => ⟨S1024, .f32⟩
  | .local _ .vmem, ⟨28, _⟩ => ⟨S1024, .f32⟩
  | .local _ .vmem, ⟨29, _⟩ => ⟨S1024, .f32⟩
  | .local _ .vmem, ⟨30, _⟩ => ⟨S512x1024, .f32⟩
  | .local _ .vmem, ⟨31, _⟩ => ⟨S512x1024, .f32⟩
  | .local _ .vmem, ⟨32, _⟩ => ⟨S512x1, .f32⟩
  | .local _ .vmem, ⟨33, _⟩ => ⟨S512x1, .f32⟩
  | .local _ .vmem, ⟨34, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_28 : BitVec 32 := 0#32
  let v51 : BitVec 1 := Scalar.cmpi .ne v50 c0_i32_28
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  reduces_S512x1024_S512 : S512x1024.Reduces [1] S512
  shapeCasts_S512_S512x1 : S512.ShapeCasts S512x1
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .i32 = 32 ∨ (Rect.block (s := S8192x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .i32 = 32 ∨ (Rect.block (s := S1x8192) S1x1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S1024.size a
  hwx1_8 : ∀ i : grid1.Coords, EltTy.bits .f32 = 32 ∨ (Rect.block (s := S1024) S1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024.size a ≤ S1024.size a
  hwx1_9 : ∀ i : grid1.Coords, EltTy.bits .f32 = 32 ∨ (Rect.block (s := S1024) S1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1024.size a ≤ S8192x1024.size a
  hwx1_10 : ∀ i : grid1.Coords, EltTy.bits .f32 = 32 ∨ (Rect.block (s := S8192x1024) S512x1024.size (cc1_transform_10 i) (hinb1_10 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S512x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S512x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192x1024_S8192_d1 : S8192x1024.ReducesTo [1] S8192
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Region0Run.lean ====
/- The projection kernel (the first of the program's two launches) run on whole staging buffers: what its
   three stores leave in the three output buffers, as functions of the seven input buffers' contents, and the
   triple of its body by symbolic execution. One control case; every access is a whole-buffer rectangle; each
   output buffer is read once (and the value dropped) before it is overwritten. -/
import proofs.«117877_j82918638617236_2_alg».proof.Proof.Gen.Kernel.Launch
import proofs.«117877_j82918638617236_2_alg».proof.Proof.Gen.Kernel.Skeleton
import proofs.«117877_j82918638617236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's accesses: the whole-buffer rectangles of the three buffer shapes -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1024 := Rect.unit (s := S1024) ![0] S1024.size inb_S1024_S1024_0

/-! ## What the body leaves in each output buffer -/

/-- The first output buffer (the scaled query projection) after the body, from the x block, the query weights
    and the query bias: its one whole-buffer store. -/
def out0_7 (x0 : Vec F S512x1024 .f32) (x1 : Vec F S1024x1024 .bf16) (x2 : Vec F S1024 .f32) : Vec F S512x1024 .bf16 :=
  View.canon [⟨r0_0, k0_pay2 (View.ld x0 r0_0) (View.ld x1 r0_1) (View.ld x2 r0_2)⟩]

/-- The second output buffer (the key projection), from the x block, the key weights and the key bias. -/
def out0_8 (x0 : Vec F S512x1024 .f32) (x3 : Vec F S1024x1024 .bf16) (x4 : Vec F S1024 .f32) : Vec F S512x1024 .bf16 :=
  View.canon [⟨r0_0, k0_pay3 (View.ld x0 r0_0) (View.ld x3 r0_1) (View.ld x4 r0_2)⟩]

/-- The third output buffer (the value projection), from the x block, the value weights and the value bias. -/
def out0_9 (x0 : Vec F S512x1024 .f32) (x5 : Vec F S1024x1024 .bf16) (x6 : Vec F S1024 .f32) : Vec F S512x1024 .bf16 :=
  View.canon [⟨r0_0, k0_pay4 (View.ld x0 r0_0) (View.ld x5 r0_1) (View.ld x6 r0_2)⟩]

/-- The one store tiles the buffer, so it covers it. -/
theorem cover0_7 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the seven inputs' at read contents `xW` and the three outputs' at
    anything, runs to the continuation holding the inputs' as they were and each output's at `out0_W` of the
    inputs'. -/
theorem sound_kernel0 (c : Dev nD) (E : Set ℕ) (i : grid0.Coords)
    (arg0 : Memref sig .tc .vmem S512x1024 .f32) (harg0 : arg0.IsWhole)
    (arg1 : Memref sig .tc .vmem S1024x1024 .bf16) (harg1 : arg1.IsWhole)
    (arg2 : Memref sig .tc .vmem S1024 .f32) (harg2 : arg2.IsWhole)
    (arg3 : Memref sig .tc .vmem S1024x1024 .bf16) (harg3 : arg3.IsWhole)
    (arg4 : Memref sig .tc .vmem S1024 .f32) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (x0 : Vec F S512x1024 .f32) (x1 : Vec F S1024x1024 .bf16) (x2 : Vec F S1024 .f32)
    (x3 : Vec F S1024x1024 .bf16) (x4 : Vec F S1024 .f32) (x5 : Vec F S1024x1024 .bf16) (x6 : Vec F S1024 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6
            ∗ owns (c : Thread nD τ) arg7 fullShare (out0_7 x0 x1 x2)
            ∗ owns (c : Thread nD τ) arg8 fullShare (out0_8 x0 x3 x4)
            ∗ owns (c : Thread nD τ) arg9 fullShare (out0_9 x0 x5 x6)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_7 _)

end Cert.Kernel.Hand

end
-- ==== Proof.K.Region0.lean ====
/- The first launch's region (the Q/K/V projection kernel on its grid of sixteen row blocks), at the buffer
   contents `V` the region is entered with: each window's block at a grid point, the proof data (after the body
   each input buffer holds its block and each output buffer the projection of the x block), and the body
   obligation at every point. -/
import proofs.«117877_j82918638617236_2_alg».proof.Proof.K.Region0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
    proof data whose array is `V`'s and whose body leaves the block in place: where the window is not fetched its
    block index has not moved (the x window moves with the point; the six weight and bias windows never move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays as the region finds them; after the body at
    point `t` each input's buffer at its block and each output's at the projection of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the kernel's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1Runs.lean ====
/- Region 1 (the attention kernel): what its three case runs share — the windows' blocks at the region-entry
   contents, the two branch conditions in closed form over the grid, where the output window is idle, the
   staging and scratch memrefs, and the region invariant with the scratch buffers spelled out. -/
import proofs.«117877_j82918638617236_2_alg».proof.Proof.Gen.Kernel.Launch
import proofs.«117877_j82918638617236_2_alg».proof.Proof.Gen.Kernel.Skeleton
import proofs.«117877_j82918638617236_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is the entry contents and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is the entry contents and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is the entry contents and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the running statistics), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8): the first key tile of each query block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the epilogue), from the grid coordinates. -/
abbrev cond1_1 (i : grid1.Coords) : Prop := k1_cond2 i = 1#1
/-- It holds at the points ≡ 7 (mod 8): the last key tile of each query block. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- At the points of case A the output window is idle: the case stores nothing into it. -/
theorem idleAt1_10_A : ∀ t : Fin cfg1.N, cond1_0 (grid1.coords t) → ¬cond1_1 (grid1.coords t) → cfg1.idle 10 (grid1.coords t) = true := by decide +kernel
/-- At the points of case A the pipeline does not write the output block back. -/
theorem noFlush1_10_A : ∀ t : Fin cfg1.N, cond1_0 (grid1.coords t) → ¬cond1_1 (grid1.coords t) → (cfg1.win 10).flush t = false := by decide +kernel
/-- At the points of case B the output window is idle. -/
theorem idleAt1_10_B : ∀ t : Fin cfg1.N, ¬cond1_0 (grid1.coords t) → ¬cond1_1 (grid1.coords t) → cfg1.idle 10 (grid1.coords t) = true := by decide +kernel
/-- At the points of case B the pipeline does not write the output block back. -/
theorem noFlush1_10_B : ∀ t : Fin cfg1.N, ¬cond1_0 (grid1.coords t) → ¬cond1_1 (grid1.coords t) → (cfg1.win 10).flush t = false := by decide +kernel
/-- At the points of case C the output window is live: the case stores into it. -/
theorem liveAt1_10_C : ∀ t : Fin cfg1.N, ¬cond1_0 (grid1.coords t) → cond1_1 (grid1.coords t) → cfg1.idle 10 (grid1.coords t) = false := by decide +kernel

/-! ## The staging and scratch memrefs -/

/-- One staging buffer of the output window, through which its contents are stated. -/
abbrev VO1_10 : View sig .tc .vmem S512x1024 .f32 := (Memref.whole cc1_stg10_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S512x1 .f32 := Memref.whole cc1_scratch0
abbrev VS1_0 : View sig .tc .vmem S512x1 .f32 := scM1_0.view
abbrev scM1_1 : Memref sig .tc .vmem S512x1 .f32 := Memref.whole cc1_scratch1
abbrev VS1_1 : View sig .tc .vmem S512x1 .f32 := scM1_1.view
abbrev scM1_2 : Memref sig .tc .vmem S512x1024 .f32 := Memref.whole cc1_scratch2
abbrev VS1_2 : View sig .tc .vmem S512x1024 .f32 := scM1_2.view

/-- The other region's staging buffers, each whole at some contents: the part of the scoped rest this region never touches. -/
def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region invariant with the scratch operands as memrefs owned at some contents: what the body obligation hands the
    run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.Region1RunA.lean ====
/- Region 1, the body's run at the first key tile of a query block. -/
import proofs.«117877_j82918638617236_2_alg».proof.Proof.K.Region1Runs

-- membership in a rectangle of production extents: the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    the first key tile of a query block: the reset branch runs, the epilogue does not; with the proof that on whole memrefs — the inputs' at their
    contents, the output's at contents handed back untouched, the scratch buffers at anything (each is stored before it is read) — the body runs
    to the continuation holding the inputs' as they were and each stored buffer with its pieces written. -/
noncomputable def kernelRun1_A (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun xi10 E K => ?run⟩
  case run =>
    simp only [cc1__flash_kernel_eq_skeleton]; unfold cc1__flash_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    iexists _; iexact HS2

end Cert.Kernel.Hand

end
-- ==== Proof.K.Region1RunB.lean ====
/- Region 1, the body's run at a middle key tile of a query block. -/
import proofs.«117877_j82918638617236_2_alg».proof.Proof.K.Region1RunA

-- membership in a rectangle of production extents: the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    a middle key tile: neither branch runs; with the proof that on whole memrefs — the inputs' at their
    contents, the output's at contents handed back untouched, the scratch buffers at what the point before left — the body runs
    to the continuation holding the inputs' as they were and each stored buffer with its pieces written. -/
noncomputable def kernelRun1_B (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun xi10 E K => ?run⟩
  case run =>
    simp only [cc1__flash_kernel_eq_skeleton]; unfold cc1__flash_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    iexists _; iexact HS2

end Cert.Kernel.Hand

end
-- ==== Proof.K.Region1RunC.lean ====
/- Region 1, the body's run at the last key tile of a query block. -/
import proofs.«117877_j82918638617236_2_alg».proof.Proof.K.Region1RunB

-- membership in a rectangle of production extents: the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    the last key tile of a query block: the epilogue runs, the reset does not; with the proof that on whole memrefs — the inputs' at their
    contents, the output's at anything, the scratch buffers at what the point before left — the body runs
    to the continuation holding the inputs' as they were and each stored buffer with its pieces written. -/
noncomputable def kernelRun1_C (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__flash_kernel_eq_skeleton]; unfold cc1__flash_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    iexists _; iexact HS2

end Cert.Kernel.Hand

end
-- ==== Proof.K.Region1.lean ====
/- Region 1 (the attention kernel), the rest of its half of the frame: what the output block and the three scratch
   buffers hold per case and point by point, the region invariant carrying the scratch contents from one key tile to
   the next, the proof data at the region-entry contents, and the body obligation. -/
import proofs.«117877_j82918638617236_2_alg».proof.Proof.K.Region1RunC

-- membership in a rectangle of production extents: the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The first key tile stores nothing into the output block (the window is idle there and not written back):
    no pieces — a placeholder that nothing consults. -/
def out1_A_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1024 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1)

/-- The case's pieces for scratch buffer 0 (the running maximum) tile it, so they cover it. -/
theorem scover1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 S512x1.size (by sl_kernel_rfl) y

/-- What the case leaves in scratch buffer 0: its pieces read back. -/
def sout1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1)

/-- The case's pieces for scratch buffer 1 (the running sum) tile it, so they cover it. -/
theorem scover1_A_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1.size (by sl_kernel_rfl) y

/-- What the case leaves in scratch buffer 1: its pieces read back. -/
def sout1_A_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)

/-- The case's pieces for scratch buffer 2 (the accumulator) tile it, so they cover it. -/
theorem scover1_A_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y

/-- What the case leaves in scratch buffer 2: its pieces read back. -/
def sout1_A_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- A middle key tile stores nothing into the output block (the window is idle there and not written back):
    no pieces — a placeholder that nothing consults. -/
def out1_B_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1)

/-- The case's pieces for scratch buffer 0 (the running maximum) tile it, so they cover it. -/
theorem scover1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1 S512x1.size (by sl_kernel_rfl) y

/-- What the case leaves in scratch buffer 0: its pieces read back. -/
def sout1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1)

/-- The case's pieces for scratch buffer 1 (the running sum) tile it, so they cover it. -/
theorem scover1_B_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1 S512x1.size (by sl_kernel_rfl) y

/-- What the case leaves in scratch buffer 1: its pieces read back. -/
def sout1_B_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1)

/-- The case's pieces for scratch buffer 2 (the accumulator) tile it, so they cover it. -/
theorem scover1_B_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1 S512x1024.size (by sl_kernel_rfl) y

/-- What the case leaves in scratch buffer 2: its pieces read back. -/
def sout1_B_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1)

/-- The last key tile's pieces for the output block tile it, so they cover it. -/
theorem cover1_C_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1 S512x1024.size (by sl_kernel_rfl) y

/-- What the last key tile leaves in the output's staging buffer: its pieces read back. -/
def out1_C_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1)

/-- The case's pieces for scratch buffer 0 (the running maximum) tile it, so they cover it. -/
theorem scover1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1 S512x1.size (by sl_kernel_rfl) y

/-- What the case leaves in scratch buffer 0: its pieces read back. -/
def sout1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1)

/-- The case's pieces for scratch buffer 1 (the running sum) tile it, so they cover it. -/
theorem scover1_C_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1 S512x1.size (by sl_kernel_rfl) y

/-- What the case leaves in scratch buffer 1: its pieces read back. -/
def sout1_C_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1)

/-- The case's pieces for scratch buffer 2 (the accumulator) tile it, so they cover it. -/
theorem scover1_C_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1 S512x1024.size (by sl_kernel_rfl) y

/-- What the case leaves in scratch buffer 2: its pieces read back. -/
def sout1_C_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1)

/-! ## What the output block and the scratch buffers hold after each point -/

/-- The accumulation: what the output's staging buffer and the three scratch buffers hold after the body at position `n`:
    the case the closed forms select there, run at the point's memrefs and input blocks, over the scratch contents the
    point before left (at the first key tile of a query block the scratch is reset before it is read, so nothing is carried in). -/
def outsAt1 (c : Dev nD) : (n : ℕ) → n < cfg1.N → Vec F S512x1024 .f32 × Vec F S512x1 .f32 × Vec F S512x1 .f32 × Vec F S512x1024 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      if h1 : (n + 1) % 8 = 7 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile: that case's contents. -/
theorem outsAt1_A (c : Dev nD) (t : Fin cfg1.N) (h0 : t.val % 8 = 0) (h1 : ¬t.val % 8 = 7) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

/-- `outsAt1` at a middle key tile: that case's contents, over what the point before left. -/
theorem outsAt1_B (c : Dev nD) (t : Fin cfg1.N) (h0 : ¬t.val % 8 = 0) (h1 : ¬t.val % 8 = 7) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile: that case's contents, over what the point before left. -/
theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the other region's staging buffers at anything, the three scratch buffers at what the point before left
    in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 16000000 in
/-- The body at any point: the inputs' memrefs hold their blocks; the closed forms say which case the point is in; the
    invariant hands the body the scratch buffers at what the point before left (at anything before the first point) and
    takes them back at this point's contents; the output's buffer is handed back untouched except at a last key tile; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10_C t (fun h => h0 ((hcond1_0 t).mp h)) ((hcond1_1 t).mpr h1)], after1_10]
      rw [outsAt1_C V c t h0 h1]
      unfold out1_C_10 sout1_C_0 sout1_C_1 sout1_C_2; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        isplitl [HS1]; · iexact HS1
        isplitl [HS2]; · iexact HS2
        iintro ⟨H0, H1, H2, H3, H4, H5, H6, H7, H8, H9, ⟨%e10, H10⟩, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, HS0, HS1, HS2⟩, Hg⟩
  isplitl [Hr0 Hr1 Hr2 Hr3 Hr4 Hr5 Hr6 Hr7 Hr8 Hr9 Hr10 Hr11 Hr12 Hr13 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
/-
  The run of the whole program: the two kernel regions and the host operations around them, composed in order.

  Between two items of the program every buffer that outlives a region is held whole at contents named here: the launch
  memory; after the four weight conversions; after the projection region, whose three output arrays hold what its
  write-backs leave and every other buffer what it held; after the two reshapes of the community numbers; after the
  attention region, whose output array holds what its write-backs leave. No host operation and no region writes an
  argument array (a region reads one through an input window or does not touch it), so each argument reads back through
  these contents to the launch memory; and the result buffer ends at the attention region's folded write-backs.
-/
import proofs.«117877_j82918638617236_2_alg».proof.Proof.K.Region0
import proofs.«117877_j82918638617236_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the four weight conversions (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes of the community numbers (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Each argument array ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 5).trans (((dat1 (V3 m ρ) c).arrAt_in 5 rfl _).trans (A_eq1 (V3 m ρ) c 5))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 6).trans (((dat0 (V1 m ρ) c).arrAt_in 6 rfl _).trans (A_eq0 (V1 m ρ) c 6))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 8).trans (((dat1 (V3 m ρ) c).arrAt_in 8 rfl _).trans (A_eq1 (V3 m ρ) c 8))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 9).trans (((dat1 (V3 m ρ) c).arrAt_in 9 rfl _).trans (A_eq1 (V3 m ρ) c 9))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- The result buffer ends at the attention region's folded write-backs. -/
theorem W4_main_v7 (c : Dev nD) : W4 m ρ c (Proc.devRef .tc main_v7) = (dat1 (V3 m ρ) c).arrAt 10 cfg1.N :=
  W4_arr m ρ c 10

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items of the program -/

set_option backward.isDefEq.respectTransparency.types false in
/-- Region 0 over the thread state "every unscoped buffer at the boundary's contents, the generator register at some state,
    nothing owed": its arrays are split out of the unscoped buffers at entry and put back at their exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays are split out of the unscoped buffers at entry and put back at their exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    have h : (Pipeline.ΦA spec1 c : sProp 𝕄) ⊢ iprop((∃ r, prngReg c r) ∗ Pipeline.ownSems0 (fun k : PEmpty => k.elim) c
          ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and in
    every final state each buffer that outlives the regions holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The run with the result named: the result buffer ends at the attention region's folded write-backs, the arguments as launched. -/
theorem run_value : θ_run defs (onTc (τ := τ) (main (F := F))) ⟨m, fun _ => 0, ρ⟩ (fun r => ∀ c : Dev nD,
      r.2.mem ((c.tc : Thread nD τ).loc main_v7) = (dat1 (V3 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (W4_main_v7 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.Kernel.Hand

end
-- ==== Proof.KI.Region0Run.lean ====
/- The projection kernel (the first of the program's two launches) run on whole staging buffers: what its
   three stores leave in the three output buffers, as functions of the seven input buffers' contents, and the
   triple of its body by symbolic execution. One control case; every access is a whole-buffer rectangle; each
   output buffer is read once (and the value dropped) before it is overwritten. -/
import proofs.«117877_j82918638617236_2_alg».proof.Proof.Gen.KernelIdeal.Launch
import proofs.«117877_j82918638617236_2_alg».proof.Proof.Gen.KernelIdeal.Skeleton
import proofs.«117877_j82918638617236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's accesses: the whole-buffer rectangles of the three buffer shapes -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1024 := Rect.unit (s := S1024) ![0] S1024.size inb_S1024_S1024_0

/-! ## What the body leaves in each output buffer -/

/-- The first output buffer (the scaled query projection) after the body, from the x block, the query weights
    and the query bias: its one whole-buffer store. -/
def out0_7 (x0 : Vec F S512x1024 .f32) (x1 : Vec F S1024x1024 .bf16) (x2 : Vec F S1024 .f32) : Vec F S512x1024 .bf16 :=
  View.canon [⟨r0_0, k0_pay2 (View.ld x0 r0_0) (View.ld x1 r0_1) (View.ld x2 r0_2)⟩]

/-- The second output buffer (the key projection), from the x block, the key weights and the key bias. -/
def out0_8 (x0 : Vec F S512x1024 .f32) (x3 : Vec F S1024x1024 .bf16) (x4 : Vec F S1024 .f32) : Vec F S512x1024 .bf16 :=
  View.canon [⟨r0_0, k0_pay3 (View.ld x0 r0_0) (View.ld x3 r0_1) (View.ld x4 r0_2)⟩]

/-- The third output buffer (the value projection), from the x block, the value weights and the value bias. -/
def out0_9 (x0 : Vec F S512x1024 .f32) (x5 : Vec F S1024x1024 .bf16) (x6 : Vec F S1024 .f32) : Vec F S512x1024 .bf16 :=
  View.canon [⟨r0_0, k0_pay4 (View.ld x0 r0_0) (View.ld x5 r0_1) (View.ld x6 r0_2)⟩]

/-- The one store tiles the buffer, so it covers it. -/
theorem cover0_7 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the seven inputs' at read contents `xW` and the three outputs' at
    anything, runs to the continuation holding the inputs' as they were and each output's at `out0_W` of the
    inputs'. -/
theorem sound_kernel0 (c : Dev nD) (E : Set ℕ) (i : grid0.Coords)
    (arg0 : Memref sig .tc .vmem S512x1024 .f32) (harg0 : arg0.IsWhole)
    (arg1 : Memref sig .tc .vmem S1024x1024 .bf16) (harg1 : arg1.IsWhole)
    (arg2 : Memref sig .tc .vmem S1024 .f32) (harg2 : arg2.IsWhole)
    (arg3 : Memref sig .tc .vmem S1024x1024 .bf16) (harg3 : arg3.IsWhole)
    (arg4 : Memref sig .tc .vmem S1024 .f32) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (x0 : Vec F S512x1024 .f32) (x1 : Vec F S1024x1024 .bf16) (x2 : Vec F S1024 .f32)
    (x3 : Vec F S1024x1024 .bf16) (x4 : Vec F S1024 .f32) (x5 : Vec F S1024x1024 .bf16) (x6 : Vec F S1024 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6
            ∗ owns (c : Thread nD τ) arg7 fullShare (out0_7 x0 x1 x2)
            ∗ owns (c : Thread nD τ) arg8 fullShare (out0_8 x0 x3 x4)
            ∗ owns (c : Thread nD τ) arg9 fullShare (out0_9 x0 x5 x6)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_7 _)

end Cert.KernelIdeal.Hand

end
-- ==== Proof.KI.Region0.lean ====
/- The first launch's region (the Q/K/V projection kernel on its grid of sixteen row blocks), at the buffer
   contents `V` the region is entered with: each window's block at a grid point, the proof data (after the body
   each input buffer holds its block and each output buffer the projection of the x block), and the body
   obligation at every point. -/
import proofs.«117877_j82918638617236_2_alg».proof.Proof.KI.Region0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
    proof data whose array is `V`'s and whose body leaves the block in place: where the window is not fetched its
    block index has not moved (the x window moves with the point; the six weight and bias windows never move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays as the region finds them; after the body at
    point `t` each input's buffer at its block and each output's at the projection of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the kernel's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1Runs.lean ====
/- Region 1 (the attention kernel): what its three case runs share — the windows' blocks at the region-entry
   contents, the two branch conditions in closed form over the grid, where the output window is idle, the
   staging and scratch memrefs, and the region invariant with the scratch buffers spelled out. -/
import proofs.«117877_j82918638617236_2_alg».proof.Proof.Gen.KernelIdeal.Launch
import proofs.«117877_j82918638617236_2_alg».proof.Proof.Gen.KernelIdeal.Skeleton
import proofs.«117877_j82918638617236_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is the entry contents and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is the entry contents and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is the entry contents and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the running statistics), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8): the first key tile of each query block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the epilogue), from the grid coordinates. -/
abbrev cond1_1 (i : grid1.Coords) : Prop := k1_cond2 i = 1#1
/-- It holds at the points ≡ 7 (mod 8): the last key tile of each query block. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- At the points of case A the output window is idle: the case stores nothing into it. -/
theorem idleAt1_10_A : ∀ t : Fin cfg1.N, cond1_0 (grid1.coords t) → ¬cond1_1 (grid1.coords t) → cfg1.idle 10 (grid1.coords t) = true := by decide +kernel
/-- At the points of case A the pipeline does not write the output block back. -/
theorem noFlush1_10_A : ∀ t : Fin cfg1.N, cond1_0 (grid1.coords t) → ¬cond1_1 (grid1.coords t) → (cfg1.win 10).flush t = false := by decide +kernel
/-- At the points of case B the output window is idle. -/
theorem idleAt1_10_B : ∀ t : Fin cfg1.N, ¬cond1_0 (grid1.coords t) → ¬cond1_1 (grid1.coords t) → cfg1.idle 10 (grid1.coords t) = true := by decide +kernel
/-- At the points of case B the pipeline does not write the output block back. -/
theorem noFlush1_10_B : ∀ t : Fin cfg1.N, ¬cond1_0 (grid1.coords t) → ¬cond1_1 (grid1.coords t) → (cfg1.win 10).flush t = false := by decide +kernel
/-- At the points of case C the output window is live: the case stores into it. -/
theorem liveAt1_10_C : ∀ t : Fin cfg1.N, ¬cond1_0 (grid1.coords t) → cond1_1 (grid1.coords t) → cfg1.idle 10 (grid1.coords t) = false := by decide +kernel

/-! ## The staging and scratch memrefs -/

/-- One staging buffer of the output window, through which its contents are stated. -/
abbrev VO1_10 : View sig .tc .vmem S512x1024 .f32 := (Memref.whole cc1_stg10_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S512x1 .f32 := Memref.whole cc1_scratch0
abbrev VS1_0 : View sig .tc .vmem S512x1 .f32 := scM1_0.view
abbrev scM1_1 : Memref sig .tc .vmem S512x1 .f32 := Memref.whole cc1_scratch1
abbrev VS1_1 : View sig .tc .vmem S512x1 .f32 := scM1_1.view
abbrev scM1_2 : Memref sig .tc .vmem S512x1024 .f32 := Memref.whole cc1_scratch2
abbrev VS1_2 : View sig .tc .vmem S512x1024 .f32 := scM1_2.view

/-- The other region's staging buffers, each whole at some contents: the part of the scoped rest this region never touches. -/
def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region invariant with the scratch operands as memrefs owned at some contents: what the body obligation hands the
    run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.Region1RunA.lean ====
/- Region 1, the body's run at the first key tile of a query block. -/
import proofs.«117877_j82918638617236_2_alg».proof.Proof.KI.Region1Runs

-- membership in a rectangle of production extents: the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    the first key tile of a query block: the reset branch runs, the epilogue does not; with the proof that on whole memrefs — the inputs' at their
    contents, the output's at contents handed back untouched, the scratch buffers at anything (each is stored before it is read) — the body runs
    to the continuation holding the inputs' as they were and each stored buffer with its pieces written. -/
noncomputable def kernelRun1_A (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun xi10 E K => ?run⟩
  case run =>
    simp only [cc1__flash_kernel_eq_skeleton]; unfold cc1__flash_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    iexists _; iexact HS2

end Cert.KernelIdeal.Hand

end
-- ==== Proof.KI.Region1RunB.lean ====
/- Region 1, the body's run at a middle key tile of a query block. -/
import proofs.«117877_j82918638617236_2_alg».proof.Proof.KI.Region1RunA

-- membership in a rectangle of production extents: the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    a middle key tile: neither branch runs; with the proof that on whole memrefs — the inputs' at their
    contents, the output's at contents handed back untouched, the scratch buffers at what the point before left — the body runs
    to the continuation holding the inputs' as they were and each stored buffer with its pieces written. -/
noncomputable def kernelRun1_B (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun xi10 E K => ?run⟩
  case run =>
    simp only [cc1__flash_kernel_eq_skeleton]; unfold cc1__flash_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    iexists _; iexact HS2

end Cert.KernelIdeal.Hand

end
-- ==== Proof.KI.Region1RunC.lean ====
/- Region 1, the body's run at the last key tile of a query block. -/
import proofs.«117877_j82918638617236_2_alg».proof.Proof.KI.Region1RunB

-- membership in a rectangle of production extents: the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the three scratch buffers, as pieces (last first), at
    the last key tile of a query block: the epilogue runs, the reset does not; with the proof that on whole memrefs — the inputs' at their
    contents, the output's at anything, the scratch buffers at what the point before left — the body runs
    to the continuation holding the inputs' as they were and each stored buffer with its pieces written. -/
noncomputable def kernelRun1_C (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    Σ' (L10 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__flash_kernel_eq_skeleton]; unfold cc1__flash_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    iexists _; iexact HS2

end Cert.KernelIdeal.Hand

end
-- ==== Proof.KI.Region1.lean ====
/- Region 1 (the attention kernel), the rest of its half of the frame: what the output block and the three scratch
   buffers hold per case and point by point, the region invariant carrying the scratch contents from one key tile to
   the next, the proof data at the region-entry contents, and the body obligation. -/
import proofs.«117877_j82918638617236_2_alg».proof.Proof.KI.Region1RunC

-- membership in a rectangle of production extents: the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The first key tile stores nothing into the output block (the window is idle there and not written back):
    no pieces — a placeholder that nothing consults. -/
def out1_A_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1024 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1)

/-- The case's pieces for scratch buffer 0 (the running maximum) tile it, so they cover it. -/
theorem scover1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 S512x1.size (by sl_kernel_rfl) y

/-- What the case leaves in scratch buffer 0: its pieces read back. -/
def sout1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1)

/-- The case's pieces for scratch buffer 1 (the running sum) tile it, so they cover it. -/
theorem scover1_A_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S512x1.size (by sl_kernel_rfl) y

/-- What the case leaves in scratch buffer 1: its pieces read back. -/
def sout1_A_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)

/-- The case's pieces for scratch buffer 2 (the accumulator) tile it, so they cover it. -/
theorem scover1_A_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S512x1024.size (by sl_kernel_rfl) y

/-- What the case leaves in scratch buffer 2: its pieces read back. -/
def sout1_A_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) : Vec F S512x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- A middle key tile stores nothing into the output block (the window is idle there and not written back):
    no pieces — a placeholder that nothing consults. -/
def out1_B_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1)

/-- The case's pieces for scratch buffer 0 (the running maximum) tile it, so they cover it. -/
theorem scover1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1 S512x1.size (by sl_kernel_rfl) y

/-- What the case leaves in scratch buffer 0: its pieces read back. -/
def sout1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1)

/-- The case's pieces for scratch buffer 1 (the running sum) tile it, so they cover it. -/
theorem scover1_B_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1 S512x1.size (by sl_kernel_rfl) y

/-- What the case leaves in scratch buffer 1: its pieces read back. -/
def sout1_B_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1)

/-- The case's pieces for scratch buffer 2 (the accumulator) tile it, so they cover it. -/
theorem scover1_B_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1 S512x1024.size (by sl_kernel_rfl) y

/-- What the case leaves in scratch buffer 2: its pieces read back. -/
def sout1_B_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1)

/-- The last key tile's pieces for the output block tile it, so they cover it. -/
theorem cover1_C_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1 S512x1024.size (by sl_kernel_rfl) y

/-- What the last key tile leaves in the output's staging buffer: its pieces read back. -/
def out1_C_10 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).1)

/-- The case's pieces for scratch buffer 0 (the running maximum) tile it, so they cover it. -/
theorem scover1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1 S512x1.size (by sl_kernel_rfl) y

/-- What the case leaves in scratch buffer 0: its pieces read back. -/
def sout1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.1)

/-- The case's pieces for scratch buffer 1 (the running sum) tile it, so they cover it. -/
theorem scover1_C_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1 S512x1.size (by sl_kernel_rfl) y

/-- What the case leaves in scratch buffer 1: its pieces read back. -/
def sout1_C_1 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.1)

/-- The case's pieces for scratch buffer 2 (the accumulator) tile it, so they cover it. -/
theorem scover1_C_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1 S512x1024.size (by sl_kernel_rfl) y

/-- What the case leaves in scratch buffer 2: its pieces read back. -/
def sout1_C_2 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i)
    (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2).2.2.2.1)

/-! ## What the output block and the scratch buffers hold after each point -/

/-- The accumulation: what the output's staging buffer and the three scratch buffers hold after the body at position `n`:
    the case the closed forms select there, run at the point's memrefs and input blocks, over the scratch contents the
    point before left (at the first key tile of a query block the scratch is reset before it is read, so nothing is carried in). -/
def outsAt1 (c : Dev nD) : (n : ℕ) → n < cfg1.N → Vec F S512x1024 .f32 × Vec F S512x1 .f32 × Vec F S512x1 .f32 × Vec F S512x1024 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      if h1 : (n + 1) % 8 = 7 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile: that case's contents. -/
theorem outsAt1_A (c : Dev nD) (t : Fin cfg1.N) (h0 : t.val % 8 = 0) (h1 : ¬t.val % 8 = 7) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

/-- `outsAt1` at a middle key tile: that case's contents, over what the point before left. -/
theorem outsAt1_B (c : Dev nD) (t : Fin cfg1.N) (h0 : ¬t.val % 8 = 0) (h1 : ¬t.val % 8 = 7) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile: that case's contents, over what the point before left. -/
theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the other region's staging buffers at anything, the three scratch buffers at what the point before left
    in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 16000000 in
/-- The body at any point: the inputs' memrefs hold their blocks; the closed forms say which case the point is in; the
    invariant hands the body the scratch buffers at what the point before left (at anything before the first point) and
    takes them back at this point's contents; the output's buffer is handed back untouched except at a last key tile; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10_C t (fun h => h0 ((hcond1_0 t).mp h)) ((hcond1_1 t).mpr h1)], after1_10]
      rw [outsAt1_C V c t h0 h1]
      unfold out1_C_10 sout1_C_0 sout1_C_1 sout1_C_2; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        isplitl [HS1]; · iexact HS1
        isplitl [HS2]; · iexact HS2
        iintro ⟨H0, H1, H2, H3, H4, H5, H6, H7, H8, H9, ⟨%e10, H10⟩, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [Hr0 Hr1 Hr2 Hr3 Hr4 Hr5 Hr6 Hr7 Hr8 Hr9 Hr10 Hr11 Hr12 Hr13 HS0 HS1 HS2 Hg]
        · isplitl [Hr0 Hr1 Hr2 Hr3 Hr4 Hr5 Hr6 Hr7 Hr8 Hr9 Hr10 Hr11 Hr12 Hr13 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [Hr11]; · iexact Hr11
            isplitl [Hr12]; · iexact Hr12
            isplitl [Hr13]; · iexact Hr13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, HS0, HS1, HS2⟩, Hg⟩
  isplitl [Hr0 Hr1 Hr2 Hr3 Hr4 Hr5 Hr6 Hr7 Hr8 Hr9 Hr10 Hr11 Hr12 Hr13 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  The run of the whole program: the two kernel regions and the host operations around them, composed in order.

  Between two items of the program every buffer that outlives a region is held whole at contents named here: the launch
  memory; after the four weight conversions; after the projection region, whose three output arrays hold what its
  write-backs leave and every other buffer what it held; after the two reshapes of the community numbers; after the
  attention region, whose output array holds what its write-backs leave. No host operation and no region writes an
  argument array (a region reads one through an input window or does not touch it), so each argument reads back through
  these contents to the launch memory; and the result buffer ends at the attention region's folded write-backs.
-/
import proofs.«117877_j82918638617236_2_alg».proof.Proof.KI.Region0
import proofs.«117877_j82918638617236_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the four weight conversions (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes of the community numbers (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Each argument array ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 5).trans (((dat1 (V3 m ρ) c).arrAt_in 5 rfl _).trans (A_eq1 (V3 m ρ) c 5))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 6).trans (((dat0 (V1 m ρ) c).arrAt_in 6 rfl _).trans (A_eq0 (V1 m ρ) c 6))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 8).trans (((dat1 (V3 m ρ) c).arrAt_in 8 rfl _).trans (A_eq1 (V3 m ρ) c 8))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 9).trans (((dat1 (V3 m ρ) c).arrAt_in 9 rfl _).trans (A_eq1 (V3 m ρ) c 9))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- The result buffer ends at the attention region's folded write-backs. -/
theorem W4_main_v7 (c : Dev nD) : W4 m ρ c (Proc.devRef .tc main_v7) = (dat1 (V3 m ρ) c).arrAt 10 cfg1.N :=
  W4_arr m ρ c 10

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items of the program -/

set_option backward.isDefEq.respectTransparency.types false in
/-- Region 0 over the thread state "every unscoped buffer at the boundary's contents, the generator register at some state,
    nothing owed": its arrays are split out of the unscoped buffers at entry and put back at their exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays are split out of the unscoped buffers at entry and put back at their exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    have h : (Pipeline.ΦA spec1 c : sProp 𝕄) ⊢ iprop((∃ r, prngReg c r) ∗ Pipeline.ownSems0 (fun k : PEmpty => k.elim) c
          ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and in
    every final state each buffer that outlives the regions holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The run with the result named: the result buffer ends at the attention region's folded write-backs, the arguments as launched. -/
theorem run_value : θ_run defs (onTc (τ := τ) (main (F := F))) ⟨m, fun _ => 0, ρ⟩ (fun r => ∀ c : Dev nD,
      r.2.mem ((c.tc : Thread nD τ).loc main_v7) = (dat1 (V3 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (W4_main_v7 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.KernelIdeal.Hand

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KI.Entry.lean ====
/-
  What each array holds when the attention region is entered, traced back to the launch memory.

  The four weight conversions change the float format only, which is the identity on the extended reals; the two reshapes
  lay the vector of community numbers as a column and as a row; no host operation writes an argument; the projection region
  changes only its three output arrays. So every array the attention region reads is an argument array, a converted weight
  array (the same extended reals as the argument), a reshape of the community numbers, or one of the projection region's
  outputs at what its write-backs leave.
-/
import proofs.«117877_j82918638617236_2_alg».proof.Proof.KI.Run
import Idealize.ShloMosaic.Lib.StableHlo.Run
import Idealize.ShloMosaic.Lib.ValueIdx
import Idealize.ShloMosaic.Lib.Pipeline.Value
import proofs.«117877_j82918638617236_2_alg».proof.Proof.LibColumnLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The arguments at every boundary -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg3 (c : Dev nD) : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg5 (c : Dev nD) : W2 m ρ c (Proc.devRef .tc main_arg5) = m ((c : Thread nD τ).loc main_arg5) :=
  ((W2_arr m ρ c 4).trans (((dat0 (V1 m ρ) c).arrAt_in 4 rfl _).trans (A_eq0 (V1 m ρ) c 4))).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg7 (c : Dev nD) : W2 m ρ c (Proc.devRef .tc main_arg7) = m ((c : Thread nD τ).loc main_arg7) :=
  ((W2_arr m ρ c 6).trans (((dat0 (V1 m ρ) c).arrAt_in 6 rfl _).trans (A_eq0 (V1 m ρ) c 6))).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg8 m ρ c)
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg9 m ρ c)
theorem W1_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg10 m ρ c)
theorem W1_main_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg11 m ρ c)

/-! ## The converted weights -/

/-- A converted weight array holds the same extended reals as the weight argument. -/
theorem W1_main_v0 (c : Dev nD) : (W1 m ρ c (Proc.devRef .tc main_v0) : S1024x1024.Idx → EReal)
    = (m ((c : Thread nD τ).loc main_arg2) : S1024x1024.Idx → EReal) := by
  show (StableHlo.after hostOps0 (W0 m ρ c) (Proc.devRef .tc main_v0) : S1024x1024.Idx → EReal) = _
  after_results
  rfl
theorem W2_main_v0 (c : Dev nD) : (W2 m ρ c (Proc.devRef .tc main_v0) : S1024x1024.Idx → EReal)
    = (m ((c : Thread nD τ).loc main_arg2) : S1024x1024.Idx → EReal) :=
  (congrArg (fun f : Buf (Elt Ideal) ((c : Thread nD τ).loc main_v0) => (f : S1024x1024.Idx → EReal)) ((W2_arr m ρ c 1).trans (((dat0 (V1 m ρ) c).arrAt_in 1 rfl _).trans (A_eq0 (V1 m ρ) c 1)))).trans (W1_main_v0 m ρ c)
/-- A converted weight array holds the same extended reals as the weight argument. -/
theorem W1_main_v1 (c : Dev nD) : (W1 m ρ c (Proc.devRef .tc main_v1) : S1024x1024.Idx → EReal)
    = (m ((c : Thread nD τ).loc main_arg4) : S1024x1024.Idx → EReal) := by
  show (StableHlo.after hostOps0 (W0 m ρ c) (Proc.devRef .tc main_v1) : S1024x1024.Idx → EReal) = _
  after_results
  rfl
theorem W2_main_v1 (c : Dev nD) : (W2 m ρ c (Proc.devRef .tc main_v1) : S1024x1024.Idx → EReal)
    = (m ((c : Thread nD τ).loc main_arg4) : S1024x1024.Idx → EReal) :=
  (congrArg (fun f : Buf (Elt Ideal) ((c : Thread nD τ).loc main_v1) => (f : S1024x1024.Idx → EReal)) ((W2_arr m ρ c 3).trans (((dat0 (V1 m ρ) c).arrAt_in 3 rfl _).trans (A_eq0 (V1 m ρ) c 3)))).trans (W1_main_v1 m ρ c)
/-- A converted weight array holds the same extended reals as the weight argument. -/
theorem W1_main_v2 (c : Dev nD) : (W1 m ρ c (Proc.devRef .tc main_v2) : S1024x1024.Idx → EReal)
    = (m ((c : Thread nD τ).loc main_arg6) : S1024x1024.Idx → EReal) := by
  show (StableHlo.after hostOps0 (W0 m ρ c) (Proc.devRef .tc main_v2) : S1024x1024.Idx → EReal) = _
  after_results
  rfl
theorem W2_main_v2 (c : Dev nD) : (W2 m ρ c (Proc.devRef .tc main_v2) : S1024x1024.Idx → EReal)
    = (m ((c : Thread nD τ).loc main_arg6) : S1024x1024.Idx → EReal) :=
  (congrArg (fun f : Buf (Elt Ideal) ((c : Thread nD τ).loc main_v2) => (f : S1024x1024.Idx → EReal)) ((W2_arr m ρ c 5).trans (((dat0 (V1 m ρ) c).arrAt_in 5 rfl _).trans (A_eq0 (V1 m ρ) c 5)))).trans (W1_main_v2 m ρ c)
/-- A converted weight array holds the same extended reals as the weight argument. -/
theorem W1_main_v3 (c : Dev nD) : (W1 m ρ c (Proc.devRef .tc main_v3) : S1024x1024.Idx → EReal)
    = (m ((c : Thread nD τ).loc main_arg8) : S1024x1024.Idx → EReal) := by
  show (StableHlo.after hostOps0 (W0 m ρ c) (Proc.devRef .tc main_v3) : S1024x1024.Idx → EReal) = _
  after_results
  rfl
theorem W2_main_v3 (c : Dev nD) : (W2 m ρ c (Proc.devRef .tc main_v3) : S1024x1024.Idx → EReal)
    = (m ((c : Thread nD τ).loc main_arg8) : S1024x1024.Idx → EReal) :=
  (congrArg (fun f : Buf (Elt Ideal) ((c : Thread nD τ).loc main_v3) => (f : S1024x1024.Idx → EReal)) (W2_of_ne m ρ c main_v3 (by decide))).trans (W1_main_v3 m ρ c)
theorem W3_main_v3 (c : Dev nD) : (W3 m ρ c (Proc.devRef .tc main_v3) : S1024x1024.Idx → EReal)
    = (m ((c : Thread nD τ).loc main_arg8) : S1024x1024.Idx → EReal) :=
  (congrArg (fun f : Buf (Elt Ideal) ((c : Thread nD τ).loc main_v3) => (f : S1024x1024.Idx → EReal)) (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (W2_main_v3 m ρ c)

/-! ## The projection region's outputs, and the community numbers as a column and as a row -/

theorem W3_main_v4_0 (c : Dev nD) : W3 m ρ c (Proc.devRef .tc main_v4_0) = (dat0 (V1 m ρ) c).arrAt 7 cfg0.N :=
  (StableHlo.after_of_forall_not_mem (b := Proc.devRef .tc main_v4_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 7)
theorem W3_main_v4_1 (c : Dev nD) : W3 m ρ c (Proc.devRef .tc main_v4_1) = (dat0 (V1 m ρ) c).arrAt 8 cfg0.N :=
  (StableHlo.after_of_forall_not_mem (b := Proc.devRef .tc main_v4_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 8)
theorem W3_main_v4_2 (c : Dev nD) : W3 m ρ c (Proc.devRef .tc main_v4_2) = (dat0 (V1 m ρ) c).arrAt 9 cfg0.N :=
  (StableHlo.after_of_forall_not_mem (b := Proc.devRef .tc main_v4_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 9)

theorem W3_main_v5 (c : Dev nD) (r : Fin 8192) : (W3 m ρ c (Proc.devRef .tc main_v5) : S8192x1.Idx → BitVec 32) (ix2 r (0 : Fin 1))
    = (m ((c : Thread nD τ).loc main_arg1) : S8192.Idx → BitVec 32) (ix1 r) := by
  show (StableHlo.after hostOps1 (W2 m ρ c) (Proc.devRef .tc main_v5) : S8192x1.Idx → BitVec 32) (ix2 r (0 : Fin 1)) = _
  after_results
  show shapeCast S8192x1 (W2 m ρ c (Proc.devRef .tc main_arg1) : S8192.Idx → BitVec 32) shapeCasts_S8192_S8192x1 (ix2 r (0 : Fin 1)) = _
  rw [ColumnLayout.shapeCast_a_a1_apply, W2_main_arg1]

theorem W3_main_v6 (c : Dev nD) (j : Fin 8192) : (W3 m ρ c (Proc.devRef .tc main_v6) : S1x8192.Idx → BitVec 32) (ix2 (0 : Fin 1) j)
    = (m ((c : Thread nD τ).loc main_arg1) : S8192.Idx → BitVec 32) (ix1 j) := by
  show (StableHlo.after hostOps1 (W2 m ρ c) (Proc.devRef .tc main_v6) : S1x8192.Idx → BitVec 32) (ix2 (0 : Fin 1) j) = _
  after_results
  show shapeCast S1x8192 (W2 m ρ c (Proc.devRef .tc main_arg1) : S8192.Idx → BitVec 32) shapeCasts_S8192_S1x8192 (ix2 (0 : Fin 1) j) = _
  rw [W2_main_arg1]
  exact shapeCast_a_1a_apply _ _ _ _

end Cert.KernelIdeal.Hand

end
-- ==== Proof.Spec.lean ====
/-
  The function both programs compute, index by index, on the extended reals.

  Rows are the 8192 communities, columns the 1024 features. With x the representations and ids the community numbers:
  Q, K, V are the three affine projections x·W + b; the score of query r against key j is the inner product of Q's row r with
  K's row j times the scale c, and bottom when r and j carry the same community number; each row of scores is normalised by the
  softmax (subtract the row's maximum, exponentiate, divide by the row's sum); the normalised row weights V's rows; the output
  projection, its bias and the residual x are added; and each row is normalised to mean 0 and variance 1 (with the epsilon
  under the root), scaled by gamma and shifted by beta.

  The arrangement below is the textbook one: scale after the contraction, each weight divided by the row's sum before it meets V.
  The constants are the three float words the two programs share, read exactly.
-/
import Idealize.ShloMosaic.PureOps.Ideal

noncomputable section

namespace Cert.CommAttn

open Idealize.ShloMosaic

/-- A community (a row of the representations, a query, a key). -/
abbrev Row := Fin 8192
/-- A feature (a column). -/
abbrev Col := Fin 1024

/-- The scale on the scores, the float word both programs carry (the nearest float to 1/√128). -/
def scale : EReal := Ideal.ofBits .f32 0x3DB504F3#32
/-- The number of features as a float, 1024. -/
def width : EReal := Ideal.ofBits .f32 0x44800000#32
/-- The epsilon under the root, the float word both programs carry. -/
def eps : EReal := Ideal.ofBits .f32 0x3727C5AC#32

/-- An affine projection x·W + b at row r, feature d. -/
def proj (x : Row → Col → EReal) (W : Col → Col → EReal) (b : Col → EReal) (r : Row) (d : Col) : EReal :=
  (∑ k, x r k * W k d) + b d

/-- The masked score of query r against key j: bottom inside a community, else the scaled inner product. -/
def score (ids : Row → BitVec 32) (Q K : Row → Col → EReal) (r j : Row) : EReal :=
  if ids r = ids j then ⊥ else (∑ d, Q r d * K j d) * scale

/-- The largest score of row r (bottom when every key is masked). -/
def rowMax (s : Row → Row → EReal) (r : Row) : EReal := Finset.univ.fold max ⊥ (s r)

/-- The exponential of a score shifted by its row's maximum. -/
def expo (s : Row → Row → EReal) (r j : Row) : EReal := Ideal.exp (s r j - rowMax s r)

/-- The row's sum of shifted exponentials. -/
def denom (s : Row → Row → EReal) (r : Row) : EReal := ∑ j, expo s r j

/-- The attention output: each key's weight divided by the row's sum, then the weighted sum of V's rows. -/
def attend (s : Row → Row → EReal) (V : Row → Col → EReal) (r : Row) (d : Col) : EReal :=
  ∑ j, Ideal.div (expo s r j) (denom s r) * V j d

/-- Output projection, bias and residual. -/
def resid (A : Row → Col → EReal) (Wo : Col → Col → EReal) (bo : Col → EReal) (x : Row → Col → EReal)
    (r : Row) (e : Col) : EReal :=
  (∑ d, A r d * Wo d e) + bo e + x r e

/-- The mean of row r. -/
def mean (h : Row → Col → EReal) (r : Row) : EReal := Ideal.div (∑ e, h r e) width

/-- The variance of row r (mean of squared deviations). -/
def var (h : Row → Col → EReal) (r : Row) : EReal :=
  Ideal.div (∑ e, (h r e - mean h r) * (h r e - mean h r)) width

/-- Row normalisation with scale gamma and shift beta. -/
def layerNorm (h : Row → Col → EReal) (γ β : Col → EReal) (r : Row) (e : Col) : EReal :=
  (h r e - mean h r) * Ideal.rsqrt (var h r + eps) * γ e + β e

/-- The whole function of the twelve argument arrays. -/
def result (x : Row → Col → EReal) (ids : Row → BitVec 32) (Wq : Col → Col → EReal) (bq : Col → EReal)
    (Wk : Col → Col → EReal) (bk : Col → EReal) (Wv : Col → Col → EReal) (bv : Col → EReal)
    (Wo : Col → Col → EReal) (bo γ β : Col → EReal) : Row → Col → EReal :=
  layerNorm (resid (attend (score ids (proj x Wq bq) (proj x Wk bk)) (proj x Wv bv)) Wo bo x) γ β

end Cert.CommAttn

end
-- ==== Proof.KI.Views.lean ====
/-
  The arrays of the attention region as it finds them, named by what they are: the scaled queries, the keys, the values,
  the community numbers of the queries (a column) and of the keys (a row), the representations, the output weights and bias,
  the scale and shift of the normalisation; and the masked score the kernel forms from them — bottom where the query's and
  the key's community numbers agree, else the inner product of the scaled query row with the key row.
-/
import proofs.«117877_j82918638617236_2_alg».proof.Proof.Gen.KernelIdeal.Launch
import proofs.«117877_j82918638617236_2_alg».proof.Proof.Spec
import Idealize.ShloMosaic.Lib.ValueIdx

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-- The scaled queries. -/
def aQ : Row → Col → EReal := fun r d => (V c main_v4_0 : S8192x1024.Idx → EReal) (ix2 r d)
/-- The keys. -/
def aK : Row → Col → EReal := fun j d => (V c main_v4_1 : S8192x1024.Idx → EReal) (ix2 j d)
/-- The values. -/
def aV : Row → Col → EReal := fun j d => (V c main_v4_2 : S8192x1024.Idx → EReal) (ix2 j d)
/-- The queries' community numbers. -/
def aQid : Row → BitVec 32 := fun r => (V c main_v5 : S8192x1.Idx → BitVec 32) (ix2 r (0 : Fin 1))
/-- The keys' community numbers. -/
def aKid : Row → BitVec 32 := fun j => (V c main_v6 : S1x8192.Idx → BitVec 32) (ix2 (0 : Fin 1) j)
/-- The representations (the residual). -/
def aX : Row → Col → EReal := fun r e => (V c main_arg0 : S8192x1024.Idx → EReal) (ix2 r e)
/-- The output weights and bias. -/
def aWo : Col → Col → EReal := fun d e => (V c main_v3 : S1024x1024.Idx → EReal) (ix2 d e)
def aBo : Col → EReal := fun e => (V c main_arg9 : S1024.Idx → EReal) (ix1 e)
/-- The normalisation's scale and shift. -/
def aGamma : Col → EReal := fun e => (V c main_arg10 : S1024.Idx → EReal) (ix1 e)
def aBeta : Col → EReal := fun e => (V c main_arg11 : S1024.Idx → EReal) (ix1 e)

/-- The masked score the kernel forms. -/
def aScore : Row → Row → EReal := fun r j => if aQid V c r = aKid V c j then ⊥ else ∑ d, aQ V c r d * aK V c j d

theorem aQ_apply (r : Row) (d : Col) : aQ V c r d = (V c main_v4_0 : S8192x1024.Idx → EReal) (ix2 r d) := rfl
theorem aK_apply (j : Row) (d : Col) : aK V c j d = (V c main_v4_1 : S8192x1024.Idx → EReal) (ix2 j d) := rfl
theorem aV_apply (j : Row) (d : Col) : aV V c j d = (V c main_v4_2 : S8192x1024.Idx → EReal) (ix2 j d) := rfl
theorem aQid_apply (r : Row) : aQid V c r = (V c main_v5 : S8192x1.Idx → BitVec 32) (ix2 r (0 : Fin 1)) := rfl
theorem aKid_apply (j : Row) : aKid V c j = (V c main_v6 : S1x8192.Idx → BitVec 32) (ix2 (0 : Fin 1) j) := rfl
theorem aX_apply (r : Row) (e : Col) : aX V c r e = (V c main_arg0 : S8192x1024.Idx → EReal) (ix2 r e) := rfl
theorem aWo_apply (d e : Col) : aWo V c d e = (V c main_v3 : S1024x1024.Idx → EReal) (ix2 d e) := rfl
theorem aBo_apply (e : Col) : aBo V c e = (V c main_arg9 : S1024.Idx → EReal) (ix1 e) := rfl
theorem aGamma_apply (e : Col) : aGamma V c e = (V c main_arg10 : S1024.Idx → EReal) (ix1 e) := rfl
theorem aBeta_apply (e : Col) : aBeta V c e = (V c main_arg11 : S1024.Idx → EReal) (ix1 e) := rfl
theorem aScore_apply (r j : Row) : aScore V c r j = if aQid V c r = aKid V c j then ⊥ else ∑ d, aQ V c r d * aK V c j d := rfl

end Cert.KernelIdeal.Hand

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRows.lean ====
/-
  Rows of dense layers read at an entry: a block of consecutive columns (or rows) of a matrix, two matrices set side
  by side along the columns, and a bias vector laid out as a row and repeated down the rows.

  For a matrix `x` with `n` columns, the block of `k` columns starting at column `c0` holds at `(r, e)` the entry
  `x (r, c0 + e)`; the block of `k` rows starting at row `r0` holds at `(e, c)` the entry `x (r0 + e, c)`. Two matrices
  with `k1` and `k2` columns set side by side hold at `(r, e)` the left one's `(r, e)` when `e < k1` and the right one's
  `(r, e - k1)` otherwise. A vector `v` of length `b` viewed as a `1 × b` row and repeated over `a` rows holds `v c` at
  `(r, c)`.
-/
import Idealize.ShloMosaic.Lib.ValueIdx
import Idealize.ShloMosaic.Lib.Pipeline.Value
import Idealize.ShloMosaic.Lib.ValueLayout

noncomputable section

namespace Cert.DenseRows

open Idealize.ShloMosaic Idealize.ShloMosaic.ValueIdx

variable {α : Type}

/-- A block of consecutive columns at an entry. -/
theorem sliceCols_apply {a n k : ℕ} (c0 : ℕ) (x : (⟨2, ![a, n]⟩ : Shape).Idx → α)
    (h : (⟨2, ![a, n]⟩ : Shape).Slices ![0, c0] ⟨2, ![a, k]⟩) (r : Fin a) (e : Fin k) (hb : c0 + e.val < n) :
    extractStridedSlice ⟨2, ![a, k]⟩ ![0, c0] x h (ix2 r e) = x (ix2 r ⟨c0 + e.val, hb⟩) :=
  extractStridedSlice_apply _ x h _ _ (fun ax => by
    match ax with
    | ⟨0, _⟩ => show r.val = 0 + r.val; omega
    | ⟨1, _⟩ => rfl)

/-- A block of consecutive rows at an entry. -/
theorem sliceRows_apply {n b k : ℕ} (r0 : ℕ) (x : (⟨2, ![n, b]⟩ : Shape).Idx → α)
    (h : (⟨2, ![n, b]⟩ : Shape).Slices ![r0, 0] ⟨2, ![k, b]⟩) (e : Fin k) (c : Fin b) (hb : r0 + e.val < n) :
    extractStridedSlice ⟨2, ![k, b]⟩ ![r0, 0] x h (ix2 e c) = x (ix2 ⟨r0 + e.val, hb⟩ c) :=
  extractStridedSlice_apply _ x h _ _ (fun ax => by
    match ax with
    | ⟨0, _⟩ => rfl
    | ⟨1, _⟩ => show c.val = 0 + c.val; omega)

/-- Two matrices side by side, at an entry of the left one. -/
theorem concatCols_left {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : e.val < k1) :
    concatenate (⟨2, ![a, k]⟩ : Shape) 1 [⟨(⟨2, ![a, k1]⟩ : Shape), x₁⟩, ⟨(⟨2, ![a, k2]⟩ : Shape), x₂⟩] h (ix2 r e)
      = x₁ (ix2 r ⟨e.val, he⟩) :=
  concatenate_pair_apply_left 1 x₁ x₂ h (ix2 r e) rfl (ix2 r ⟨e.val, he⟩) (fun b => by
    match b with
    | ⟨0, _⟩ => rfl
    | ⟨1, _⟩ => rfl)

/-- Two matrices side by side, at an entry of the right one. -/
theorem concatCols_right {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : k1 ≤ e.val) (hb : e.val - k1 < k2) :
    concatenate (⟨2, ![a, k]⟩ : Shape) 1 [⟨(⟨2, ![a, k1]⟩ : Shape), x₁⟩, ⟨(⟨2, ![a, k2]⟩ : Shape), x₂⟩] h (ix2 r e)
      = x₂ (ix2 r ⟨e.val - k1, hb⟩) :=
  concatenate_pair_apply_right 1 x₁ x₂ h (ix2 r e) rfl rfl (ix2 r ⟨e.val - k1, hb⟩) (fun b hne => by
    match b with
    | ⟨0, _⟩ => rfl
    | ⟨1, _⟩ => exact absurd rfl hne) (by show (e.val - k1) + k1 = e.val; omega)

/-- A bias vector as a row, repeated down the rows, at an entry. -/
theorem biasRow_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) := by
  rw [broadcastTo_1b_ab_apply, shapeCast_a_1a_apply]

end Cert.DenseRows

end
-- ==== Proof.KI.Value0Pay.lean ====
/- The projection kernel's three stored values at one entry, on the extended reals: at row p and feature q of a
   block, the sum over k of x[p,k]·W[k,q], plus the bias b[q], and for the query projection times the scale.
   Format changes are the identity there; the matrix unit's product into the zero array is the plain sum; the
   bias vector laid as a row and repeated down the rows reads b[q]. -/
import proofs.«117877_j82918638617236_2_alg».proof.Proof.Gen.KernelIdeal.Skeleton
import proofs.«117877_j82918638617236_2_alg».proof.Proof.LibPlainMatmul
import proofs.«117877_j82918638617236_2_alg».proof.Proof.LibDenseRows
import proofs.«117877_j82918638617236_2_alg».proof.Proof.Spec

noncomputable section

namespace Cert.KernelIdeal.Hand

open Idealize.ShloMosaic Idealize.ShloMosaic.ValueIdx
open scoped BigOperators
open Cert.KernelIdeal.Gen

/-- The kernel's contraction record is the plain rows-against-columns one. -/
theorem dot0_eq : dot_S512x1024_S1024x1024_S512x1024_1_0_0_1_n_n = DotDims.plain 512 1024 1024 := rfl

/-- The product x·W of a block of x (narrowed, which changes nothing) with the weights, at an entry. -/
theorem xw_apply (x0 : Vec Ideal S512x1024 .f32) (w : Vec Ideal S1024x1024 .bf16) (p : Fin 512) (q : Fin 1024) :
    matmul dot_S512x1024_S1024x1024_S512x1024_1_0_0_1_n_n none (k0_pay1 (F := Ideal) x0)
        (shapeCast S1024x1024 w shapeCasts_S1024x1024_S1024x1024 : FVec Ideal S1024x1024 .bf16) (constant S512x1024 .f32 0x00000000#32) (ix2 p q)
      = ∑ k : Fin 1024, x0 (ix2 p k) * w (ix2 k q) := by
  rw [dot0_eq]
  refine (PlainMatmul.matmul_zero_apply (m := 512) (k := 1024) (n := 1024) none (k0_pay1 (F := Ideal) x0)
    (shapeCast S1024x1024 w shapeCasts_S1024x1024_S1024x1024 : FVec Ideal S1024x1024 .bf16) p q).trans ?_
  rw [shapeCast_self]
  rfl

/-- The bias laid as a row and repeated down the 512 rows, at an entry. -/
theorem bias_apply (b : Vec Ideal S1024 .f32) (p : Fin 512) (q : Fin 1024) :
    broadcastTo S512x1024 (shapeCast S1x1024 b shapeCasts_S1024_S1x1024) broadcasts_S1x1024_S512x1024 (ix2 p q) = b (ix1 q) :=
  Cert.DenseRows.biasRow_apply (a := 512) (b := 1024) b shapeCasts_S1024_S1x1024 broadcasts_S1x1024_S512x1024 p q

/-- The stored query block at an entry: (x·Wq + bq)·scale. -/
theorem pay2_apply (x0 : Vec Ideal S512x1024 .f32) (w : Vec Ideal S1024x1024 .bf16) (b : Vec Ideal S1024 .f32)
    (p : Fin 512) (q : Fin 1024) :
    k0_pay2 (F := Ideal) x0 w b (ix2 p q)
      = ((∑ k : Fin 1024, x0 (ix2 p k) * w (ix2 k q)) + b (ix1 q)) * Cert.CommAttn.scale :=
  congrArg₂ (fun u v : EReal => (u + v) * Cert.CommAttn.scale) (xw_apply x0 w p q) (bias_apply b p q)

/-- The stored key block at an entry: x·Wk + bk. -/
theorem pay3_apply (x0 : Vec Ideal S512x1024 .f32) (w : Vec Ideal S1024x1024 .bf16) (b : Vec Ideal S1024 .f32)
    (p : Fin 512) (q : Fin 1024) :
    k0_pay3 (F := Ideal) x0 w b (ix2 p q) = (∑ k : Fin 1024, x0 (ix2 p k) * w (ix2 k q)) + b (ix1 q) :=
  congrArg₂ (fun u v : EReal => u + v) (xw_apply x0 w p q) (bias_apply b p q)

/-- The stored value block at an entry: x·Wv + bv. -/
theorem pay4_apply (x0 : Vec Ideal S512x1024 .f32) (w : Vec Ideal S1024x1024 .bf16) (b : Vec Ideal S1024 .f32)
    (p : Fin 512) (q : Fin 1024) :
    k0_pay4 (F := Ideal) x0 w b (ix2 p q) = (∑ k : Fin 1024, x0 (ix2 p k) * w (ix2 k q)) + b (ix1 q) :=
  congrArg₂ (fun u v : EReal => u + v) (xw_apply x0 w p q) (bias_apply b p q)

end Cert.KernelIdeal.Hand

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.OnlineLaw.lean ====
/-
  A softmax taken over consecutive disjoint groups of keys, on the extended reals.

  A row of scores is normalised by a softmax. One may visit the keys all at once (subtract the row's maximum, exponentiate,
  divide each weight by the row's sum, then weight the value rows), or in consecutive disjoint groups, carrying a running
  maximum m, a running sum l and a running accumulator: on meeting a new group the old sum and accumulator are rescaled by
  exp (m - m') where m' is the new maximum, the group's own shifted exponentials are added, and only at the very end is the
  accumulator divided, once, by the sum. The laws below say the two arrangements give the same extended real, provided no
  score is +infinity, the value rows are real, and at least one key of the row is not masked (masked keys carry the score
  bottom, whose shifted exponential is 0 whatever the maximum, because bottom minus anything is bottom).

  Also here: scaling the query entries before the contraction equals scaling the contraction (finite entries); the three
  projections of real data are real; the scores are never +infinity; a row always has an unmasked key when the community
  numbers are not all equal; and the three float constants as real numbers.
-/
import proofs.«117877_j82918638617236_2_alg».proof.Proof.Spec
import proofs.«117877_j82918638617236_2_alg».proof.Proof.LibERealSum

noncomputable section

namespace Cert.CommAttn

open Idealize.ShloMosaic
open scoped BigOperators
open Cert.Lib.ERealSum

/-! ### The three constants -/

/-- The scale is a real number (its word has neither the all-ones nor the all-zeros exponent). -/
theorem scale_real : ∃ c : ℝ, scale = (c : EReal) := by
  show ∃ c : ℝ, Ideal.ieee 8 23 (0x3DB504F3#32) = (c : EReal)
  delta Ideal.ieee
  dsimp only
  rw [if_neg (by decide), if_neg (by decide)]
  exact ⟨_, rfl⟩

/-- The epsilon is a real number. -/
theorem eps_real : ∃ e : ℝ, eps = (e : EReal) := by
  show ∃ c : ℝ, Ideal.ieee 8 23 (0x3727C5AC#32) = (c : EReal)
  delta Ideal.ieee
  dsimp only
  rw [if_neg (by decide), if_neg (by decide)]
  exact ⟨_, rfl⟩

/-- The width is a real number. -/
theorem width_real : ∃ w : ℝ, width = (w : EReal) := by
  show ∃ c : ℝ, Ideal.ieee 8 23 (0x44800000#32) = (c : EReal)
  delta Ideal.ieee
  dsimp only
  rw [if_neg (by decide), if_neg (by decide)]
  exact ⟨_, rfl⟩

/-! ### The kernel's score, and real-valuedness of the projections and scores -/

/-- The kernel's score: the scale is multiplied into Q's entry before the contraction. -/
def scoreK (ids : Row → BitVec 32) (Q K : Row → Col → EReal) (r j : Row) : EReal :=
  if ids r = ids j then ⊥ else ∑ d, (Q r d * scale) * K j d

theorem scoreK_apply (ids : Row → BitVec 32) (Q K : Row → Col → EReal) (r j : Row) :
    scoreK ids Q K r j = if ids r = ids j then ⊥ else ∑ d, (Q r d * scale) * K j d := rfl

theorem score_apply (ids : Row → BitVec 32) (Q K : Row → Col → EReal) (r j : Row) :
    score ids Q K r j = if ids r = ids j then ⊥ else (∑ d, Q r d * K j d) * scale := rfl

/-- Scaling each query entry before the contraction is scaling the contraction, at real entries. -/
theorem scoreK_eq_score (ids : Row → BitVec 32) (Q K : Row → Col → EReal)
    (hQ : ∀ r d, ∃ q : ℝ, Q r d = (q : EReal)) (hK : ∀ r d, ∃ k : ℝ, K r d = (k : EReal)) :
    scoreK ids Q K = score ids Q K := by
  funext r j
  rw [scoreK_apply, score_apply]
  split_ifs with h
  · rfl
  · obtain ⟨c, hc⟩ := scale_real
    choose q hq using hQ
    choose k hk using hK
    simp only [hq, hk, hc, ← EReal.coe_mul]
    rw [← coe_finset_sum, ← coe_finset_sum, ← EReal.coe_mul, Finset.sum_mul]
    congr 1
    exact Finset.sum_congr rfl fun d _ => by ring

theorem proj_apply (x : Row → Col → EReal) (W : Col → Col → EReal) (b : Col → EReal) (r : Row) (d : Col) :
    proj x W b r d = (∑ k, x r k * W k d) + b d := rfl

/-- An affine projection of real data is real. -/
theorem proj_real (x : Row → Col → EReal) (W : Col → Col → EReal) (b : Col → EReal)
    (hx : ∀ r k, ∃ v : ℝ, x r k = (v : EReal)) (hW : ∀ k d, ∃ v : ℝ, W k d = (v : EReal))
    (hb : ∀ d, ∃ v : ℝ, b d = (v : EReal)) (r : Row) (d : Col) :
    ∃ v : ℝ, proj x W b r d = (v : EReal) := by
  choose xv hxv using hx
  choose wv hwv using hW
  choose bv hbv using hb
  refine ⟨(∑ k, xv r k * wv k d) + bv d, ?_⟩
  rw [proj_apply]
  simp only [hxv, hwv, hbv]
  rw [sum_coe_mul_coe, ← EReal.coe_add]

/-- A score is bottom (masked) or a real number. -/
theorem score_bot_or_real (ids : Row → BitVec 32) (Q K : Row → Col → EReal)
    (hQ : ∀ r d, ∃ q : ℝ, Q r d = (q : EReal)) (hK : ∀ r d, ∃ k : ℝ, K r d = (k : EReal)) (r j : Row) :
    (ids r = ids j ∧ score ids Q K r j = ⊥) ∨ (ids r ≠ ids j ∧ ∃ v : ℝ, score ids Q K r j = (v : EReal)) := by
  rw [score_apply]
  by_cases h : ids r = ids j
  · exact Or.inl ⟨h, if_pos h⟩
  · refine Or.inr ⟨h, ?_⟩
    rw [if_neg h]
    obtain ⟨c, hc⟩ := scale_real
    choose q hq using hQ
    choose k hk using hK
    refine ⟨(∑ d, q r d * k j d) * c, ?_⟩
    simp only [hq, hk, hc]
    rw [sum_coe_mul_coe, ← EReal.coe_mul]

/-- A score is never +infinity. -/
theorem score_ne_top (ids : Row → BitVec 32) (Q K : Row → Col → EReal)
    (hQ : ∀ r d, ∃ q : ℝ, Q r d = (q : EReal)) (hK : ∀ r d, ∃ k : ℝ, K r d = (k : EReal)) (r j : Row) :
    score ids Q K r j ≠ ⊤ := by
  rcases score_bot_or_real ids Q K hQ hK r j with ⟨_, h⟩ | ⟨_, v, h⟩
  · rw [h]; exact bot_ne_top
  · rw [h]; exact EReal.coe_ne_top v

/-- When the community numbers are not all equal, every row has a key of another community. -/
theorem unmasked_of_not_all_equal (ids : Row → BitVec 32) (h : ∃ j, ids j ≠ ids 0) :
    ∀ r, ∃ j, ids r ≠ ids j := by
  obtain ⟨j0, hj0⟩ := h
  intro r
  by_cases hr : ids r = ids 0
  · exact ⟨j0, fun e => hj0 (e.symm.trans hr)⟩
  · exact ⟨0, hr⟩

/-- Then every row has a key whose score is not bottom. -/
theorem score_unmasked (ids : Row → BitVec 32) (Q K : Row → Col → EReal)
    (hQ : ∀ r d, ∃ q : ℝ, Q r d = (q : EReal)) (hK : ∀ r d, ∃ k : ℝ, K r d = (k : EReal))
    (h : ∃ j, ids j ≠ ids 0) (r : Row) : ∃ j, score ids Q K r j ≠ ⊥ := by
  obtain ⟨j, hj⟩ := unmasked_of_not_all_equal ids h r
  refine ⟨j, ?_⟩
  rcases score_bot_or_real ids Q K hQ hK r j with ⟨e, _⟩ | ⟨_, v, hv⟩
  · exact absurd e hj
  · rw [hv]; exact EReal.coe_ne_bot v

/-! ### Exponentials of differences -/

/-- The exponential of a difference a - b with a ≤ b < +infinity is a real in [0, 1]. -/
theorem exp_sub_real {a b : EReal} (hab : a ≤ b) (hb : b ≠ ⊤) :
    ∃ v : ℝ, 0 ≤ v ∧ v ≤ 1 ∧ Ideal.exp (a - b) = (v : EReal) := by
  induction a using EReal.rec with
  | bot => exact ⟨0, le_refl _, zero_le_one, by rw [EReal.bot_sub]; rfl⟩
  | top => exact absurd (top_le_iff.mp hab) hb
  | coe a =>
    induction b using EReal.rec with
    | bot => exact absurd (le_bot_iff.mp hab) (EReal.coe_ne_bot a)
    | top => exact absurd rfl hb
    | coe b =>
      have hab' : a ≤ b := EReal.coe_le_coe_iff.mp hab
      refine ⟨Real.exp (a - b), (Real.exp_pos _).le, ?_, ?_⟩
      · exact Real.exp_le_one_iff.mpr (by linarith)
      · rw [← EReal.coe_sub]; rfl

/-- Shifting through a middle value: exp (a - c) = exp (b - c) * exp (a - b) for a ≤ b ≤ c < +infinity. At a = bottom both
    sides are 0; otherwise all three are real and this is the functional equation of the exponential. -/
theorem exp_sub_split {a b c : EReal} (hab : a ≤ b) (hbc : b ≤ c) (hc : c ≠ ⊤) :
    Ideal.exp (a - c) = Ideal.exp (b - c) * Ideal.exp (a - b) := by
  induction a using EReal.rec with
  | bot => rw [EReal.bot_sub, EReal.bot_sub, Ideal.exp_bot, mul_zero]
  | top => exact absurd (top_le_iff.mp (hab.trans hbc)) hc
  | coe a =>
    induction b using EReal.rec with
    | bot => exact absurd (le_bot_iff.mp hab) (EReal.coe_ne_bot a)
    | top => exact absurd (top_le_iff.mp hbc) hc
    | coe b =>
      induction c using EReal.rec with
      | bot => exact absurd (le_bot_iff.mp hbc) (EReal.coe_ne_bot b)
      | top => exact absurd rfl hc
      | coe c =>
        rw [← EReal.coe_sub, ← EReal.coe_sub, ← EReal.coe_sub, Ideal.exp_coe, Ideal.exp_coe, Ideal.exp_coe,
          ← EReal.coe_mul, ← Real.exp_add]
        congr 2
        ring

/-- A real factor distributes over a finite sum of reals inside the extended reals. -/
theorem mul_sum_of_real {ι : Type*} (A : Finset ι) (a : EReal) (f : ι → EReal)
    (ha : ∃ c : ℝ, a = (c : EReal)) (hf : ∀ j ∈ A, ∃ v : ℝ, f j = (v : EReal)) :
    a * ∑ j ∈ A, f j = ∑ j ∈ A, a * f j := by
  obtain ⟨c, rfl⟩ := ha
  have e1 : ∑ j ∈ A, f j = ∑ j ∈ A, (((f j).toReal : ℝ) : EReal) :=
    Finset.sum_congr rfl fun j hj => by obtain ⟨v, hv⟩ := hf j hj; rw [hv, EReal.toReal_coe]
  have e2 : ∑ j ∈ A, (c : EReal) * f j = ∑ j ∈ A, ((c * (f j).toReal : ℝ) : EReal) :=
    Finset.sum_congr rfl fun j hj => by obtain ⟨v, hv⟩ := hf j hj; rw [hv, EReal.toReal_coe, EReal.coe_mul]
  rw [e1, e2, ← coe_finset_sum, ← coe_finset_sum, ← EReal.coe_mul, Finset.mul_sum]

/-! ### Running maximum, sum and accumulator over a set of keys -/

/-- Running maximum, sum and accumulator of row r over a set A of keys. -/
def runMax (s : Row → Row → EReal) (A : Finset Row) (r : Row) : EReal := A.fold max ⊥ (s r)
def runSum (s : Row → Row → EReal) (A : Finset Row) (r : Row) : EReal := ∑ j ∈ A, Ideal.exp (s r j - runMax s A r)
def runAcc (s : Row → Row → EReal) (V : Row → Col → EReal) (A : Finset Row) (r : Row) (d : Col) : EReal :=
  ∑ j ∈ A, Ideal.exp (s r j - runMax s A r) * V j d

theorem runMax_apply (s : Row → Row → EReal) (A : Finset Row) (r : Row) : runMax s A r = A.fold max ⊥ (s r) := rfl
theorem runSum_apply (s : Row → Row → EReal) (A : Finset Row) (r : Row) :
    runSum s A r = ∑ j ∈ A, Ideal.exp (s r j - runMax s A r) := rfl
theorem runAcc_apply (s : Row → Row → EReal) (V : Row → Col → EReal) (A : Finset Row) (r : Row) (d : Col) :
    runAcc s V A r d = ∑ j ∈ A, Ideal.exp (s r j - runMax s A r) * V j d := rfl

/-- The running maximum is the supremum of the scores over the set. -/
theorem runMax_eq_sup (s : Row → Row → EReal) (A : Finset Row) (r : Row) : runMax s A r = A.sup (s r) := rfl

theorem runMax_empty (s : Row → Row → EReal) (r : Row) : runMax s ∅ r = ⊥ := rfl
theorem runSum_empty (s : Row → Row → EReal) (r : Row) : runSum s ∅ r = 0 := Finset.sum_empty
theorem runAcc_empty (s : Row → Row → EReal) (V : Row → Col → EReal) (r : Row) (d : Col) : runAcc s V ∅ r d = 0 :=
  Finset.sum_empty
/-- Over all keys the running maximum is the row's maximum. -/
theorem runMax_univ (s : Row → Row → EReal) (r : Row) : runMax s Finset.univ r = rowMax s r := rfl

theorem le_runMax (s : Row → Row → EReal) {A : Finset Row} (r : Row) {j : Row} (hj : j ∈ A) : s r j ≤ runMax s A r :=
  Finset.le_sup (f := s r) hj

theorem runMax_mono (s : Row → Row → EReal) {A B : Finset Row} (r : Row) (h : A ⊆ B) : runMax s A r ≤ runMax s B r :=
  Finset.sup_mono (f := s r) h

/-- No score +infinity: no running maximum +infinity. -/
theorem runMax_ne_top (s : Row → Row → EReal) (A : Finset Row) (r : Row) (hs : ∀ j, s r j ≠ ⊤) : runMax s A r ≠ ⊤ := by
  rw [runMax_eq_sup]
  exact ((Finset.sup_lt_iff bot_lt_top).mpr fun j _ => lt_top_iff_ne_top.mpr (hs j)).ne

/-- The maximum over a union is the larger of the two maxima (no disjointness needed). -/
theorem runMax_union (s : Row → Row → EReal) (A B : Finset Row) (r : Row) :
    runMax s (A ∪ B) r = max (runMax s A r) (B.fold max ⊥ (s r)) :=
  Finset.sup_union (f := s r)

/-- The running sum over a union of disjoint sets: rescale the old sum to the new maximum, add the new set's terms. -/
theorem runSum_union (s : Row → Row → EReal) (A B : Finset Row) (r : Row) (hAB : Disjoint A B)
    (hs : ∀ j, s r j ≠ ⊤) :
    runSum s (A ∪ B) r = Ideal.exp (runMax s A r - runMax s (A ∪ B) r) * runSum s A r
      + ∑ j ∈ B, Ideal.exp (s r j - runMax s (A ∪ B) r) := by
  have hM : runMax s (A ∪ B) r ≠ ⊤ := runMax_ne_top s _ r hs
  have hm : runMax s A r ≠ ⊤ := runMax_ne_top s _ r hs
  have hmM : runMax s A r ≤ runMax s (A ∪ B) r := runMax_mono s r Finset.subset_union_left
  rw [runSum_apply, runSum_apply, Finset.sum_union hAB]
  congr 1
  rw [mul_sum_of_real A _ _ ((exp_sub_real hmM hM).imp fun _ h => h.2.2)
    (fun j hj => (exp_sub_real (le_runMax s r hj) hm).imp fun _ h => h.2.2)]
  exact Finset.sum_congr rfl fun j hj => exp_sub_split (le_runMax s r hj) hmM hM

/-- The running accumulator over a union of disjoint sets, likewise (real value rows). -/
theorem runAcc_union (s : Row → Row → EReal) (V : Row → Col → EReal) (A B : Finset Row) (r : Row) (d : Col)
    (hAB : Disjoint A B) (hs : ∀ j, s r j ≠ ⊤) (hV : ∀ j d, ∃ v : ℝ, V j d = (v : EReal)) :
    runAcc s V (A ∪ B) r d = Ideal.exp (runMax s A r - runMax s (A ∪ B) r) * runAcc s V A r d
      + ∑ j ∈ B, Ideal.exp (s r j - runMax s (A ∪ B) r) * V j d := by
  have hM : runMax s (A ∪ B) r ≠ ⊤ := runMax_ne_top s _ r hs
  have hm : runMax s A r ≠ ⊤ := runMax_ne_top s _ r hs
  have hmM : runMax s A r ≤ runMax s (A ∪ B) r := runMax_mono s r Finset.subset_union_left
  rw [runAcc_apply, runAcc_apply, Finset.sum_union hAB]
  congr 1
  rw [mul_sum_of_real A _ _ ((exp_sub_real hmM hM).imp fun _ h => h.2.2)
    (fun j hj => by
      obtain ⟨e, _, _, he⟩ := exp_sub_real (le_runMax s r hj) hm
      obtain ⟨v, hv⟩ := hV j d
      exact ⟨e * v, by rw [he, hv, EReal.coe_mul]⟩)]
  exact Finset.sum_congr rfl fun j hj => by rw [exp_sub_split (le_runMax s r hj) hmM hM, mul_assoc]

/-! ### The single final division -/

theorem rowMax_apply (s : Row → Row → EReal) (r : Row) : rowMax s r = Finset.univ.fold max ⊥ (s r) := rfl
theorem expo_apply (s : Row → Row → EReal) (r j : Row) : expo s r j = Ideal.exp (s r j - rowMax s r) := rfl
theorem denom_apply (s : Row → Row → EReal) (r : Row) : denom s r = ∑ j, expo s r j := rfl
theorem attend_apply (s : Row → Row → EReal) (V : Row → Col → EReal) (r : Row) (d : Col) :
    attend s V r d = ∑ j, Ideal.div (expo s r j) (denom s r) * V j d := rfl
/-- Over all keys the running sum is the row's sum of shifted exponentials. -/
theorem runSum_univ (s : Row → Row → EReal) (r : Row) : runSum s Finset.univ r = denom s r := rfl

/-- The row's maximum is the score of some key. -/
theorem rowMax_attained (s : Row → Row → EReal) (r : Row) : ∃ j, s r j = rowMax s r := by
  obtain ⟨j, _, hj⟩ := Finset.exists_mem_eq_sup Finset.univ Finset.univ_nonempty (s r)
  exact ⟨j, hj.symm⟩

/-- With no score +infinity and some key unmasked, the shifted exponentials are reals in [0,1], and their sum is a real that
    is at least 1 (the key attaining the maximum contributes exp 0). -/
theorem softmax_reals (s : Row → Row → EReal) (r : Row) (hs : ∀ j, s r j ≠ ⊤) (hu : ∃ j, s r j ≠ ⊥) :
    ∃ (e : Row → ℝ) (L : ℝ), 0 < L ∧ (∀ j, 0 ≤ e j) ∧ (∀ j, expo s r j = (e j : EReal)) ∧ denom s r = (L : EReal) := by
  have hm : rowMax s r ≠ ⊤ := runMax_ne_top s Finset.univ r hs
  have hle : ∀ j, s r j ≤ rowMax s r := fun j => le_runMax s r (Finset.mem_univ j)
  have hmb : rowMax s r ≠ ⊥ := by
    obtain ⟨j, hj⟩ := hu
    intro h
    exact hj (le_bot_iff.mp (h ▸ hle j))
  have hex : ∀ j, ∃ v : ℝ, 0 ≤ v ∧ v ≤ 1 ∧ Ideal.exp (s r j - rowMax s r) = (v : EReal) :=
    fun j => exp_sub_real (hle j) hm
  choose e he0 _ he using hex
  refine ⟨e, ∑ j, e j, ?_, he0, he, ?_⟩
  · obtain ⟨j0, hj0⟩ := rowMax_attained s r
    have h1 : e j0 = 1 := by
      have h := he j0
      rw [hj0, EReal.sub_self hm hmb] at h
      have h0 : Ideal.exp (0 : EReal) = ((1 : ℝ) : EReal) := by
        show Ideal.exp ((0 : ℝ) : EReal) = _
        rw [Ideal.exp_coe, Real.exp_zero]
      rw [h0] at h
      exact (EReal.coe_eq_coe_iff.mp h).symm
    calc (0 : ℝ) < 1 := one_pos
      _ = e j0 := h1.symm
      _ ≤ ∑ j, e j := Finset.single_le_sum (fun j _ => he0 j) (Finset.mem_univ j0)
  · rw [denom_apply, coe_finset_sum]
    exact Finset.sum_congr rfl fun j _ => he j

/-- Both arrangements of the normalisation give one real number: dividing the accumulated weighted sum once by the row's sum,
    and dividing every weight by the row's sum before it meets the value row. -/
theorem attend_both (s : Row → Row → EReal) (V : Row → Col → EReal) (r : Row) (d : Col)
    (hs : ∀ j, s r j ≠ ⊤) (hV : ∀ j d, ∃ v : ℝ, V j d = (v : EReal)) (hu : ∃ j, s r j ≠ ⊥) :
    ∃ a : ℝ, attend s V r d = (a : EReal)
      ∧ Ideal.div (runAcc s V Finset.univ r d) (runSum s Finset.univ r) = (a : EReal) := by
  obtain ⟨e, L, hL, _, he, hden⟩ := softmax_reals s r hs hu
  choose v hv using hV
  have hacc : runAcc s V Finset.univ r d = ((∑ j, e j * v j d : ℝ) : EReal) := by
    show ∑ j, expo s r j * V j d = _
    simp only [he, hv]
    exact sum_coe_mul_coe _ _ _
  have hatt : attend s V r d = ((∑ j, e j * (1 / L) * v j d : ℝ) : EReal) := by
    rw [attend_apply]
    simp only [he, hv, hden, Ideal.div_coe hL.ne', ← EReal.coe_mul]
    rw [← coe_finset_sum]
  refine ⟨_, hatt, ?_⟩
  rw [hacc, runSum_univ, hden, Ideal.div_coe hL.ne', ← EReal.coe_mul, Finset.sum_mul]
  congr 1
  exact Finset.sum_congr rfl fun j _ => by ring

/-- Dividing once at the end is dividing every weight first. -/
theorem final_div (s : Row → Row → EReal) (V : Row → Col → EReal) (r : Row) (d : Col)
    (hs : ∀ j, s r j ≠ ⊤) (hV : ∀ j d, ∃ v : ℝ, V j d = (v : EReal)) (hu : ∃ j, s r j ≠ ⊥) :
    Ideal.div (runAcc s V Finset.univ r d) (runSum s Finset.univ r) = attend s V r d := by
  obtain ⟨a, h1, h2⟩ := attend_both s V r d hs hV hu
  rw [h1, h2]

/-- The attention output is a real number. -/
theorem attend_real (s : Row → Row → EReal) (V : Row → Col → EReal) (r : Row) (d : Col)
    (hs : ∀ j, s r j ≠ ⊤) (hV : ∀ j d, ∃ v : ℝ, V j d = (v : EReal)) (hu : ∃ j, s r j ≠ ⊥) :
    ∃ a : ℝ, attend s V r d = (a : EReal) :=
  (attend_both s V r d hs hV hu).imp fun _ h => h.1

/-! ### The remaining definitions of the specification, restated as equations -/

theorem resid_apply (A : Row → Col → EReal) (Wo : Col → Col → EReal) (bo : Col → EReal) (x : Row → Col → EReal)
    (r : Row) (e : Col) : resid A Wo bo x r e = (∑ d, A r d * Wo d e) + bo e + x r e := rfl
theorem mean_apply (h : Row → Col → EReal) (r : Row) : mean h r = Ideal.div (∑ e, h r e) width := rfl
theorem var_apply (h : Row → Col → EReal) (r : Row) :
    var h r = Ideal.div (∑ e, (h r e - mean h r) * (h r e - mean h r)) width := rfl
theorem layerNorm_apply (h : Row → Col → EReal) (γ β : Col → EReal) (r : Row) (e : Col) :
    layerNorm h γ β r e = (h r e - mean h r) * Ideal.rsqrt (var h r + eps) * γ e + β e := rfl
theorem result_apply (x : Row → Col → EReal) (ids : Row → BitVec 32) (Wq : Col → Col → EReal) (bq : Col → EReal)
    (Wk : Col → Col → EReal) (bk : Col → EReal) (Wv : Col → Col → EReal) (bv : Col → EReal)
    (Wo : Col → Col → EReal) (bo γ β : Col → EReal) :
    result x ids Wq bq Wk bk Wv bv Wo bo γ β
      = layerNorm (resid (attend (score ids (proj x Wq bq) (proj x Wk bk)) (proj x Wv bv)) Wo bo x) γ β := rfl

end Cert.CommAttn

end
-- ==== Proof.KI.Value0.lean ====
/- What the projection region leaves in its three output arrays, index by index, on the extended reals: the
   query array holds (x·Wq + bq)·scale, the key array x·Wk + bk, the value array x·Wv + bv, each at every row and
   feature. A grid point's block is rows 512·t … 512·t + 511 of the array, all 1024 features; the sixteen blocks
   tile the 8192 rows, the weights and biases are read whole at every point. -/
import proofs.«117877_j82918638617236_2_alg».proof.Proof.KI.Region0
import proofs.«117877_j82918638617236_2_alg».proof.Proof.KI.Value0Pay
import proofs.«117877_j82918638617236_2_alg».proof.Proof.OnlineLaw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open Idealize.ShloMosaic.ValueIdx
open scoped BigOperators

section Regions
variable (V : (c : Dev nD) → (b : Ref sig .tc) → Buf (Elt Ideal) ((c : Thread nD τ).loc b))

theorem hzero0_2 : (![0, 0] : Fin 2 → Nat) = fun _ => 0 := funext fun a => by fin_cases a <;> rfl
theorem hzero0_1 : (![0] : Fin 1 → Nat) = fun _ => 0 := funext fun a => by fin_cases a <;> rfl

/-! ## The argument arrays by coordinates -/

/-- The representations x as the region finds them, by row and feature. -/
abbrev x0Arr (c : Dev nD) : Cert.CommAttn.Row → Cert.CommAttn.Col → EReal := fun r k => (V c main_arg0 : S8192x1024.Idx → EReal) (ix2 r k)
/-- The query, key and value weights, by input and output feature. -/
abbrev w0Arr1 (c : Dev nD) : Cert.CommAttn.Col → Cert.CommAttn.Col → EReal := fun k d => (V c main_v0 : S1024x1024.Idx → EReal) (ix2 k d)
abbrev w0Arr3 (c : Dev nD) : Cert.CommAttn.Col → Cert.CommAttn.Col → EReal := fun k d => (V c main_v1 : S1024x1024.Idx → EReal) (ix2 k d)
abbrev w0Arr5 (c : Dev nD) : Cert.CommAttn.Col → Cert.CommAttn.Col → EReal := fun k d => (V c main_v2 : S1024x1024.Idx → EReal) (ix2 k d)
/-- The query, key and value biases, by feature. -/
abbrev b0Arr2 (c : Dev nD) : Cert.CommAttn.Col → EReal := fun d => (V c main_arg3 : S1024.Idx → EReal) (ix1 d)
abbrev b0Arr4 (c : Dev nD) : Cert.CommAttn.Col → EReal := fun d => (V c main_arg5 : S1024.Idx → EReal) (ix1 d)
abbrev b0Arr6 (c : Dev nD) : Cert.CommAttn.Col → EReal := fun d => (V c main_arg7 : S1024.Idx → EReal) (ix1 d)

/-- One whole-buffer store leaves its payload. -/
theorem out0_7_eq (x0 : Vec Ideal S512x1024 .f32) (x1 : Vec Ideal S1024x1024 .bf16) (x2 : Vec Ideal S1024 .f32) :
    out0_7 (F := Ideal) x0 x1 x2 = k0_pay2 x0 x1 x2 := by
  delta out0_7
  rw [View.canon_unit_zero hzero0_2]
  simp only [View.ld_unit_zero (S := S512x1024) hzero0_2, View.ld_unit_zero (S := S1024x1024) hzero0_2, View.ld_unit_zero (S := S1024) hzero0_1]
theorem out0_8_eq (x0 : Vec Ideal S512x1024 .f32) (x1 : Vec Ideal S1024x1024 .bf16) (x2 : Vec Ideal S1024 .f32) :
    out0_8 (F := Ideal) x0 x1 x2 = k0_pay3 x0 x1 x2 := by
  delta out0_8
  rw [View.canon_unit_zero hzero0_2]
  simp only [View.ld_unit_zero (S := S512x1024) hzero0_2, View.ld_unit_zero (S := S1024x1024) hzero0_2, View.ld_unit_zero (S := S1024) hzero0_1]
theorem out0_9_eq (x0 : Vec Ideal S512x1024 .f32) (x1 : Vec Ideal S1024x1024 .bf16) (x2 : Vec Ideal S1024 .f32) :
    out0_9 (F := Ideal) x0 x1 x2 = k0_pay4 x0 x1 x2 := by
  delta out0_9
  rw [View.canon_unit_zero hzero0_2]
  simp only [View.ld_unit_zero (S := S512x1024) hzero0_2, View.ld_unit_zero (S := S1024x1024) hzero0_2, View.ld_unit_zero (S := S1024) hzero0_1]

/-- The printed index maps, decided over the grid: the x window and the three output windows sit at the same row
    block, which is below 16; every other block index is 0. -/
theorem idx_facts0 : ∀ t : Fin cfg0.N,
    win0_0.index t (0 : Fin 2) = win0_7.index t (0 : Fin 2) ∧ win0_8.index t (0 : Fin 2) = win0_7.index t (0 : Fin 2)
    ∧ win0_9.index t (0 : Fin 2) = win0_7.index t (0 : Fin 2) ∧ win0_7.index t (0 : Fin 2) ≤ 15
    ∧ win0_0.index t (1 : Fin 2) = 0 ∧ win0_7.index t (1 : Fin 2) = 0 ∧ win0_8.index t (1 : Fin 2) = 0 ∧ win0_9.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every row block is some point's. -/
theorem idx_onto0 : ∀ q0 : Fin 16, ∃ t : Fin cfg0.N, win0_7.index t (0 : Fin 2) = q0.val :=
  (by decide +kernel : ∀ q0 : Fin 16, ∃ t : Fin grid0.N, win0_7.index t (0 : Fin 2) = q0.val)

/-! ## Output window 7 -/

/-- The array the window ends holding: the projection of the whole x array, times the scale. -/
def G0_7 (c : Dev nD) : S8192x1024.Idx → EReal := fun i =>
  Cert.CommAttn.proj (x0Arr V c) (w0Arr1 V c) (b0Arr2 V c) (i 0) (i 1) * Cert.CommAttn.scale

/-- What point `t` writes back is block `t` of that array: row p of the block is row 512·t + p of x and of the
    array, and the weights and bias are read whole. -/
theorem flushed0_7_eq (c : Dev nD) (t : Fin cfg0.N) :
    (dat0 (F := Ideal) V c).flushed 7 t = ((cfg0.win 7).blk t).view.read (Elt Ideal) (G0_7 V c) := by
  show (cfg0.win 7).cut (grid0.coords t) ((dat0 (F := Ideal) V c).after 7 t) = _
  rw [after0_7]
  funext j
  obtain ⟨p, q, rfl⟩ : ∃ (p : Fin 512) (q : Fin 1024), j = ix2 p q := ⟨j 0, j 1, eq_ix2 j⟩
  show out0_7 (F := Ideal) (iblk0 V c 0 t) (iblk0 V c 1 t) (iblk0 V c 2 t) (ix2 p q) = G0_7 V c (((cfg0.win 7).blk t).view.emb (ix2 p q))
  refine (congrFun (out0_7_eq (iblk0 V c 0 t) (iblk0 V c 1 t) (iblk0 V c 2 t)) (ix2 p q)).trans ?_
  refine (pay2_apply (iblk0 V c 0 t) (iblk0 V c 1 t) (iblk0 V c 2 t) p q).trans ?_
  obtain ⟨e0, e8, e9, e15, a0, a7, a8, a9, b10, b11, b2, b30, b31, b4, b50, b51, b6⟩ := idx_facts0 t
  obtain ⟨r, d, hrd⟩ : ∃ (r : Cert.CommAttn.Row) (d : Cert.CommAttn.Col), ((cfg0.win 7).blk t).view.emb (ix2 p q) = ix2 r d :=
    ⟨(((cfg0.win 7).blk t).view.emb (ix2 p q)) 0, (((cfg0.win 7).blk t).view.emb (ix2 p q)) 1, eq_ix2 _⟩
  have hr0 : win0_7.index t (0 : Fin 2) * 512 + 1 * p.val = r.val := congrArg Fin.val (congrFun hrd 0)
  have hd1 : win0_7.index t (1 : Fin 2) * 1024 + 1 * q.val = d.val := congrArg Fin.val (congrFun hrd 1)
  refine Eq.trans ?_ (congrArg (G0_7 V c) hrd.symm)
  have h0 : ∀ k : Fin 1024, ((cfg0.win 0).blk t).view.emb (ix2 p k) = ix2 r k := fun k => by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  have h1 : ∀ k : Fin 1024, ((cfg0.win 1).blk t).view.emb (ix2 k q) = ix2 k d := fun k => by
    funext a; apply Fin.ext
    match a with
    | ⟨0, _⟩ => show win0_1.index t (0 : Fin 2) * 1024 + 1 * k.val = k.val; omega
    | ⟨1, _⟩ => show win0_1.index t (1 : Fin 2) * 1024 + 1 * q.val = d.val; omega
  have h2 : ((cfg0.win 2).blk t).view.emb (ix1 q) = ix1 d := by
    funext a; apply Fin.ext
    match a with
    | ⟨0, _⟩ => show win0_2.index t (0 : Fin 1) * 1024 + 1 * q.val = d.val; omega
  have hx : ∀ k : Fin 1024, iblk0 V c 0 t (ix2 p k) = x0Arr V c r k :=
    fun k => congrArg (V c main_arg0) (h0 k)
  have hw : ∀ k : Fin 1024, iblk0 V c 1 t (ix2 k q) = w0Arr1 V c k d :=
    fun k => congrArg (V c main_v0) (h1 k)
  have hb : iblk0 V c 2 t (ix1 q) = b0Arr2 V c d :=
    congrArg (V c main_arg3) h2
  show _ = Cert.CommAttn.proj (x0Arr V c) (w0Arr1 V c) (b0Arr2 V c) r d * Cert.CommAttn.scale
  rw [Cert.CommAttn.proj_apply]
  simp only [hx, hw, hb]

/-- An index of the array is in point `t`'s block iff each coordinate is in the block's range on its axis. -/
theorem mem_blk0_7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole (Pipeline.arrRef spec0 7)).slice (win0_7.rect t)).set ↔ _
  rw [View.set_slice_whole, Rect.mem_set_unit]
  exact Iff.rfl

/-- Every index of the array is in the block of the point whose row block is the index's row divided by 512. -/
theorem covers0_7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto0 ⟨(i 0).val / 512, by omega⟩
  have q0 : win0_7.index t (0 : Fin 2) = (i 0).val / 512 := ht
  obtain ⟨e0, e8, e9, e15, a0, a7, a8, a9, b10, b11, b2, b30, b31, b4, b50, b51, b6⟩ := idx_facts0 t
  refine ⟨t, flush0_7 t, ?_⟩
  rw [mem_blk0_7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The array after the region, whole. -/
theorem arr0_7 (c : Dev nD) : (dat0 (F := Ideal) V c).arrAt 7 cfg0.N = G0_7 V c :=
  (dat0 (F := Ideal) V c).arrAt_eq_of_cover 7 (G0_7 V c) (fun t _ => flushed0_7_eq V c t) covers0_7

/-- The array after the region at row r, feature d. -/
theorem final0_7 (c : Dev nD) (r : Cert.CommAttn.Row) (d : Cert.CommAttn.Col) :
    (dat0 (F := Ideal) V c).arrAt 7 cfg0.N (ix2 r d)
      = Cert.CommAttn.proj (x0Arr V c) (w0Arr1 V c) (b0Arr2 V c) r d * Cert.CommAttn.scale := by
  rw [arr0_7]
  rfl

/-! ## Output window 8 -/

/-- The array the window ends holding: the projection of the whole x array. -/
def G0_8 (c : Dev nD) : S8192x1024.Idx → EReal := fun i =>
  Cert.CommAttn.proj (x0Arr V c) (w0Arr3 V c) (b0Arr4 V c) (i 0) (i 1)

/-- What point `t` writes back is block `t` of that array: row p of the block is row 512·t + p of x and of the
    array, and the weights and bias are read whole. -/
theorem flushed0_8_eq (c : Dev nD) (t : Fin cfg0.N) :
    (dat0 (F := Ideal) V c).flushed 8 t = ((cfg0.win 8).blk t).view.read (Elt Ideal) (G0_8 V c) := by
  show (cfg0.win 8).cut (grid0.coords t) ((dat0 (F := Ideal) V c).after 8 t) = _
  rw [after0_8]
  funext j
  obtain ⟨p, q, rfl⟩ : ∃ (p : Fin 512) (q : Fin 1024), j = ix2 p q := ⟨j 0, j 1, eq_ix2 j⟩
  show out0_8 (F := Ideal) (iblk0 V c 0 t) (iblk0 V c 3 t) (iblk0 V c 4 t) (ix2 p q) = G0_8 V c (((cfg0.win 8).blk t).view.emb (ix2 p q))
  refine (congrFun (out0_8_eq (iblk0 V c 0 t) (iblk0 V c 3 t) (iblk0 V c 4 t)) (ix2 p q)).trans ?_
  refine (pay3_apply (iblk0 V c 0 t) (iblk0 V c 3 t) (iblk0 V c 4 t) p q).trans ?_
  obtain ⟨e0, e8, e9, e15, a0, a7, a8, a9, b10, b11, b2, b30, b31, b4, b50, b51, b6⟩ := idx_facts0 t
  obtain ⟨r, d, hrd⟩ : ∃ (r : Cert.CommAttn.Row) (d : Cert.CommAttn.Col), ((cfg0.win 8).blk t).view.emb (ix2 p q) = ix2 r d :=
    ⟨(((cfg0.win 8).blk t).view.emb (ix2 p q)) 0, (((cfg0.win 8).blk t).view.emb (ix2 p q)) 1, eq_ix2 _⟩
  have hr0 : win0_8.index t (0 : Fin 2) * 512 + 1 * p.val = r.val := congrArg Fin.val (congrFun hrd 0)
  have hd1 : win0_8.index t (1 : Fin 2) * 1024 + 1 * q.val = d.val := congrArg Fin.val (congrFun hrd 1)
  refine Eq.trans ?_ (congrArg (G0_8 V c) hrd.symm)
  have h0 : ∀ k : Fin 1024, ((cfg0.win 0).blk t).view.emb (ix2 p k) = ix2 r k := fun k => by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  have h1 : ∀ k : Fin 1024, ((cfg0.win 3).blk t).view.emb (ix2 k q) = ix2 k d := fun k => by
    funext a; apply Fin.ext
    match a with
    | ⟨0, _⟩ => show win0_3.index t (0 : Fin 2) * 1024 + 1 * k.val = k.val; omega
    | ⟨1, _⟩ => show win0_3.index t (1 : Fin 2) * 1024 + 1 * q.val = d.val; omega
  have h2 : ((cfg0.win 4).blk t).view.emb (ix1 q) = ix1 d := by
    funext a; apply Fin.ext
    match a with
    | ⟨0, _⟩ => show win0_4.index t (0 : Fin 1) * 1024 + 1 * q.val = d.val; omega
  have hx : ∀ k : Fin 1024, iblk0 V c 0 t (ix2 p k) = x0Arr V c r k :=
    fun k => congrArg (V c main_arg0) (h0 k)
  have hw : ∀ k : Fin 1024, iblk0 V c 3 t (ix2 k q) = w0Arr3 V c k d :=
    fun k => congrArg (V c main_v1) (h1 k)
  have hb : iblk0 V c 4 t (ix1 q) = b0Arr4 V c d :=
    congrArg (V c main_arg5) h2
  show _ = Cert.CommAttn.proj (x0Arr V c) (w0Arr3 V c) (b0Arr4 V c) r d
  rw [Cert.CommAttn.proj_apply]
  simp only [hx, hw, hb]

/-- An index of the array is in point `t`'s block iff each coordinate is in the block's range on its axis. -/
theorem mem_blk0_8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole (Pipeline.arrRef spec0 8)).slice (win0_8.rect t)).set ↔ _
  rw [View.set_slice_whole, Rect.mem_set_unit]
  exact Iff.rfl

/-- Every index of the array is in the block of the point whose row block is the index's row divided by 512. -/
theorem covers0_8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ := idx_onto0 ⟨(i 0).val / 512, by omega⟩
  have q0 : win0_7.index t (0 : Fin 2) = (i 0).val / 512 := ht
  obtain ⟨e0, e8, e9, e15, a0, a7, a8, a9, b10, b11, b2, b30, b31, b4, b50, b51, b6⟩ := idx_facts0 t
  refine ⟨t, flush0_8 t, ?_⟩
  rw [mem_blk0_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The array after the region, whole. -/
theorem arr0_8 (c : Dev nD) : (dat0 (F := Ideal) V c).arrAt 8 cfg0.N = G0_8 V c :=
  (dat0 (F := Ideal) V c).arrAt_eq_of_cover 8 (G0_8 V c) (fun t _ => flushed0_8_eq V c t) covers0_8

/-- The array after the region at row r, feature d. -/
theorem final0_8 (c : Dev nD) (r : Cert.CommAttn.Row) (d : Cert.CommAttn.Col) :
    (dat0 (F := Ideal) V c).arrAt 8 cfg0.N (ix2 r d)
      = Cert.CommAttn.proj (x0Arr V c) (w0Arr3 V c) (b0Arr4 V c) r d := by
  rw [arr0_8]
  rfl

/-! ## Output window 9 -/

/-- The array the window ends holding: the projection of the whole x array. -/
def G0_9 (c : Dev nD) : S8192x1024.Idx → EReal := fun i =>
  Cert.CommAttn.proj (x0Arr V c) (w0Arr5 V c) (b0Arr6 V c) (i 0) (i 1)

/-- What point `t` writes back is block `t` of that array: row p of the block is row 512·t + p of x and of the
    array, and the weights and bias are read whole. -/
theorem flushed0_9_eq (c : Dev nD) (t : Fin cfg0.N) :
    (dat0 (F := Ideal) V c).flushed 9 t = ((cfg0.win 9).blk t).view.read (Elt Ideal) (G0_9 V c) := by
  show (cfg0.win 9).cut (grid0.coords t) ((dat0 (F := Ideal) V c).after 9 t) = _
  rw [after0_9]
  funext j
  obtain ⟨p, q, rfl⟩ : ∃ (p : Fin 512) (q : Fin 1024), j = ix2 p q := ⟨j 0, j 1, eq_ix2 j⟩
  show out0_9 (F := Ideal) (iblk0 V c 0 t) (iblk0 V c 5 t) (iblk0 V c 6 t) (ix2 p q) = G0_9 V c (((cfg0.win 9).blk t).view.emb (ix2 p q))
  refine (congrFun (out0_9_eq (iblk0 V c 0 t) (iblk0 V c 5 t) (iblk0 V c 6 t)) (ix2 p q)).trans ?_
  refine (pay4_apply (iblk0 V c 0 t) (iblk0 V c 5 t) (iblk0 V c 6 t) p q).trans ?_
  obtain ⟨e0, e8, e9, e15, a0, a7, a8, a9, b10, b11, b2, b30, b31, b4, b50, b51, b6⟩ := idx_facts0 t
  obtain ⟨r, d, hrd⟩ : ∃ (r : Cert.CommAttn.Row) (d : Cert.CommAttn.Col), ((cfg0.win 9).blk t).view.emb (ix2 p q) = ix2 r d :=
    ⟨(((cfg0.win 9).blk t).view.emb (ix2 p q)) 0, (((cfg0.win 9).blk t).view.emb (ix2 p q)) 1, eq_ix2 _⟩
  have hr0 : win0_9.index t (0 : Fin 2) * 512 + 1 * p.val = r.val := congrArg Fin.val (congrFun hrd 0)
  have hd1 : win0_9.index t (1 : Fin 2) * 1024 + 1 * q.val = d.val := congrArg Fin.val (congrFun hrd 1)
  refine Eq.trans ?_ (congrArg (G0_9 V c) hrd.symm)
  have h0 : ∀ k : Fin 1024, ((cfg0.win 0).blk t).view.emb (ix2 p k) = ix2 r k := fun k => by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  have h1 : ∀ k : Fin 1024, ((cfg0.win 5).blk t).view.emb (ix2 k q) = ix2 k d := fun k => by
    funext a; apply Fin.ext
    match a with
    | ⟨0, _⟩ => show win0_5.index t (0 : Fin 2) * 1024 + 1 * k.val = k.val; omega
    | ⟨1, _⟩ => show win0_5.index t (1 : Fin 2) * 1024 + 1 * q.val = d.val; omega
  have h2 : ((cfg0.win 6).blk t).view.emb (ix1 q) = ix1 d := by
    funext a; apply Fin.ext
    match a with
    | ⟨0, _⟩ => show win0_6.index t (0 : Fin 1) * 1024 + 1 * q.val = d.val; omega
  have hx : ∀ k : Fin 1024, iblk0 V c 0 t (ix2 p k) = x0Arr V c r k :=
    fun k => congrArg (V c main_arg0) (h0 k)
  have hw : ∀ k : Fin 1024, iblk0 V c 5 t (ix2 k q) = w0Arr5 V c k d :=
    fun k => congrArg (V c main_v2) (h1 k)
  have hb : iblk0 V c 6 t (ix1 q) = b0Arr6 V c d :=
    congrArg (V c main_arg7) h2
  show _ = Cert.CommAttn.proj (x0Arr V c) (w0Arr5 V c) (b0Arr6 V c) r d
  rw [Cert.CommAttn.proj_apply]
  simp only [hx, hw, hb]

/-- An index of the array is in point `t`'s block iff each coordinate is in the block's range on its axis. -/
theorem mem_blk0_9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole (Pipeline.arrRef spec0 9)).slice (win0_9.rect t)).set ↔ _
  rw [View.set_slice_whole, Rect.mem_set_unit]
  exact Iff.rfl

/-- Every index of the array is in the block of the point whose row block is the index's row divided by 512. -/
theorem covers0_9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := idx_onto0 ⟨(i 0).val / 512, by omega⟩
  have q0 : win0_7.index t (0 : Fin 2) = (i 0).val / 512 := ht
  obtain ⟨e0, e8, e9, e15, a0, a7, a8, a9, b10, b11, b2, b30, b31, b4, b50, b51, b6⟩ := idx_facts0 t
  refine ⟨t, flush0_9 t, ?_⟩
  rw [mem_blk0_9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The array after the region, whole. -/
theorem arr0_9 (c : Dev nD) : (dat0 (F := Ideal) V c).arrAt 9 cfg0.N = G0_9 V c :=
  (dat0 (F := Ideal) V c).arrAt_eq_of_cover 9 (G0_9 V c) (fun t _ => flushed0_9_eq V c t) covers0_9

/-- The array after the region at row r, feature d. -/
theorem final0_9 (c : Dev nD) (r : Cert.CommAttn.Row) (d : Cert.CommAttn.Col) :
    (dat0 (F := Ideal) V c).arrAt 9 cfg0.N (ix2 r d)
      = Cert.CommAttn.proj (x0Arr V c) (w0Arr5 V c) (b0Arr6 V c) r d := by
  rw [arr0_9]
  rfl

end Regions

end Cert.KernelIdeal.Hand

end
-- ==== Proof.KI.Arrays.lean ====
/-
  Every array the attention launch reads, identified: the representations, the output weights and bias, the normalisation's
  scale and shift are the launch memory's arguments; the two layouts of the community numbers are the argument's vector; and the
  three arrays the projection launch wrote are the three projections of the representations, the queries' carrying the scale.
  Hence the kernel's masked score is the score with the scale folded into the query.
-/
import proofs.«117877_j82918638617236_2_alg».proof.Proof.KI.Entry
import proofs.«117877_j82918638617236_2_alg».proof.Proof.KI.Views
import proofs.«117877_j82918638617236_2_alg».proof.Proof.KI.Value0
import proofs.«117877_j82918638617236_2_alg».proof.Proof.OnlineLaw

set_option maxRecDepth 16384

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## The argument arrays of the launch memory, as curried functions -/

abbrev gX : Row → Col → EReal := fun r k => (m ((c : Thread nD τ).loc main_arg0) : S8192x1024.Idx → EReal) (ix2 r k)
abbrev gWq : Col → Col → EReal := fun k d => (m ((c : Thread nD τ).loc main_arg2) : S1024x1024.Idx → EReal) (ix2 k d)
abbrev gBq : Col → EReal := fun d => (m ((c : Thread nD τ).loc main_arg3) : S1024.Idx → EReal) (ix1 d)
abbrev gWk : Col → Col → EReal := fun k d => (m ((c : Thread nD τ).loc main_arg4) : S1024x1024.Idx → EReal) (ix2 k d)
abbrev gBk : Col → EReal := fun d => (m ((c : Thread nD τ).loc main_arg5) : S1024.Idx → EReal) (ix1 d)
abbrev gWv : Col → Col → EReal := fun k d => (m ((c : Thread nD τ).loc main_arg6) : S1024x1024.Idx → EReal) (ix2 k d)
abbrev gBv : Col → EReal := fun d => (m ((c : Thread nD τ).loc main_arg7) : S1024.Idx → EReal) (ix1 d)
abbrev gWo : Col → Col → EReal := fun k d => (m ((c : Thread nD τ).loc main_arg8) : S1024x1024.Idx → EReal) (ix2 k d)
abbrev gBo : Col → EReal := fun d => (m ((c : Thread nD τ).loc main_arg9) : S1024.Idx → EReal) (ix1 d)
abbrev gGamma : Col → EReal := fun d => (m ((c : Thread nD τ).loc main_arg10) : S1024.Idx → EReal) (ix1 d)
abbrev gBeta : Col → EReal := fun d => (m ((c : Thread nD τ).loc main_arg11) : S1024.Idx → EReal) (ix1 d)
abbrev gIds : Row → BitVec 32 := fun r => (m ((c : Thread nD τ).loc main_arg1) : S8192.Idx → BitVec 32) (ix1 r)

/-! ## The projection launch's inputs -/

theorem x0Arr_eq : x0Arr (V1 m ρ) c = gX m c := by
  funext r k; show (W1 m ρ c (Proc.devRef .tc main_arg0) : S8192x1024.Idx → EReal) (ix2 r k) = _; rw [W1_main_arg0]
theorem w0Arr1_eq : w0Arr1 (V1 m ρ) c = gWq m c := by
  funext k d; show (W1 m ρ c (Proc.devRef .tc main_v0) : S1024x1024.Idx → EReal) (ix2 k d) = _; rw [W1_main_v0]
theorem w0Arr3_eq : w0Arr3 (V1 m ρ) c = gWk m c := by
  funext k d; show (W1 m ρ c (Proc.devRef .tc main_v1) : S1024x1024.Idx → EReal) (ix2 k d) = _; rw [W1_main_v1]
theorem w0Arr5_eq : w0Arr5 (V1 m ρ) c = gWv m c := by
  funext k d; show (W1 m ρ c (Proc.devRef .tc main_v2) : S1024x1024.Idx → EReal) (ix2 k d) = _; rw [W1_main_v2]
theorem b0Arr2_eq : b0Arr2 (V1 m ρ) c = gBq m c := by
  funext d; show (W1 m ρ c (Proc.devRef .tc main_arg3) : S1024.Idx → EReal) (ix1 d) = _; rw [W1_main_arg3]
theorem b0Arr4_eq : b0Arr4 (V1 m ρ) c = gBk m c := by
  funext d; show (W1 m ρ c (Proc.devRef .tc main_arg5) : S1024.Idx → EReal) (ix1 d) = _; rw [W1_main_arg5]
theorem b0Arr6_eq : b0Arr6 (V1 m ρ) c = gBv m c := by
  funext d; show (W1 m ρ c (Proc.devRef .tc main_arg7) : S1024.Idx → EReal) (ix1 d) = _; rw [W1_main_arg7]

/-! ## The attention launch's arrays -/

theorem aQ_eq : aQ (V3 m ρ) c = fun r d => proj (gX m c) (gWq m c) (gBq m c) r d * scale := by
  funext r d; rw [aQ_apply]
  show (W3 m ρ c (Proc.devRef .tc main_v4_0) : S8192x1024.Idx → EReal) (ix2 r d) = _
  rw [W3_main_v4_0, final0_7, x0Arr_eq, w0Arr1_eq, b0Arr2_eq]
theorem aK_eq : aK (V3 m ρ) c = proj (gX m c) (gWk m c) (gBk m c) := by
  funext r d; rw [aK_apply]
  show (W3 m ρ c (Proc.devRef .tc main_v4_1) : S8192x1024.Idx → EReal) (ix2 r d) = _
  rw [W3_main_v4_1, final0_8, x0Arr_eq, w0Arr3_eq, b0Arr4_eq]
theorem aV_eq : aV (V3 m ρ) c = proj (gX m c) (gWv m c) (gBv m c) := by
  funext r d; rw [aV_apply]
  show (W3 m ρ c (Proc.devRef .tc main_v4_2) : S8192x1024.Idx → EReal) (ix2 r d) = _
  rw [W3_main_v4_2, final0_9, x0Arr_eq, w0Arr5_eq, b0Arr6_eq]
theorem aQid_eq : aQid (V3 m ρ) c = gIds m c := by
  funext r; rw [aQid_apply]; exact W3_main_v5 m ρ c r
theorem aKid_eq : aKid (V3 m ρ) c = gIds m c := by
  funext j; rw [aKid_apply]; exact W3_main_v6 m ρ c j
theorem aX_eq : aX (V3 m ρ) c = gX m c := by
  funext r e; rw [aX_apply]; show (W3 m ρ c (Proc.devRef .tc main_arg0) : S8192x1024.Idx → EReal) (ix2 r e) = _; rw [W3_main_arg0]
theorem aWo_eq : aWo (V3 m ρ) c = gWo m c := by
  funext d e; rw [aWo_apply]; show (W3 m ρ c (Proc.devRef .tc main_v3) : S1024x1024.Idx → EReal) (ix2 d e) = _; rw [W3_main_v3]
theorem aBo_eq : aBo (V3 m ρ) c = gBo m c := by
  funext e; rw [aBo_apply]; show (W3 m ρ c (Proc.devRef .tc main_arg9) : S1024.Idx → EReal) (ix1 e) = _; rw [W3_main_arg9]
theorem aGamma_eq : aGamma (V3 m ρ) c = gGamma m c := by
  funext e; rw [aGamma_apply]; show (W3 m ρ c (Proc.devRef .tc main_arg10) : S1024.Idx → EReal) (ix1 e) = _; rw [W3_main_arg10]
theorem aBeta_eq : aBeta (V3 m ρ) c = gBeta m c := by
  funext e; rw [aBeta_apply]; show (W3 m ρ c (Proc.devRef .tc main_arg11) : S1024.Idx → EReal) (ix1 e) = _; rw [W3_main_arg11]

/-- The kernel's masked score is the score with the scale folded into the query. -/
theorem aScore_eq : aScore (V3 m ρ) c = scoreK (gIds m c) (proj (gX m c) (gWq m c) (gBq m c)) (proj (gX m c) (gWk m c) (gBk m c)) := by
  funext r j
  rw [aScore_apply, scoreK_apply, aQid_eq, aKid_eq, aQ_eq, aK_eq]

end Cert.KernelIdeal.Hand

end
-- ==== Proof.OnlineStep.lean ====
/-
  The softmax over consecutive groups of keys, step by step. The 8192 keys fall into eight consecutive groups of 1024; after k
  groups the keys seen are those with index below 1024 k. One step takes the running maximum, sum and accumulator over the keys
  seen so far and a new group (given as an injection of 1024 positions into the keys, disjoint from the keys seen), and produces
  the running maximum, sum and accumulator over the union: the new maximum is the larger of the old one and the group's own, the
  old sum and accumulator are rescaled by the exponential of (old maximum - new maximum), and the group's shifted exponentials
  (times the value rows, for the accumulator) are added. The 8192 rows likewise fall into sixteen consecutive groups of 512.

  Then the closing arithmetic: a row normalisation reads one row only, so two arrays agreeing on a row have the same normalised
  row; and dividing the accumulator once by the sum, applying the output projection, its bias and the residual, and normalising
  the row, is the specified function.
-/
import proofs.«117877_j82918638617236_2_alg».proof.Proof.OnlineLaw

noncomputable section

namespace Cert.CommAttn

open Idealize.ShloMosaic
open scoped BigOperators

/-! ### The groups of keys and of rows -/

/-- The k-th group of 1024 consecutive keys. -/
def tile (k : Fin 8) : Fin 1024 ↪ Row :=
  ⟨fun jj => ⟨1024 * k.val + jj.val, by have := k.isLt; have := jj.isLt; omega⟩, fun a b h => by
    have h' : 1024 * k.val + a.val = 1024 * k.val + b.val := congrArg Fin.val h
    exact Fin.ext (by omega)⟩

theorem tile_val (k : Fin 8) (jj : Fin 1024) : (tile k jj).val = 1024 * k.val + jj.val := rfl

/-- The keys seen after k groups: those with index below 1024 k. -/
def seen (k : ℕ) : Finset Row := Finset.univ.filter fun j => j.val < 1024 * k

theorem mem_seen (k : ℕ) (j : Row) : j ∈ seen k ↔ j.val < 1024 * k := by
  show j ∈ Finset.univ.filter _ ↔ _
  rw [Finset.mem_filter]
  exact ⟨fun h => h.2, fun h => ⟨Finset.mem_univ j, h⟩⟩

theorem mem_tile (k : Fin 8) (j : Row) :
    j ∈ Finset.univ.map (tile k) ↔ 1024 * k.val ≤ j.val ∧ j.val < 1024 * (k.val + 1) := by
  rw [Finset.mem_map]
  constructor
  · rintro ⟨jj, _, rfl⟩
    rw [tile_val]
    have := jj.isLt
    omega
  · rintro ⟨h1, h2⟩
    refine ⟨⟨j.val - 1024 * k.val, by omega⟩, Finset.mem_univ _, Fin.ext ?_⟩
    rw [tile_val]
    show 1024 * k.val + (j.val - 1024 * k.val) = j.val
    omega

theorem seen_zero : seen 0 = ∅ := by
  ext j
  rw [mem_seen]
  simp

theorem seen_succ (k : Fin 8) : seen (k.val + 1) = seen k.val ∪ Finset.univ.map (tile k) := by
  ext j
  rw [Finset.mem_union, mem_seen, mem_seen, mem_tile]
  omega

theorem seen_disjoint (k : Fin 8) : Disjoint (seen k.val) (Finset.univ.map (tile k)) := by
  rw [Finset.disjoint_left]
  intro j h1 h2
  rw [mem_seen] at h1
  rw [mem_tile] at h2
  omega

theorem seen_eight : seen 8 = Finset.univ := by
  ext j
  rw [mem_seen]
  have := j.isLt
  simp only [Finset.mem_univ, iff_true]
  omega

/-- The p-th row of the qi-th group of 512 consecutive rows. -/
def rowOf (qi : Fin 16) (p : Fin 512) : Row := ⟨512 * qi.val + p.val, by have := qi.isLt; have := p.isLt; omega⟩

theorem rowOf_val (qi : Fin 16) (p : Fin 512) : (rowOf qi p).val = 512 * qi.val + p.val := rfl

/-- Every row is the p-th of some group. -/
theorem row_cases (r : Row) : ∃ qi p, r = rowOf qi p := by
  have := r.isLt
  refine ⟨⟨r.val / 512, by omega⟩, ⟨r.val % 512, Nat.mod_lt _ (by norm_num)⟩, Fin.ext ?_⟩
  rw [rowOf_val]
  show r.val = 512 * (r.val / 512) + r.val % 512
  omega

/-! ### One step -/

/-- A group's own maximum is the running maximum over its image. -/
theorem fold_tile (s : Row → Row → EReal) (r : Row) (ι : Fin 1024 ↪ Row) :
    (Finset.univ : Finset (Fin 1024)).fold max ⊥ (fun jj => s r (ι jj)) = (Finset.univ.map ι).fold max ⊥ (s r) :=
  (Finset.fold_map (op := max) (b := (⊥ : EReal)) (f := s r) (g := ι) (s := Finset.univ)).symm

/-- The new maximum. -/
theorem step_max (s : Row → Row → EReal) (r : Row) (A : Finset Row) (ι : Fin 1024 ↪ Row)
    (m : EReal) (hm : m = runMax s A r) :
    max m ((Finset.univ : Finset (Fin 1024)).fold max ⊥ fun jj => s r (ι jj)) = runMax s (A ∪ Finset.univ.map ι) r := by
  rw [runMax_union, hm, fold_tile]

/-- The new sum. -/
theorem step_sum (s : Row → Row → EReal) (r : Row) (A : Finset Row) (ι : Fin 1024 ↪ Row)
    (hAB : Disjoint A (Finset.univ.map ι)) (hs : ∀ j, s r j ≠ ⊤)
    (m l : EReal) (hm : m = runMax s A r) (hl : l = runSum s A r) :
    Ideal.exp (m - max m ((Finset.univ : Finset (Fin 1024)).fold max ⊥ fun jj => s r (ι jj))) * l
        + ∑ jj : Fin 1024, Ideal.exp (s r (ι jj) - max m ((Finset.univ : Finset (Fin 1024)).fold max ⊥ fun jj => s r (ι jj)))
      = runSum s (A ∪ Finset.univ.map ι) r := by
  rw [step_max s r A ι m hm, runSum_union s A _ r hAB hs, hm, hl, Finset.sum_map]

/-- The new accumulator. -/
theorem step_acc (s : Row → Row → EReal) (V : Row → Col → EReal) (r : Row) (A : Finset Row) (ι : Fin 1024 ↪ Row)
    (hAB : Disjoint A (Finset.univ.map ι)) (hs : ∀ j, s r j ≠ ⊤) (hV : ∀ j d, ∃ v : ℝ, V j d = (v : EReal))
    (m : EReal) (acc : Col → EReal) (hm : m = runMax s A r) (hacc : ∀ d, acc d = runAcc s V A r d) (d : Col) :
    Ideal.exp (m - max m ((Finset.univ : Finset (Fin 1024)).fold max ⊥ fun jj => s r (ι jj))) * acc d
        + ∑ jj : Fin 1024,
            Ideal.exp (s r (ι jj) - max m ((Finset.univ : Finset (Fin 1024)).fold max ⊥ fun jj => s r (ι jj))) * V (ι jj) d
      = runAcc s V (A ∪ Finset.univ.map ι) r d := by
  rw [step_max s r A ι m hm, runAcc_union s V A _ r d hAB hs hV, hm, hacc d, Finset.sum_map]

/-- One step, all three at once, in the variables of a running computation. -/
theorem step (s : Row → Row → EReal) (V : Row → Col → EReal) (r : Row) (A : Finset Row) (ι : Fin 1024 ↪ Row)
    (hAB : Disjoint A (Finset.univ.map ι)) (hs : ∀ j, s r j ≠ ⊤) (hV : ∀ j d, ∃ v : ℝ, V j d = (v : EReal))
    (m l : EReal) (acc : Col → EReal) (hm : m = runMax s A r) (hl : l = runSum s A r)
    (hacc : ∀ d, acc d = runAcc s V A r d) :
    let m' := max m ((Finset.univ : Finset (Fin 1024)).fold max ⊥ fun jj => s r (ι jj))
    m' = runMax s (A ∪ Finset.univ.map ι) r
      ∧ Ideal.exp (m - m') * l + ∑ jj : Fin 1024, Ideal.exp (s r (ι jj) - m') = runSum s (A ∪ Finset.univ.map ι) r
      ∧ ∀ d, Ideal.exp (m - m') * acc d + ∑ jj : Fin 1024, Ideal.exp (s r (ι jj) - m') * V (ι jj) d
          = runAcc s V (A ∪ Finset.univ.map ι) r d := by
  intro m'
  exact ⟨step_max s r A ι m hm, step_sum s r A ι hAB hs m l hm hl, fun d => step_acc s V r A ι hAB hs hV m acc hm hacc d⟩

/-! ### The closing arithmetic -/

/-- The mean reads one row. -/
theorem mean_row_congr (H H' : Row → Col → EReal) (r r' : Row) (h : ∀ e', H r e' = H' r' e') : mean H r = mean H' r' := by
  rw [mean_apply, mean_apply]
  simp only [h]

/-- The variance reads one row. -/
theorem var_row_congr (H H' : Row → Col → EReal) (r r' : Row) (h : ∀ e', H r e' = H' r' e') : var H r = var H' r' := by
  rw [var_apply, var_apply, mean_row_congr H H' r r' h]
  simp only [h]

/-- The row normalisation reads one row: arrays agreeing on a row have the same normalised row. -/
theorem layerNorm_row_congr (H H' : Row → Col → EReal) (γ β : Col → EReal) (r r' : Row)
    (h : ∀ e', H r e' = H' r' e') (e : Col) : layerNorm H γ β r e = layerNorm H' γ β r' e := by
  rw [layerNorm_apply, layerNorm_apply, mean_row_congr H H' r r' h, var_row_congr H H' r r' h, h e]

/-- Dividing the accumulator over all keys once by the sum over all keys, with the scale folded into the query, then the output
    projection, bias and residual, then the row normalisation: the specified function at row r. -/
theorem kernel_row (x : Row → Col → EReal) (ids : Row → BitVec 32) (Wq : Col → Col → EReal) (bq : Col → EReal)
    (Wk : Col → Col → EReal) (bk : Col → EReal) (Wv : Col → Col → EReal) (bv : Col → EReal)
    (Wo : Col → Col → EReal) (bo γ β : Col → EReal)
    (hx : ∀ r k, ∃ v : ℝ, x r k = (v : EReal))
    (hWq : ∀ k d, ∃ v : ℝ, Wq k d = (v : EReal)) (hbq : ∀ d, ∃ v : ℝ, bq d = (v : EReal))
    (hWk : ∀ k d, ∃ v : ℝ, Wk k d = (v : EReal)) (hbk : ∀ d, ∃ v : ℝ, bk d = (v : EReal))
    (hWv : ∀ k d, ∃ v : ℝ, Wv k d = (v : EReal)) (hbv : ∀ d, ∃ v : ℝ, bv d = (v : EReal))
    (hids : ∃ j, ids j ≠ ids 0) (r r0 : Row) (e : Col) :
    layerNorm (fun _ e' =>
        (∑ d, Ideal.div (runAcc (scoreK ids (proj x Wq bq) (proj x Wk bk)) (proj x Wv bv) Finset.univ r d)
            (runSum (scoreK ids (proj x Wq bq) (proj x Wk bk)) Finset.univ r) * Wo d e') + bo e' + x r e') γ β r0 e
      = result x ids Wq bq Wk bk Wv bv Wo bo γ β r e := by
  have hQ := proj_real x Wq bq hx hWq hbq
  have hK := proj_real x Wk bk hx hWk hbk
  have hV := proj_real x Wv bv hx hWv hbv
  have key : ∀ d, Ideal.div (runAcc (score ids (proj x Wq bq) (proj x Wk bk)) (proj x Wv bv) Finset.univ r d)
      (runSum (score ids (proj x Wq bq) (proj x Wk bk)) Finset.univ r)
        = attend (score ids (proj x Wq bq) (proj x Wk bk)) (proj x Wv bv) r d := fun d =>
    final_div _ _ r d (fun j => score_ne_top ids _ _ hQ hK r j) hV (score_unmasked ids _ _ hQ hK hids r)
  rw [result_apply, scoreK_eq_score ids _ _ hQ hK]
  apply layerNorm_row_congr
  intro e'
  rw [resid_apply]
  simp only [key]

end Cert.CommAttn

end
-- ==== Proof.KI.Value1.lean ====
/-
  The result array after the attention launch.

  The output window's block at query block q is written back once, at the last key tile. What the body leaves there, row p and
  feature e, is the normalised residual of the attention output of query row 512·q + p. The sixteen written-back blocks tile
  the result array by rows, so the array ends holding that function of the array index: entry (r, e) is the normalised row r.
-/
import proofs.«117877_j82918638617236_2_alg».proof.Proof.KI.Region1
import proofs.«117877_j82918638617236_2_alg».proof.Proof.KI.Views
import proofs.«117877_j82918638617236_2_alg».proof.Proof.OnlineStep
import Idealize.ShloMosaic.Lib.Pipeline.Value
import Idealize.ShloMosaic.Lib.ValueIdx

set_option maxRecDepth 16384

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-- The normalised residual of the attention output, row r, feature e (the row argument of the normalisation is free: it reads
    one row). -/
def rowOut (r r0 : Row) (e : Col) : EReal :=
  layerNorm (fun _ e' => (∑ d, Ideal.div (runAcc (aScore V c) (aV V c) Finset.univ r d) (runSum (aScore V c) Finset.univ r) * aWo V c d e')
      + aBo V c e' + aX V c r e') (aGamma V c) (aBeta V c) r0 e

theorem rowOut_apply (r r0 : Row) (e : Col) : rowOut V c r r0 e
    = layerNorm (fun _ e' => (∑ d, Ideal.div (runAcc (aScore V c) (aV V c) Finset.univ r d) (runSum (aScore V c) Finset.univ r) * aWo V c d e')
      + aBo V c e' + aX V c r e') (aGamma V c) (aBeta V c) r0 e := rfl

/-- The result array as one function of the array index. -/
def outArray (r0 : Row) : S8192x1024.Idx → EReal := fun i => rowOut V c (i 0) r0 (i 1)

/-- THE RESULT ARRAY: given what the last key tile leaves in the output block (row p of query block q is the normalised row
    512·q + p), how a block of the window reads an array, and that the written-back blocks cover the array. -/
theorem final1_10_of
    (hlast : ∀ (t : Fin cfg1.N) (qi : Fin 16), t.val = 8 * qi.val + 7 → ∀ (p : Fin 512) (e : Fin 1024) (r0 : Row),
      (outsAt1 V c t.val t.isLt).1 (ix2 p e) = rowOut V c (rowOf qi p) r0 e)
    (hread : ∀ (G : S8192x1024.Idx → EReal) (t : Fin cfg1.N) (qi : Fin 16), t.val = 8 * qi.val + 7 → ∀ (p : Fin 512) (e : Fin 1024),
      ((cfg1.win 10).blk t).view.read (Elt Ideal) G (ix2 p e) = G (ix2 (rowOf qi p) e))
    (hcover : ∀ i : S8192x1024.Idx, ∃ t : Fin cfg1.N, (cfg1.win 10).flush t = true ∧ i ∈ ((cfg1.win 10).blk t).view.set)
    (r r0 : Row) (e : Col) :
    (dat1 (F := Ideal) V c).arrAt 10 cfg1.N (ix2 r e) = rowOut V c r r0 e := by
  have hG : ∀ t, (cfg1.win 10).flush t = true →
      (dat1 (F := Ideal) V c).flushed 10 t = ((cfg1.win 10).blk t).view.read (Elt Ideal) (outArray V c r0) := by
    intro t hf
    have h7 : t.val % 8 = 7 := (flush1_10 t).mp hf
    have hN : t.val < 128 := lt_of_lt_of_eq t.isLt (show cfg1.N = 128 from N_1)
    have ht : t.val = 8 * (⟨t.val / 8, by omega⟩ : Fin 16).val + 7 := by show t.val = 8 * (t.val / 8) + 7; omega
    show (cfg1.win 10).cut (grid1.coords t) ((dat1 (F := Ideal) V c).after 10 t) = _
    rw [after1_10]
    funext y
    obtain ⟨p, e', rfl⟩ : ∃ (p : Fin 512) (e' : Fin 1024), y = ix2 p e' := ⟨y 0, y 1, eq_ix2 y⟩
    rw [hread _ t _ ht p e']
    exact hlast t _ ht p e' r0
  rw [(dat1 (F := Ideal) V c).arrAt_eq_of_cover 10 (outArray V c r0) hG hcover]
  rfl

end Cert.KernelIdeal.Hand

end
-- ==== Proof.KI.Blocks1.lean ====
/-
  The blocks of the attention launch. The launch runs over a grid of 16 row groups by 8 key groups, point t standing for row group
  t / 8 and key group t % 8. Each operand is read block by block; an element of a block sits in its array at (block index) ·
  (block size) + (its coordinate inside the block) on every axis. So at point t the query-side blocks (the scaled queries, the
  queries' community numbers, the representations, the result) hold rows 512 · (t / 8) + p of their arrays, the key-side blocks
  (the keys, the values, the keys' community numbers) hold rows or columns 1024 · (t % 8) + jj, and the four small operands are
  read whole. The result's blocks are written back at the last key group of each row group, and those sixteen blocks cover the
  result array.
-/
import proofs.«117877_j82918638617236_2_alg».proof.Proof.KI.Region1Runs
import proofs.«117877_j82918638617236_2_alg».proof.Proof.KI.Views
import proofs.«117877_j82918638617236_2_alg».proof.Proof.OnlineStep
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

variable (V : (c : Dev nD) → (b : Ref sig .tc) → Buf (Elt F) ((c : Thread nD τ).loc b))

/-! ## The index maps, and the groups a grid point stands for -/

/-- The printed index maps, decided once over the grid: which block each window is on at each of the 128 points. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = t.val % 8
    ∧ win1_5.index t (0 : Fin 2) = t.val / 8 ∧ win1_5.index t (1 : Fin 2) = 0
    ∧ win1_6.index t (0 : Fin 2) = 0 ∧ win1_6.index t (1 : Fin 2) = 0
    ∧ win1_7.index t (0 : Fin 1) = 0 ∧ win1_8.index t (0 : Fin 1) = 0 ∧ win1_9.index t (0 : Fin 1) = 0
    ∧ win1_10.index t (0 : Fin 2) = t.val / 8 ∧ win1_10.index t (1 : Fin 2) = 0 :=
  (by decide +kernel : ∀ t : Fin grid1.N, _)

/-- The row group of a grid point: the point's first coordinate. -/
def qiOf (t : Fin cfg1.N) : Fin 16 := ⟨t.val / 8, by have h : t.val < 128 := t.isLt; omega⟩
/-- The key group of a grid point: the point's second coordinate. -/
def kiOf (t : Fin cfg1.N) : Fin 8 := ⟨t.val % 8, Nat.mod_lt _ (by norm_num)⟩
theorem qiOf_val (t : Fin cfg1.N) : (qiOf t).val = t.val / 8 := rfl
theorem kiOf_val (t : Fin cfg1.N) : (kiOf t).val = t.val % 8 := rfl

/-- A point written as 8 · (row group) + (key group) has those two groups. -/
theorem qi_ki_of (t : Fin cfg1.N) (qi : Fin 16) (ki : Fin 8) (h : t.val = 8 * qi.val + ki.val) :
    qiOf t = qi ∧ kiOf t = ki := by
  have hk : ki.val < 8 := ki.isLt
  exact ⟨Fin.ext (by rw [qiOf_val]; omega), Fin.ext (by rw [kiOf_val]; omega)⟩

/-! ## What each input window's block reads -/

/-- Window 0 (the scaled queries): rows of the point's row group, all columns. -/
theorem blk1_0 (c : Dev nD) (t : Fin cfg1.N) (p : Fin 512) (d : Fin 1024) :
    iblk1 V c 0 t (ix2 p d) = (V c main_v4_0 : S8192x1024.Idx → _) (ix2 (Cert.CommAttn.rowOf (qiOf t) p) d) := by
  obtain ⟨e0, e1, -⟩ := idx_facts1 t
  show (V c main_v4_0 : S8192x1024.Idx → _) (((cfg1.win 0).blk t).view.emb (ix2 p d)) = _
  congr 1
  funext a; apply Fin.ext
  match a with
  | ⟨0, _⟩ => show win1_0.index t (0 : Fin 2) * 512 + 1 * p.val = 512 * (t.val / 8) + p.val; omega
  | ⟨1, _⟩ => show win1_0.index t (1 : Fin 2) * 1024 + 1 * d.val = d.val; omega

/-- Window 1 (the keys): rows of the point's key group, all columns. -/
theorem blk1_1 (c : Dev nD) (t : Fin cfg1.N) (jj : Fin 1024) (d : Fin 1024) :
    iblk1 V c 1 t (ix2 jj d) = (V c main_v4_1 : S8192x1024.Idx → _) (ix2 (Cert.CommAttn.tile (kiOf t) jj) d) := by
  obtain ⟨-, -, e0, e1, -⟩ := idx_facts1 t
  show (V c main_v4_1 : S8192x1024.Idx → _) (((cfg1.win 1).blk t).view.emb (ix2 jj d)) = _
  congr 1
  funext a; apply Fin.ext
  match a with
  | ⟨0, _⟩ => show win1_1.index t (0 : Fin 2) * 1024 + 1 * jj.val = 1024 * (t.val % 8) + jj.val; omega
  | ⟨1, _⟩ => show win1_1.index t (1 : Fin 2) * 1024 + 1 * d.val = d.val; omega

/-- Window 2 (the values): rows of the point's key group, all columns. -/
theorem blk1_2 (c : Dev nD) (t : Fin cfg1.N) (jj : Fin 1024) (d : Fin 1024) :
    iblk1 V c 2 t (ix2 jj d) = (V c main_v4_2 : S8192x1024.Idx → _) (ix2 (Cert.CommAttn.tile (kiOf t) jj) d) := by
  obtain ⟨-, -, -, -, e0, e1, -⟩ := idx_facts1 t
  show (V c main_v4_2 : S8192x1024.Idx → _) (((cfg1.win 2).blk t).view.emb (ix2 jj d)) = _
  congr 1
  funext a; apply Fin.ext
  match a with
  | ⟨0, _⟩ => show win1_2.index t (0 : Fin 2) * 1024 + 1 * jj.val = 1024 * (t.val % 8) + jj.val; omega
  | ⟨1, _⟩ => show win1_2.index t (1 : Fin 2) * 1024 + 1 * d.val = d.val; omega

/-- Window 3 (the queries' community numbers, a column): rows of the point's row group. -/
theorem blk1_3 (c : Dev nD) (t : Fin cfg1.N) (p : Fin 512) :
    iblk1 V c 3 t (ix2 p (0 : Fin 1)) = (V c main_v5 : S8192x1.Idx → _) (ix2 (Cert.CommAttn.rowOf (qiOf t) p) (0 : Fin 1)) := by
  obtain ⟨-, -, -, -, -, -, e0, e1, -⟩ := idx_facts1 t
  show (V c main_v5 : S8192x1.Idx → _) (((cfg1.win 3).blk t).view.emb (ix2 p (0 : Fin 1))) = _
  congr 1
  funext a; apply Fin.ext
  match a with
  | ⟨0, _⟩ => show win1_3.index t (0 : Fin 2) * 512 + 1 * p.val = 512 * (t.val / 8) + p.val; omega
  | ⟨1, _⟩ => show win1_3.index t (1 : Fin 2) * 1 + 1 * 0 = 0; omega

/-- Window 4 (the keys' community numbers, a row): columns of the point's key group. -/
theorem blk1_4 (c : Dev nD) (t : Fin cfg1.N) (jj : Fin 1024) :
    iblk1 V c 4 t (ix2 (0 : Fin 1) jj) = (V c main_v6 : S1x8192.Idx → _) (ix2 (0 : Fin 1) (Cert.CommAttn.tile (kiOf t) jj)) := by
  obtain ⟨-, -, -, -, -, -, -, -, e0, e1, -⟩ := idx_facts1 t
  show (V c main_v6 : S1x8192.Idx → _) (((cfg1.win 4).blk t).view.emb (ix2 (0 : Fin 1) jj)) = _
  congr 1
  funext a; apply Fin.ext
  match a with
  | ⟨0, _⟩ => show win1_4.index t (0 : Fin 2) * 1 + 1 * 0 = 0; omega
  | ⟨1, _⟩ => show win1_4.index t (1 : Fin 2) * 1024 + 1 * jj.val = 1024 * (t.val % 8) + jj.val; omega

/-- Window 5 (the representations): rows of the point's row group, all columns. -/
theorem blk1_5 (c : Dev nD) (t : Fin cfg1.N) (p : Fin 512) (e : Fin 1024) :
    iblk1 V c 5 t (ix2 p e) = (V c main_arg0 : S8192x1024.Idx → _) (ix2 (Cert.CommAttn.rowOf (qiOf t) p) e) := by
  obtain ⟨-, -, -, -, -, -, -, -, -, -, e0, e1, -⟩ := idx_facts1 t
  show (V c main_arg0 : S8192x1024.Idx → _) (((cfg1.win 5).blk t).view.emb (ix2 p e)) = _
  congr 1
  funext a; apply Fin.ext
  match a with
  | ⟨0, _⟩ => show win1_5.index t (0 : Fin 2) * 512 + 1 * p.val = 512 * (t.val / 8) + p.val; omega
  | ⟨1, _⟩ => show win1_5.index t (1 : Fin 2) * 1024 + 1 * e.val = e.val; omega

/-- Window 6 (the output weights): the whole array. -/
theorem blk1_6 (c : Dev nD) (t : Fin cfg1.N) : iblk1 V c 6 t = (V c main_v3 : S1024x1024.Idx → _) := by
  obtain ⟨-, -, -, -, -, -, -, -, -, -, -, -, e0, e1, -⟩ := idx_facts1 t
  funext y
  show (V c main_v3 : S1024x1024.Idx → _) (((cfg1.win 6).blk t).view.emb y) = _
  congr 1
  funext a; apply Fin.ext
  match a with
  | ⟨0, _⟩ => show win1_6.index t (0 : Fin 2) * 1024 + 1 * (y 0).val = (y 0).val; omega
  | ⟨1, _⟩ => show win1_6.index t (1 : Fin 2) * 1024 + 1 * (y 1).val = (y 1).val; omega

/-- Window 7 (the output bias): the whole array. -/
theorem blk1_7 (c : Dev nD) (t : Fin cfg1.N) : iblk1 V c 7 t = (V c main_arg9 : S1024.Idx → _) := by
  obtain ⟨-, -, -, -, -, -, -, -, -, -, -, -, -, -, e0, -⟩ := idx_facts1 t
  funext y
  show (V c main_arg9 : S1024.Idx → _) (((cfg1.win 7).blk t).view.emb y) = _
  congr 1
  funext a; apply Fin.ext
  match a with
  | ⟨0, _⟩ => show win1_7.index t (0 : Fin 1) * 1024 + 1 * (y 0).val = (y 0).val; omega

/-- Window 8 (the normalisation's scale): the whole array. -/
theorem blk1_8 (c : Dev nD) (t : Fin cfg1.N) : iblk1 V c 8 t = (V c main_arg10 : S1024.Idx → _) := by
  obtain ⟨-, -, -, -, -, -, -, -, -, -, -, -, -, -, -, e0, -⟩ := idx_facts1 t
  funext y
  show (V c main_arg10 : S1024.Idx → _) (((cfg1.win 8).blk t).view.emb y) = _
  congr 1
  funext a; apply Fin.ext
  match a with
  | ⟨0, _⟩ => show win1_8.index t (0 : Fin 1) * 1024 + 1 * (y 0).val = (y 0).val; omega

/-- Window 9 (the normalisation's shift): the whole array. -/
theorem blk1_9 (c : Dev nD) (t : Fin cfg1.N) : iblk1 V c 9 t = (V c main_arg11 : S1024.Idx → _) := by
  obtain ⟨-, -, -, -, -, -, -, -, -, -, -, -, -, -, -, -, e0, -⟩ := idx_facts1 t
  funext y
  show (V c main_arg11 : S1024.Idx → _) (((cfg1.win 9).blk t).view.emb y) = _
  congr 1
  funext a; apply Fin.ext
  match a with
  | ⟨0, _⟩ => show win1_9.index t (0 : Fin 1) * 1024 + 1 * (y 0).val = (y 0).val; omega

/-! ## The output window -/

/-- Reading the output window's block of any array of the result's shape: rows of the point's row group. -/
theorem read_blk10 (G : S8192x1024.Idx → Elt F .f32) (t : Fin cfg1.N) (p : Fin 512) (e : Fin 1024) :
    ((cfg1.win 10).blk t).view.read (Elt F) G (ix2 p e) = G (ix2 (Cert.CommAttn.rowOf (qiOf t) p) e) := by
  obtain ⟨-, -, -, -, -, -, -, -, -, -, -, -, -, -, -, -, -, e0, e1⟩ := idx_facts1 t
  show G (((cfg1.win 10).blk t).view.emb (ix2 p e)) = _
  congr 1
  funext a; apply Fin.ext
  match a with
  | ⟨0, _⟩ => show win1_10.index t (0 : Fin 2) * 512 + 1 * p.val = 512 * (t.val / 8) + p.val; omega
  | ⟨1, _⟩ => show win1_10.index t (1 : Fin 2) * 1024 + 1 * e.val = e.val; omega

/-- An index of the result array is in point t's output block iff each coordinate is in the block's range on its axis. -/
theorem mem_blk10 (t : Fin cfg1.N) (i : S8192x1024.Idx) :
    i ∈ ((cfg1.win 10).blk t).view.set ↔ ∀ a : Fin 2, win1_10.index t a * S512x1024.size a ≤ (i a).val
      ∧ (i a).val < win1_10.index t a * S512x1024.size a + S512x1024.size a := by
  show i ∈ ((View.whole main_v7).slice (win1_10.rect t)).set ↔ _
  rw [View.set_slice_whole, Rect.mem_set_unit]
  exact Iff.rfl

/-- The written-back blocks cover the result array: index i lies in the block of the last point of its row group. -/
theorem cover10 : ∀ i : S8192x1024.Idx, ∃ t : Fin cfg1.N, (cfg1.win 10).flush t = true ∧ i ∈ ((cfg1.win 10).blk t).view.set := by
  intro i
  have hi0 : (i 0).val < 8192 := (i 0).isLt
  have hi1 : (i 1).val < 1024 := (i 1).isLt
  have hlt : 8 * ((i 0).val / 512) + 7 < cfg1.N := by show _ < 128; omega
  have htv : (⟨8 * ((i 0).val / 512) + 7, hlt⟩ : Fin cfg1.N).val = 8 * ((i 0).val / 512) + 7 := rfl
  obtain ⟨-, -, -, -, -, -, -, -, -, -, -, -, -, -, -, -, -, e0, e1⟩ := idx_facts1 ⟨8 * ((i 0).val / 512) + 7, hlt⟩
  refine ⟨⟨8 * ((i 0).val / 512) + 7, hlt⟩, (flush1_10 _).2 (by rw [htv]; omega), ?_⟩
  rw [mem_blk10]
  intro a
  match a with
  | ⟨0, _⟩ =>
    show win1_10.index ⟨8 * ((i 0).val / 512) + 7, hlt⟩ (0 : Fin 2) * 512 ≤ (i 0).val
      ∧ (i 0).val < win1_10.index ⟨8 * ((i 0).val / 512) + 7, hlt⟩ (0 : Fin 2) * 512 + 512
    rw [e0, htv]; omega
  | ⟨1, _⟩ =>
    show win1_10.index ⟨8 * ((i 0).val / 512) + 7, hlt⟩ (1 : Fin 2) * 1024 ≤ (i 1).val
      ∧ (i 1).val < win1_10.index ⟨8 * ((i 0).val / 512) + 7, hlt⟩ (1 : Fin 2) * 1024 + 1024
    rw [e1]; omega

/-! ## The same facts on the extended reals, by the arrays' names, for a point written as 8 · (row group) + (key group) -/

section AtIdeal

open Cert.CommAttn

variable (W : (c : Dev nD) → (b : Ref sig .tc) → Buf (Elt Ideal) ((c : Thread nD τ).loc b))

theorem blk1_0' (c : Dev nD) : ∀ (t : Fin cfg1.N) (qi : Fin 16) (ki : Fin 8), t.val = 8 * qi.val + ki.val →
    ∀ (p : Fin 512) (d : Fin 1024), (iblk1 W c 0 t : S512x1024.Idx → EReal) (ix2 p d) = aQ W c (rowOf qi p) d := by
  intro t qi ki h p d
  rw [← (qi_ki_of t qi ki h).1]
  exact blk1_0 W c t p d

theorem blk1_1' (c : Dev nD) : ∀ (t : Fin cfg1.N) (qi : Fin 16) (ki : Fin 8), t.val = 8 * qi.val + ki.val →
    ∀ (jj : Fin 1024) (d : Fin 1024), (iblk1 W c 1 t : S1024x1024.Idx → EReal) (ix2 jj d) = aK W c (tile ki jj) d := by
  intro t qi ki h jj d
  rw [← (qi_ki_of t qi ki h).2]
  exact blk1_1 W c t jj d

theorem blk1_2' (c : Dev nD) : ∀ (t : Fin cfg1.N) (qi : Fin 16) (ki : Fin 8), t.val = 8 * qi.val + ki.val →
    ∀ (jj : Fin 1024) (d : Fin 1024), (iblk1 W c 2 t : S1024x1024.Idx → EReal) (ix2 jj d) = aV W c (tile ki jj) d := by
  intro t qi ki h jj d
  rw [← (qi_ki_of t qi ki h).2]
  exact blk1_2 W c t jj d

theorem blk1_3' (c : Dev nD) : ∀ (t : Fin cfg1.N) (qi : Fin 16) (ki : Fin 8), t.val = 8 * qi.val + ki.val →
    ∀ (p : Fin 512), (iblk1 W c 3 t : S512x1.Idx → BitVec 32) (ix2 p (0 : Fin 1)) = aQid W c (rowOf qi p) := by
  intro t qi ki h p
  rw [← (qi_ki_of t qi ki h).1]
  exact blk1_3 W c t p

theorem blk1_4' (c : Dev nD) : ∀ (t : Fin cfg1.N) (qi : Fin 16) (ki : Fin 8), t.val = 8 * qi.val + ki.val →
    ∀ (jj : Fin 1024), (iblk1 W c 4 t : S1x1024.Idx → BitVec 32) (ix2 (0 : Fin 1) jj) = aKid W c (tile ki jj) := by
  intro t qi ki h jj
  rw [← (qi_ki_of t qi ki h).2]
  exact blk1_4 W c t jj

theorem blk1_5' (c : Dev nD) : ∀ (t : Fin cfg1.N) (qi : Fin 16) (ki : Fin 8), t.val = 8 * qi.val + ki.val →
    ∀ (p : Fin 512) (e : Fin 1024), (iblk1 W c 5 t : S512x1024.Idx → EReal) (ix2 p e) = aX W c (rowOf qi p) e := by
  intro t qi ki h p e
  rw [← (qi_ki_of t qi ki h).1]
  exact blk1_5 W c t p e

theorem blk1_6' (c : Dev nD) (t : Fin cfg1.N) (d e : Fin 1024) :
    (iblk1 W c 6 t : S1024x1024.Idx → EReal) (ix2 d e) = aWo W c d e := by
  rw [blk1_6 W c t]; rfl

theorem blk1_7' (c : Dev nD) (t : Fin cfg1.N) (e : Fin 1024) : (iblk1 W c 7 t : S1024.Idx → EReal) (ix1 e) = aBo W c e := by
  rw [blk1_7 W c t]; rfl

theorem blk1_8' (c : Dev nD) (t : Fin cfg1.N) (e : Fin 1024) : (iblk1 W c 8 t : S1024.Idx → EReal) (ix1 e) = aGamma W c e := by
  rw [blk1_8 W c t]; rfl

theorem blk1_9' (c : Dev nD) (t : Fin cfg1.N) (e : Fin 1024) : (iblk1 W c 9 t : S1024.Idx → EReal) (ix1 e) = aBeta W c e := by
  rw [blk1_9 W c t]; rfl

end AtIdeal

end Cert.KernelIdeal.Hand

end
-- ==== Proof.KI.Final.lean ====
/-
  The kernel's result array is the specification's function of the launch memory's arguments.

  Entry (r, e) of the result array is the normalised residual of the attention output of row r, formed from the arrays the
  attention launch finds. Those arrays are the arguments and the three projections (the queries' carrying the scale), so the
  masked score is the score with the scale folded into the query, which is the score itself at finite inputs; dividing the
  running weighted sum by the running sum once, over all keys, is the softmax's weighted sum when the row has a key outside
  its own community; and the normalisation that follows is the specification's.
-/
import proofs.«117877_j82918638617236_2_alg».proof.Proof.KI.Arrays
import proofs.«117877_j82918638617236_2_alg».proof.Proof.KI.Value1
import proofs.«117877_j82918638617236_2_alg».proof.Proof.KI.Blocks1
import proofs.«117877_j82918638617236_2_alg».proof.Proof.OnlineStep

set_option maxRecDepth 16384

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The result array from the last key tile's output block. -/
theorem final1_10
    (hlast : ∀ (t : Fin cfg1.N) (qi : Fin 16), t.val = 8 * qi.val + 7 → ∀ (p : Fin 512) (e : Fin 1024) (r0 : Row),
      (outsAt1 (V3 m ρ) c t.val t.isLt).1 (ix2 p e) = rowOut (V3 m ρ) c (rowOf qi p) r0 e)
    (r r0 : Row) (e : Col) :
    (dat1 (F := Ideal) (V3 m ρ) c).arrAt 10 cfg1.N (ix2 r e) = rowOut (V3 m ρ) c r r0 e :=
  final1_10_of (V3 m ρ) c hlast
    (fun G t qi ht p e => by
      have h := (qi_ki_of t qi ⟨7, by decide⟩ ht).1
      exact (read_blk10 (F := Ideal) G t p e).trans (by rw [h]))
    cover10 r r0 e

/-- THE KERNEL'S VALUE: at finite inputs whose community numbers are not all equal, entry (r, e) of the result array is the
    specification's function of the arguments. -/
theorem final_value
    (hlast : ∀ (t : Fin cfg1.N) (qi : Fin 16), t.val = 8 * qi.val + 7 → ∀ (p : Fin 512) (e : Fin 1024) (r0 : Row),
      (outsAt1 (V3 m ρ) c t.val t.isLt).1 (ix2 p e) = rowOut (V3 m ρ) c (rowOf qi p) r0 e)
    (hx : ∀ r k, ∃ v : ℝ, gX m c r k = (v : EReal))
    (hWq : ∀ k d, ∃ v : ℝ, gWq m c k d = (v : EReal)) (hbq : ∀ d, ∃ v : ℝ, gBq m c d = (v : EReal))
    (hWk : ∀ k d, ∃ v : ℝ, gWk m c k d = (v : EReal)) (hbk : ∀ d, ∃ v : ℝ, gBk m c d = (v : EReal))
    (hWv : ∀ k d, ∃ v : ℝ, gWv m c k d = (v : EReal)) (hbv : ∀ d, ∃ v : ℝ, gBv m c d = (v : EReal))
    (hids : ∃ j, gIds m c j ≠ gIds m c 0) (r : Row) (e : Col) :
    (dat1 (F := Ideal) (V3 m ρ) c).arrAt 10 cfg1.N (ix2 r e)
      = result (gX m c) (gIds m c) (gWq m c) (gBq m c) (gWk m c) (gBk m c) (gWv m c) (gBv m c) (gWo m c) (gBo m c) (gGamma m c) (gBeta m c) r e := by
  rw [final1_10 m ρ c hlast r r e, rowOut_apply, aScore_eq, aV_eq, aWo_eq, aBo_eq, aX_eq, aGamma_eq, aBeta_eq]
  exact kernel_row (gX m c) (gIds m c) (gWq m c) (gBq m c) (gWk m c) (gBk m c) (gWv m c) (gBv m c) (gWo m c) (gBo m c)
    (gGamma m c) (gBeta m c) hx hWq hbq hWk hbk hWv hbv hids r r e

/-- What the invariant over the grid points needs of the scores and the values: no score is top, every value is a real. -/
theorem score_ne_top'
    (hx : ∀ r k, ∃ v : ℝ, gX m c r k = (v : EReal))
    (hWq : ∀ k d, ∃ v : ℝ, gWq m c k d = (v : EReal)) (hbq : ∀ d, ∃ v : ℝ, gBq m c d = (v : EReal))
    (hWk : ∀ k d, ∃ v : ℝ, gWk m c k d = (v : EReal)) (hbk : ∀ d, ∃ v : ℝ, gBk m c d = (v : EReal)) :
    ∀ r j, aScore (V3 m ρ) c r j ≠ ⊤ := by
  intro r j
  have hQ := proj_real (gX m c) (gWq m c) (gBq m c) hx hWq hbq
  have hK := proj_real (gX m c) (gWk m c) (gBk m c) hx hWk hbk
  rw [aScore_eq, scoreK_eq_score _ _ _ hQ hK]
  exact score_ne_top _ _ _ hQ hK r j

theorem value_real
    (hx : ∀ r k, ∃ v : ℝ, gX m c r k = (v : EReal))
    (hWv : ∀ k d, ∃ v : ℝ, gWv m c k d = (v : EReal)) (hbv : ∀ d, ∃ v : ℝ, gBv m c d = (v : EReal)) :
    ∀ j d, ∃ v : ℝ, aV (V3 m ρ) c j d = (v : EReal) := by
  intro j d
  rw [aV_eq]
  exact proj_real (gX m c) (gWv m c) (gBv m c) hx hWv hbv j d

end Cert.KernelIdeal.Hand

end
-- ==== Proof.KI.Pieces1A.lean ====
/- The attention kernel at the first key tile of a query block: what its stores leave in the three carried
   buffers. The running maximum, the running sum and the accumulator are first reset (to the lowest value, to zero
   and to zero) and every later read of them sees the reset values, so what the tile leaves is one step of the
   online softmax taken from those: the new maximum, the new sum, and the new accumulator. -/
import proofs.«117877_j82918638617236_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz1A : (![0, 0] : Fin 2 → Nat) = fun _ => 0 := funext fun a => by fin_cases a <;> rfl
theorem hz1A1 : (![0] : Fin 1 → Nat) = fun _ => 0 := funext fun a => by fin_cases a <;> rfl

theorem sout1_A_0_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k1_pay2 (k1_pay8 x0 x1 x3 x4 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun1_A
  dsimp only
  try sl_unfold_words
  rw [View.canon_cons_unit_zero hz1A]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1A, View.ld_unit_zero (S := S1024x1024) hz1A, View.ld_unit_zero (S := S512x1) hz1A, View.ld_unit_zero (S := S1x1024) hz1A, View.ld_unit_zero (S := S1024) hz1A1, View.readCov_unit_zero (S := S512x1) _ hz1A, View.readCov_unit_zero (S := S512x1024) _ hz1A]

theorem sout1_A_1_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) :
    sout1_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k1_pay11 x0 x1 x3 x4 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun1_A
  dsimp only
  try sl_unfold_words
  rw [View.canon_cons_unit_zero hz1A]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1A, View.ld_unit_zero (S := S1024x1024) hz1A, View.ld_unit_zero (S := S512x1) hz1A, View.ld_unit_zero (S := S1x1024) hz1A, View.ld_unit_zero (S := S1024) hz1A1, View.readCov_unit_zero (S := S512x1) _ hz1A, View.readCov_unit_zero (S := S512x1024) _ hz1A]

theorem sout1_A_2_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) :
    sout1_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k1_pay1 (k1_pay9 x0 x1 x3 x4 (k1_pay4 (F := F)) (k1_pay4 (F := F))) (k1_pay10 x0 x1 x3 x4 (k1_pay4 (F := F))) (k1_pay6 (F := F)) x2 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun1_A
  dsimp only
  try sl_unfold_words
  rw [View.canon_cons_unit_zero hz1A]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1A, View.ld_unit_zero (S := S1024x1024) hz1A, View.ld_unit_zero (S := S512x1) hz1A, View.ld_unit_zero (S := S1x1024) hz1A, View.ld_unit_zero (S := S1024) hz1A1, View.readCov_unit_zero (S := S512x1) _ hz1A, View.readCov_unit_zero (S := S512x1024) _ hz1A]

end Cert.KernelIdeal.Hand

end
-- ==== Proof.KI.Pieces1B.lean ====
/- What a middle key tile leaves in the three scratch buffers, as the kernel's stored values of the blocks it read. -/
import proofs.«117877_j82918638617236_2_alg».proof.Proof.KI.Pieces1A
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] [Named F]

theorem hz1B : (![0, 0] : Fin 2 → Nat) = fun _ => 0 := funext fun a => by fin_cases a <;> rfl

/-- The running maximum left: the larger of the old one and the tile's own. -/
theorem sout1_B_0_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay2 (k1_pay8 x0 x1 x3 x4 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_B
  dsimp only
  try sl_unfold_words
  rw [View.canon_cons_unit_zero hz1B]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz1B, View.ld_unit_zero (S := S1024x1024) hz1B, View.ld_unit_zero (S := S512x1) hz1B, View.ld_unit_zero (S := S1x1024) hz1B, View.readCov_unit_zero (S := S512x1) _ hz1B, View.readCov_unit_zero (S := S512x1024) _ hz1B]

/-- The running sum left: the old one rescaled, plus the tile's shifted exponentials. -/
theorem sout1_B_1_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay11 x0 x1 x3 x4 xs0 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_B
  dsimp only
  try sl_unfold_words
  rw [View.canon_cons_unit_zero hz1B]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz1B, View.ld_unit_zero (S := S1024x1024) hz1B, View.ld_unit_zero (S := S512x1) hz1B, View.ld_unit_zero (S := S1x1024) hz1B, View.readCov_unit_zero (S := S512x1) _ hz1B, View.readCov_unit_zero (S := S512x1024) _ hz1B]

/-- The accumulator left: the old one rescaled, plus the tile's weighted value rows. -/
theorem sout1_B_2_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : ¬cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay1 (k1_pay9 x0 x1 x3 x4 xs0 xs0) (k1_pay10 x0 x1 x3 x4 xs0) xs2 x2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_B
  dsimp only
  try sl_unfold_words
  rw [View.canon_cons_unit_zero hz1B]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz1B, View.ld_unit_zero (S := S1024x1024) hz1B, View.ld_unit_zero (S := S512x1) hz1B, View.ld_unit_zero (S := S1x1024) hz1B, View.readCov_unit_zero (S := S512x1) _ hz1B, View.readCov_unit_zero (S := S512x1024) _ hz1B]

end Cert.KernelIdeal.Hand

end
-- ==== Proof.KI.Pieces1C.lean ====
/- The attention kernel at the last key tile of a query block: what its stores leave in the three carried
   buffers and in the output block. From the maximum, sum and accumulator the tile before left, the tile takes one
   more step of the online softmax; the epilogue then reads back the accumulator and the sum this very tile
   stored, and the output block is the normalised, projected, residual-added and layer-normalised result. -/
import proofs.«117877_j82918638617236_2_alg».proof.Proof.KI.Region1
import proofs.«117877_j82918638617236_2_alg».proof.Proof.KI.Pieces1A
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz1C : (![0, 0] : Fin 2 → Nat) = fun _ => 0 := funext fun a => by fin_cases a <;> rfl
theorem hz1C1 : (![0] : Fin 1 → Nat) = fun _ => 0 := funext fun a => by fin_cases a <;> rfl

theorem sout1_C_0_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay2 (k1_pay8 x0 x1 x3 x4 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_C
  dsimp only
  try sl_unfold_words
  rw [View.canon_cons_unit_zero hz1C]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1C, View.ld_unit_zero (S := S1024x1024) hz1C, View.ld_unit_zero (S := S512x1) hz1C, View.ld_unit_zero (S := S1x1024) hz1C, View.ld_unit_zero (S := S1024) hz1C1, View.readCov_unit_zero (S := S512x1) _ hz1C, View.readCov_unit_zero (S := S512x1024) _ hz1C, harg12.read_unread, harg13.read_unread, harg14.read_unread, harg15.read_unread]

theorem sout1_C_1_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay11 x0 x1 x3 x4 xs0 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_C
  dsimp only
  try sl_unfold_words
  rw [View.canon_cons_unit_zero hz1C]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1C, View.ld_unit_zero (S := S1024x1024) hz1C, View.ld_unit_zero (S := S512x1) hz1C, View.ld_unit_zero (S := S1x1024) hz1C, View.ld_unit_zero (S := S1024) hz1C1, View.readCov_unit_zero (S := S512x1) _ hz1C, View.readCov_unit_zero (S := S512x1024) _ hz1C, harg12.read_unread, harg13.read_unread, harg14.read_unread, harg15.read_unread]

theorem sout1_C_2_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    sout1_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay1 (k1_pay9 x0 x1 x3 x4 xs0 xs0) (k1_pay10 x0 x1 x3 x4 xs0) xs2 x2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_C
  dsimp only
  try sl_unfold_words
  rw [View.canon_cons_unit_zero hz1C]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1C, View.ld_unit_zero (S := S1024x1024) hz1C, View.ld_unit_zero (S := S512x1) hz1C, View.ld_unit_zero (S := S1x1024) hz1C, View.ld_unit_zero (S := S1024) hz1C1, View.readCov_unit_zero (S := S512x1) _ hz1C, View.readCov_unit_zero (S := S512x1024) _ hz1C, harg12.read_unread, harg13.read_unread, harg14.read_unread, harg15.read_unread]

theorem out1_C_10_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1 .i32) (harg5 : arg5.IsWhole) (arg6 : Memref sig .tc .vmem S1x1024 .i32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole) (hc0 : ¬cond1_0 i) (hc1 : cond1_1 i) (x0 : Vec F S512x1024 .bf16) (x1 : Vec F S1024x1024 .bf16) (x2 : Vec F S1024x1024 .bf16) (x3 : Vec F S512x1 .i32) (x4 : Vec F S1x1024 .i32) (x5 : Vec F S512x1024 .f32) (x6 : Vec F S1024x1024 .bf16) (x7 : Vec F S1024 .f32) (x8 : Vec F S1024 .f32) (x9 : Vec F S1024 .f32) (xs0 : Vec F S512x1 .f32) (xs1 : Vec F S512x1 .f32) (xs2 : Vec F S512x1024 .f32) :
    out1_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k1_pay3 (k1_pay1 (k1_pay9 x0 x1 x3 x4 xs0 xs0) (k1_pay10 x0 x1 x3 x4 xs0) xs2 x2) (k1_pay11 x0 x1 x3 x4 xs0 xs0 xs1) x6 x7 x5 x8 x9 := by
  unfold out1_C_10
  rw [View.read_writes_eq_canon _ _ _ (cover1_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun1_C
  dsimp only
  try sl_unfold_words
  rw [View.canon_cons_unit_zero hz1C]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz1C, View.ld_unit_zero (S := S1024x1024) hz1C, View.ld_unit_zero (S := S512x1) hz1C, View.ld_unit_zero (S := S1x1024) hz1C, View.ld_unit_zero (S := S1024) hz1C1, View.readCov_unit_zero (S := S512x1) _ hz1C, View.readCov_unit_zero (S := S512x1024) _ hz1C, harg12.read_unread, harg13.read_unread, harg14.read_unread, harg15.read_unread]

end Cert.KernelIdeal.Hand

end
-- ==== Proof.LibGramMatmul.lean ====
/-
  The matrix product against a transposed right operand on the extended reals, read at one entry.

  A matrix unit's product of an `m × k` array by an `n × k` array contracted on the LAST axis of both (rows against
  rows: `A Bᵀ`; with `B = A` the Gram matrix of A's rows), accumulated into the zero array, holds at entry `(a, b)` the
  sum over the contracted position `c` of `A[a,c] · B[b,c]`. The contraction's index set has one axis; it is re-indexed
  by its one coordinate, and the operands' indices at output entry `(a, b)` and contraction position `c` are named by
  their coordinates, axis by axis: each operand's row reads its own output coordinate, each operand's column reads `c`.
-/
import Idealize.ShloMosaic.PureOps.Ideal.Laws
import Idealize.ShloMosaic.Lib.ValueIdx

noncomputable section

open scoped BigOperators

namespace Idealize.ShloMosaic.GramMatmul

open Idealize.ShloMosaic Idealize.ShloMosaic.ValueIdx

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product against the transposed right operand, into the zero accumulator, at an entry**:
    `∑ c, A[a,c] · B[b,c]`, at the ideal values, whatever the operands' formats and the precision key. -/
theorem matmul_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end Idealize.ShloMosaic.GramMatmul

end
-- ==== Proof.LibDiagMask.lean ====
/-
  The diagonal of an n × n matrix, as a program tests for it: row and column numbers k and l are written as 32-bit words
  and compared for equality. Below 2^32 a number is its word, so for n ≤ 2^32 the comparison answers "k = l". A select
  on the answer is the `if` on k = l, and the answer converted to a float is the identity matrix's entry.
-/
import Idealize.ShloMosaic.PureOps.Ideal

noncomputable section

namespace Idealize.ShloMosaic.DiagMask

open Idealize.ShloMosaic

variable {n : ℕ}

/-- Two numbers below 2^32 have the same 32-bit word exactly when they are equal. -/
theorem ofNat_eq_iff (hn : n ≤ 4294967296) (k l : Fin n) : BitVec.ofNat 32 k.val = BitVec.ofNat 32 l.val ↔ k = l := by
  constructor
  · intro e
    have h := congrArg BitVec.toNat e
    rw [BitVec.toNat_ofNat, BitVec.toNat_ofNat] at h
    have hk := k.isLt
    have hl := l.isLt
    exact Fin.ext (by omega)
  · rintro rfl; rfl

/-- The equality comparison of the two numbers' words is the one-bit word of "k = l". -/
theorem cmpi_eq (hn : n ≤ 4294967296) (k l : Fin n) :
    IntOp.cmpi .eq (BitVec.ofNat 32 k.val) (BitVec.ofNat 32 l.val) = if k = l then 1#1 else 0#1 := by
  show BitVec.ofBool (BitVec.ofNat 32 k.val == BitVec.ofNat 32 l.val) = _
  by_cases h : k = l
  · subst h; rw [beq_self_eq_true, if_pos rfl]; rfl
  · rw [beq_eq_false_iff_ne.mpr (fun e => h ((ofNat_eq_iff hn k l).mp e)), if_neg h]; rfl

/-- A select on that comparison is the `if` on k = l. -/
theorem select_diag {α : Type} (hn : n ≤ 4294967296) (k l : Fin n) (a b : α) :
    Scalar.select (IntOp.cmpi .eq (BitVec.ofNat 32 k.val) (BitVec.ofNat 32 l.val)) a b = if k = l then a else b := by
  rw [cmpi_eq hn]
  unfold Scalar.select
  by_cases h : k = l
  · rw [if_pos h, if_pos h]; exact if_pos (by decide)
  · rw [if_neg h, if_neg h]; exact if_neg (by decide)

/-- That comparison as an extended real: 1 on the diagonal, 0 off it. -/
theorem uitofp_diag (hn : n ≤ 4294967296) (k l : Fin n) :
    FloatOps.uitofp (F := Ideal) .f32 (IntOp.cmpi .eq (BitVec.ofNat 32 k.val) (BitVec.ofNat 32 l.val))
      = if k = l then (1 : EReal) else 0 := by
  rw [cmpi_eq hn]
  show (((if k = l then 1#1 else 0#1 : BitVec 1).toNat : ℝ) : EReal) = _
  by_cases h : k = l
  · rw [if_pos h, if_pos h]; norm_num
  · rw [if_neg h, if_neg h]; norm_num

end Idealize.ShloMosaic.DiagMask

end
-- ==== Proof.KI.Pay1.lean ====
/- The attention kernel's stored values at one entry, on the extended reals: the masked scores of a block of queries
   against a tile of keys, the running maximum, the rescale factor, the shifted exponentials, the running sum and the
   running weighted sum of value rows. Format changes are the identity there; the matrix unit's product into the zero
   array is the plain sum; a column of width one repeated along the rows reads the column's entry of that row. -/
import proofs.«117877_j82918638617236_2_alg».proof.Proof.Gen.KernelIdeal.Skeleton
import proofs.«117877_j82918638617236_2_alg».proof.Proof.LibColumnLayout
import proofs.«117877_j82918638617236_2_alg».proof.Proof.LibGramMatmul
import proofs.«117877_j82918638617236_2_alg».proof.Proof.LibPlainMatmul
import proofs.«117877_j82918638617236_2_alg».proof.Proof.LibDiagMask
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

/-- The named fill of the mask denotes the bottom element. -/
theorem k1_neg_big_eq : Named.named (F := Ideal) κ "neg_big" (φ := .f32) 0xFF333332#32 = (⊥ : EReal) :=
  IdealRules.named_const.ideal_named_scalar _ _ _ _ rfl

/-- The score contraction pairs rows of the queries with rows of the keys. -/
theorem k1_dotT_eq : dot_S512x1024_S1024x1024_S512x1024_1_1_0_0_n_n = DotDims.transposedRhs 512 1024 1024 := rfl

/-- The value contraction pairs rows of the weights with columns of the values. -/
theorem k1_dotP_eq : dot_S512x1024_S1024x1024_S512x1024_1_0_0_1_n_n = DotDims.plain 512 1024 1024 := rfl

section scores
variable (q : Vec Ideal S512x1024 .bf16) (k : Vec Ideal S1024x1024 .bf16) (qid : Vec Ideal S512x1 .i32)
  (kid : Vec Ideal S1x1024 .i32)

/-- The masked score of query row p of the block against key row j of the tile: bottom when the two carry the same
    community number, else the inner product of the two rows. -/
theorem k1_pay7_apply (p : Fin 512) (j : Fin 1024) :
    k1_pay7 (F := Ideal) q k qid kid (ix2 p j)
      = if qid (ix2 p (0 : Fin 1)) = kid (ix2 (0 : Fin 1) j) then ⊥ else ∑ d : Fin 1024, q (ix2 p d) * k (ix2 j d) := by
  have hq : broadcastTo S512x1024 (shapeCast S512x1 qid shapeCasts_S512x1_S512x1 : IVec S512x1 32)
      broadcasts_S512x1_S512x1024 (ix2 p j) = qid (ix2 p (0 : Fin 1)) := by
    rw [shapeCast_self]
    exact ColumnLayout.broadcastTo_a1_ab_apply (a := 512) (b := 1024) qid broadcasts_S512x1_S512x1024 p j
  have hk : broadcastTo S512x1024 (shapeCast S1x1024 kid shapeCasts_S1x1024_S1x1024 : IVec S1x1024 32)
      broadcasts_S1x1024_S512x1024 (ix2 p j) = kid (ix2 (0 : Fin 1) j) := by
    rw [shapeCast_self]
    exact broadcastTo_1b_ab_apply (a := 512) (b := 1024) kid broadcasts_S1x1024_S512x1024 p j
  have hm : matmul dot_S512x1024_S1024x1024_S512x1024_1_1_0_0_n_n none
      (shapeCast S512x1024 q shapeCasts_S512x1024_S512x1024 : FVec Ideal S512x1024 .bf16)
      (shapeCast S1024x1024 k shapeCasts_S1024x1024_S1024x1024 : FVec Ideal S1024x1024 .bf16)
      (constant S512x1024 .f32 0x00000000#32) (ix2 p j) = ∑ d : Fin 1024, q (ix2 p d) * k (ix2 j d) := by
    rw [k1_dotT_eq, shapeCast_self, shapeCast_self]
    exact GramMatmul.matmul_zero_apply (m := 512) (k := 1024) (n := 1024) none q k p j
  delta k1_pay7
  show Scalar.select (IntOp.cmpi .eq
      (broadcastTo S512x1024 (shapeCast S512x1 qid shapeCasts_S512x1_S512x1 : IVec S512x1 32) broadcasts_S512x1_S512x1024 (ix2 p j))
      (broadcastTo S512x1024 (shapeCast S1x1024 kid shapeCasts_S1x1024_S1x1024 : IVec S1x1024 32) broadcasts_S1x1024_S512x1024 (ix2 p j)))
    (Named.named (F := Ideal) κ "neg_big" (φ := .f32) 0xFF333332#32)
    (matmul dot_S512x1024_S1024x1024_S512x1024_1_1_0_0_n_n none
      (shapeCast S512x1024 q shapeCasts_S512x1024_S512x1024 : FVec Ideal S512x1024 .bf16)
      (shapeCast S1024x1024 k shapeCasts_S1024x1024_S1024x1024 : FVec Ideal S1024x1024 .bf16)
      (constant S512x1024 .f32 0x00000000#32) (ix2 p j)) = _
  rw [hq, hk, hm, k1_neg_big_eq]
  by_cases h : qid (ix2 p (0 : Fin 1)) = kid (ix2 (0 : Fin 1) j)
  · rw [(IntOp.cmpi_eq).2 h, select_one, if_pos h]
  · rw [eq_zero_of_ne_one (fun hc => h ((IntOp.cmpi_eq).1 hc)), select_zero, if_neg h]

end scores

section online
variable (q : Vec Ideal S512x1024 .bf16) (k : Vec Ideal S1024x1024 .bf16) (qid : Vec Ideal S512x1 .i32)
  (kid : Vec Ideal S1x1024 .i32) (mo mo' lo : Vec Ideal S512x1 .f32)

/-- The new running maximum of row p: the larger of the old one and the largest masked score of the row in this tile. -/
theorem k1_pay8_apply (p : Fin 512) :
    k1_pay8 (F := Ideal) q k qid kid mo (ix2 p (0 : Fin 1))
      = max (mo (ix2 p (0 : Fin 1)))
          ((Finset.univ : Finset (Fin 1024)).fold max ⊥ fun j => k1_pay7 (F := Ideal) q k qid kid (ix2 p j)) := by
  delta k1_pay8
  show max (mo (ix2 p (0 : Fin 1)))
      (shapeCast S512x1 (multiReduction .maximumf [1] S512 (k1_pay7 (F := Ideal) q k qid kid) 0xFF800000#32
        reduces_S512x1024_S512 (.inl rfl) rfl) shapeCasts_S512_S512x1 (ix2 p (0 : Fin 1))) = _
  refine congrArg (max (mo (ix2 p (0 : Fin 1)))) ?_
  refine (ColumnLayout.shapeCast_a_a1_apply (a := 512) _ shapeCasts_S512_S512x1 p 0).trans ?_
  exact ColumnLayout.rowMax_apply (a := 512) (b := 1024) (k1_pay7 (F := Ideal) q k qid kid) reduces_S512x1024_S512 _ _ p

/-- The rescale factor of row p: the exponential of the old running maximum less the new one. -/
theorem k1_pay9_apply (p : Fin 512) :
    k1_pay9 (F := Ideal) q k qid kid mo mo' (ix2 p (0 : Fin 1))
      = Ideal.exp (mo' (ix2 p (0 : Fin 1)) - k1_pay8 (F := Ideal) q k qid kid mo (ix2 p (0 : Fin 1))) := by
  delta k1_pay9
  rfl

/-- The shifted exponential of the masked score at (p, j): its exponential less the row's new running maximum. -/
theorem k1_pay10_apply (p : Fin 512) (j : Fin 1024) :
    k1_pay10 (F := Ideal) q k qid kid mo (ix2 p j)
      = Ideal.exp (k1_pay7 (F := Ideal) q k qid kid (ix2 p j) - k1_pay8 (F := Ideal) q k qid kid mo (ix2 p (0 : Fin 1))) := by
  delta k1_pay10
  show Ideal.exp (k1_pay7 (F := Ideal) q k qid kid (ix2 p j)
      - broadcastTo S512x1024 (k1_pay8 (F := Ideal) q k qid kid mo) broadcasts_S512x1_S512x1024 (ix2 p j)) = _
  exact congrArg (fun t : EReal => Ideal.exp (k1_pay7 (F := Ideal) q k qid kid (ix2 p j) - t))
    (ColumnLayout.broadcastTo_a1_ab_apply (a := 512) (b := 1024) (k1_pay8 (F := Ideal) q k qid kid mo)
      broadcasts_S512x1_S512x1024 p j)

/-- The new running sum of row p: the old one times the rescale factor, plus the row's shifted exponentials summed
    from zero. -/
theorem k1_pay11_apply (p : Fin 512) :
    k1_pay11 (F := Ideal) q k qid kid mo mo' lo (ix2 p (0 : Fin 1))
      = k1_pay9 (F := Ideal) q k qid kid mo mo' (ix2 p (0 : Fin 1)) * lo (ix2 p (0 : Fin 1))
        + ∑ j : Fin 1024, k1_pay10 (F := Ideal) q k qid kid mo (ix2 p j) := by
  delta k1_pay11
  show shapeCast S512x1 (addf (mulf (k1_pay9 (F := Ideal) q k qid kid mo mo') lo)
      (shapeCast S512x1 (multiReduction .add [1] S512 (k1_pay10 (F := Ideal) q k qid kid mo) 0x00000000#32
        reduces_S512x1024_S512 (.inl rfl) rfl) shapeCasts_S512_S512x1)) shapeCasts_S512x1_S512x1 (ix2 p (0 : Fin 1)) = _
  rw [shapeCast_self]
  show k1_pay9 (F := Ideal) q k qid kid mo mo' (ix2 p (0 : Fin 1)) * lo (ix2 p (0 : Fin 1))
      + shapeCast S512x1 (multiReduction .add [1] S512 (k1_pay10 (F := Ideal) q k qid kid mo) 0x00000000#32
        reduces_S512x1024_S512 (.inl rfl) rfl) shapeCasts_S512_S512x1 (ix2 p (0 : Fin 1)) = _
  refine congrArg (fun t : EReal => k1_pay9 (F := Ideal) q k qid kid mo mo' (ix2 p (0 : Fin 1)) * lo (ix2 p (0 : Fin 1)) + t) ?_
  refine (ColumnLayout.shapeCast_a_a1_apply (a := 512) _ shapeCasts_S512_S512x1 p 0).trans ?_
  exact ColumnLayout.rowSum_apply (a := 512) (b := 1024) (k1_pay10 (F := Ideal) q k qid kid mo) reduces_S512x1024_S512 _ _ p

end online

/-- The new running weighted sum at (p, d): the old one times the row's rescale factor, plus the row's weights
    against column d of the value tile. -/
theorem k1_pay1_apply (a : FVec Ideal S512x1 .f32) (pv : FVec Ideal S512x1024 .f32) (acc : Vec Ideal S512x1024 .f32)
    (v : Vec Ideal S1024x1024 .bf16) (p : Fin 512) (d : Fin 1024) :
    k1_pay1 (F := Ideal) a pv acc v (ix2 p d)
      = a (ix2 p (0 : Fin 1)) * acc (ix2 p d) + ∑ j : Fin 1024, pv (ix2 p j) * v (ix2 j d) := by
  have hm : matmul dot_S512x1024_S1024x1024_S512x1024_1_0_0_1_n_n none
      (truncf .bf16 pv bitsLt_bf16_f32 : FVec Ideal S512x1024 .bf16)
      (shapeCast S1024x1024 v shapeCasts_S1024x1024_S1024x1024 : FVec Ideal S1024x1024 .bf16)
      (constant S512x1024 .f32 0x00000000#32) (ix2 p d) = ∑ j : Fin 1024, pv (ix2 p j) * v (ix2 j d) := by
    rw [k1_dotP_eq, shapeCast_self]
    exact PlainMatmul.matmul_zero_apply (m := 512) (k := 1024) (n := 1024) none
      (truncf .bf16 pv bitsLt_bf16_f32 : FVec Ideal S512x1024 .bf16) v p d
  delta k1_pay1
  show shapeCast S512x1024 (addf (mulf (broadcastTo S512x1024 a broadcasts_S512x1_S512x1024) acc)
      (matmul dot_S512x1024_S1024x1024_S512x1024_1_0_0_1_n_n none
        (truncf .bf16 pv bitsLt_bf16_f32 : FVec Ideal S512x1024 .bf16)
        (shapeCast S1024x1024 v shapeCasts_S1024x1024_S1024x1024 : FVec Ideal S1024x1024 .bf16)
        (constant S512x1024 .f32 0x00000000#32))) shapeCasts_S512x1024_S512x1024 (ix2 p d) = _
  rw [shapeCast_self]
  show broadcastTo S512x1024 a broadcasts_S512x1_S512x1024 (ix2 p d) * acc (ix2 p d)
      + matmul dot_S512x1024_S1024x1024_S512x1024_1_0_0_1_n_n none
        (truncf .bf16 pv bitsLt_bf16_f32 : FVec Ideal S512x1024 .bf16)
        (shapeCast S1024x1024 v shapeCasts_S1024x1024_S1024x1024 : FVec Ideal S1024x1024 .bf16)
        (constant S512x1024 .f32 0x00000000#32) (ix2 p d) = _
  rw [hm, ColumnLayout.broadcastTo_a1_ab_apply (a := 512) (b := 1024) a broadcasts_S512x1_S512x1024 p d]

/-- The stored running maximum is the one computed. -/
theorem k1_pay2_eq (x : FVec Ideal S512x1 .f32) : k1_pay2 (F := Ideal) x = x := by
  delta k1_pay2
  exact shapeCast_self x shapeCasts_S512x1_S512x1

/-- The running maximum starts at bottom. -/
theorem k1_pay4_apply (p : Fin 512) : k1_pay4 (F := Ideal) (ix2 p (0 : Fin 1)) = (⊥ : EReal) := by
  delta k1_pay4
  show shapeCast S512x1 (broadcast S512x1 (Scalar.ofBits (F := Ideal) .f32 0xFF800000#32)) shapeCasts_S512x1_S512x1
      (ix2 p (0 : Fin 1)) = _
  rw [shapeCast_self]
  exact ColumnLayout.ofBits_neg_inf_f32

/-- The running sum starts at zero. -/
theorem k1_pay5_apply (p : Fin 512) : k1_pay5 (F := Ideal) (ix2 p (0 : Fin 1)) = (0 : EReal) := by
  delta k1_pay5
  show shapeCast S512x1 (broadcast S512x1 (Scalar.ofBits (F := Ideal) .f32 0x00000000#32)) shapeCasts_S512x1_S512x1
      (ix2 p (0 : Fin 1)) = _
  rw [shapeCast_self]
  exact Ideal.ofBits_zero_f32

/-- The running weighted sum starts at zero. -/
theorem k1_pay6_apply (p : Fin 512) (d : Fin 1024) : k1_pay6 (F := Ideal) (ix2 p d) = (0 : EReal) := by
  delta k1_pay6
  show shapeCast S512x1024 (broadcast S512x1024 (Scalar.ofBits (F := Ideal) .f32 0x00000000#32))
      shapeCasts_S512x1024_S512x1024 (ix2 p d) = _
  rw [shapeCast_self]
  exact Ideal.ofBits_zero_f32

end Cert.KernelIdeal.Hand

end
-- ==== Proof.KI.Value1Step.lean ====
/- One key tile of the online softmax, read at one query row, over variables: if the old running maximum, sum and weighted
   sum at row p of the block are those over a set A of keys, and the tile's masked scores and value rows are those of keys
   ι 0, …, ι 1023 outside A, then the stored new statistics are those over A together with the tile's keys. -/
import proofs.«117877_j82918638617236_2_alg».proof.Proof.KI.Pay1
import proofs.«117877_j82918638617236_2_alg».proof.Proof.OnlineStep

set_option maxRecDepth 16384

noncomputable section

namespace Cert.KernelIdeal.Hand

open Cert.KernelIdeal Cert.KernelIdeal.Gen Cert.CommAttn
open Idealize.ShloMosaic Idealize.ShloMosaic.ValueIdx
open scoped BigOperators

theorem point_step (q : Vec Ideal S512x1024 .bf16) (k : Vec Ideal S1024x1024 .bf16) (v : Vec Ideal S1024x1024 .bf16)
    (qid : Vec Ideal S512x1 .i32) (kid : Vec Ideal S1x1024 .i32) (mo lo : Vec Ideal S512x1 .f32) (acco : Vec Ideal S512x1024 .f32)
    (s : Row → Row → EReal) (Vv : Row → Col → EReal) (r : Row) (A : Finset Row) (ι : Fin 1024 ↪ Row) (p : Fin 512)
    (hAB : Disjoint A (Finset.univ.map ι)) (hs : ∀ j, s r j ≠ ⊤) (hV : ∀ j d, ∃ x : ℝ, Vv j d = (x : EReal))
    (hsc : ∀ j : Fin 1024, k1_pay7 (F := Ideal) q k qid kid (ix2 p j) = s r (ι j))
    (hv : ∀ (j : Fin 1024) (d : Fin 1024), v (ix2 j d) = Vv (ι j) d)
    (hm : mo (ix2 p (0 : Fin 1)) = runMax s A r) (hl : lo (ix2 p (0 : Fin 1)) = runSum s A r)
    (hacc : ∀ d : Fin 1024, acco (ix2 p d) = runAcc s Vv A r d) :
    k1_pay2 (F := Ideal) (k1_pay8 (F := Ideal) q k qid kid mo) (ix2 p (0 : Fin 1)) = runMax s (A ∪ Finset.univ.map ι) r
      ∧ k1_pay11 (F := Ideal) q k qid kid mo mo lo (ix2 p (0 : Fin 1)) = runSum s (A ∪ Finset.univ.map ι) r
      ∧ ∀ d : Fin 1024, k1_pay1 (F := Ideal) (k1_pay9 (F := Ideal) q k qid kid mo mo) (k1_pay10 (F := Ideal) q k qid kid mo) acco v (ix2 p d)
          = runAcc s Vv (A ∪ Finset.univ.map ι) r d := by
  have hfold : (Finset.univ : Finset (Fin 1024)).fold max ⊥ (fun j => k1_pay7 (F := Ideal) q k qid kid (ix2 p j))
      = (Finset.univ : Finset (Fin 1024)).fold max ⊥ (fun jj => s r (ι jj)) :=
    congrArg (fun f => (Finset.univ : Finset (Fin 1024)).fold max ⊥ f) (funext hsc)
  have h8 : k1_pay8 (F := Ideal) q k qid kid mo (ix2 p (0 : Fin 1))
      = max (runMax s A r) ((Finset.univ : Finset (Fin 1024)).fold max ⊥ fun jj => s r (ι jj)) := by
    rw [k1_pay8_apply, hm, hfold]
  have h9 : k1_pay9 (F := Ideal) q k qid kid mo mo (ix2 p (0 : Fin 1))
      = Ideal.exp (runMax s A r - max (runMax s A r) ((Finset.univ : Finset (Fin 1024)).fold max ⊥ fun jj => s r (ι jj))) := by
    rw [k1_pay9_apply, h8, hm]
  have h10 : ∀ j : Fin 1024, k1_pay10 (F := Ideal) q k qid kid mo (ix2 p j)
      = Ideal.exp (s r (ι j) - max (runMax s A r) ((Finset.univ : Finset (Fin 1024)).fold max ⊥ fun jj => s r (ι jj))) := fun j => by
    rw [k1_pay10_apply, hsc, h8]
  refine ⟨?_, ?_, ?_⟩
  · rw [k1_pay2_eq, h8]
    exact step_max s r A ι (runMax s A r) rfl
  · rw [k1_pay11_apply, h9, hl,
      show (∑ j : Fin 1024, k1_pay10 (F := Ideal) q k qid kid mo (ix2 p j))
        = ∑ j : Fin 1024, Ideal.exp (s r (ι j) - max (runMax s A r) ((Finset.univ : Finset (Fin 1024)).fold max ⊥ fun jj => s r (ι jj)))
        from Finset.sum_congr rfl (fun j _ => h10 j)]
    exact step_sum s r A ι hAB hs (runMax s A r) (runSum s A r) rfl rfl
  · intro d
    rw [k1_pay1_apply, h9, hacc d,
      show (∑ j : Fin 1024, k1_pay10 (F := Ideal) q k qid kid mo (ix2 p j) * v (ix2 j d))
        = ∑ j : Fin 1024, Ideal.exp (s r (ι j) - max (runMax s A r) ((Finset.univ : Finset (Fin 1024)).fold max ⊥ fun jj => s r (ι jj))) * Vv (ι j) d
        from Finset.sum_congr rfl (fun j _ => by rw [h10 j, hv j d])]
    exact step_acc s Vv r A ι hAB hs hV (runMax s A r) (fun d => runAcc s Vv A r d) rfl (fun _ => rfl) d

end Cert.KernelIdeal.Hand

end
-- ==== Proof.KI.Pay3.lean ====
/- The attention kernel's last stored value at one entry, on the extended reals: the running weighted sum divided by
   the running sum, through the output projection, plus its bias and the residual, then each row normalised to mean
   zero and variance one with the epsilon under the root, scaled and shifted feature by feature. The rows before
   normalisation are carried as one array; the normalisation is read off that array. -/
import proofs.«117877_j82918638617236_2_alg».proof.Proof.KI.Pay1
import proofs.«117877_j82918638617236_2_alg».proof.Proof.LibDenseRows
import proofs.«117877_j82918638617236_2_alg».proof.Proof.Spec

set_option maxRecDepth 16384

noncomputable section

namespace Cert.KernelIdeal.Hand

open Cert.KernelIdeal Cert.KernelIdeal.Gen
open Idealize.ShloMosaic Idealize.ShloMosaic.ValueIdx

/-- The rows before normalisation: the quotient through the output projection, plus the bias row, plus the residual. -/
def k1_pre (acc : Vec Ideal S512x1024 .f32) (l : Vec Ideal S512x1 .f32) (wo : Vec Ideal S1024x1024 .bf16)
    (bo : Vec Ideal S1024 .f32) (x : Vec Ideal S512x1024 .f32) : FVec Ideal S512x1024 .f32 :=
  addf (addf
    (matmul dot_S512x1024_S1024x1024_S512x1024_1_0_0_1_n_n none
      (truncf .bf16 (divf acc (broadcastTo S512x1024 l broadcasts_S512x1_S512x1024)) bitsLt_bf16_f32 : FVec Ideal S512x1024 .bf16)
      (shapeCast S1024x1024 wo shapeCasts_S1024x1024_S1024x1024 : FVec Ideal S1024x1024 .bf16)
      (constant S512x1024 .f32 0x00000000#32))
    (broadcastTo S512x1024 (shapeCast S1x1024 bo shapeCasts_S1024_S1x1024) broadcasts_S1x1024_S512x1024)) x

/-- The mean of each row, kept as a column: the row's sum from zero over the number of features. -/
def k1_rowMean (h : FVec Ideal S512x1024 .f32) : FVec Ideal S512x1 .f32 :=
  divf (shapeCast S512x1 (multiReduction .add [1] S512 h 0x00000000#32 reduces_S512x1024_S512 (.inl rfl) rfl) shapeCasts_S512_S512x1)
    (broadcast S512x1 (Scalar.ofBits (F := Ideal) .f32 0x44800000#32))

/-- The variance of each row, kept as a column: the sum from zero of the squared deviations over the number of features. -/
def k1_rowVar (h : FVec Ideal S512x1024 .f32) : FVec Ideal S512x1 .f32 :=
  divf (shapeCast S512x1 (multiReduction .add [1] S512
      (mulf (subf h (broadcastTo S512x1024 (k1_rowMean h) broadcasts_S512x1_S512x1024))
        (subf h (broadcastTo S512x1024 (k1_rowMean h) broadcasts_S512x1_S512x1024)))
      0x00000000#32 reduces_S512x1024_S512 (.inl rfl) rfl) shapeCasts_S512_S512x1)
    (broadcast S512x1 (Scalar.ofBits (F := Ideal) .f32 0x44800000#32))

/-- The normalised rows: deviation times reciprocal root of variance plus epsilon, times the scale row, plus the shift row. -/
def k1_norm (h : FVec Ideal S512x1024 .f32) (g b : Vec Ideal S1024 .f32) : FVec Ideal S512x1024 .f32 :=
  addf (mulf (mulf (subf h (broadcastTo S512x1024 (k1_rowMean h) broadcasts_S512x1_S512x1024))
      (broadcastTo S512x1024 (rsqrt (addf (k1_rowVar h) (broadcast S512x1 (Scalar.ofBits (F := Ideal) .f32 0x3727C5AC#32))))
        broadcasts_S512x1_S512x1024))
      (broadcastTo S512x1024 (shapeCast S1x1024 g shapeCasts_S1024_S1x1024) broadcasts_S1x1024_S512x1024))
    (broadcastTo S512x1024 (shapeCast S1x1024 b shapeCasts_S1024_S1x1024) broadcasts_S1x1024_S512x1024)

theorem k1_pre_eq (acc : Vec Ideal S512x1024 .f32) (l : Vec Ideal S512x1 .f32) (wo : Vec Ideal S1024x1024 .bf16)
    (bo : Vec Ideal S1024 .f32) (x : Vec Ideal S512x1024 .f32) :
    k1_pre acc l wo bo x = addf (addf
      (matmul dot_S512x1024_S1024x1024_S512x1024_1_0_0_1_n_n none
        (truncf .bf16 (divf acc (broadcastTo S512x1024 l broadcasts_S512x1_S512x1024)) bitsLt_bf16_f32 : FVec Ideal S512x1024 .bf16)
        (shapeCast S1024x1024 wo shapeCasts_S1024x1024_S1024x1024 : FVec Ideal S1024x1024 .bf16)
        (constant S512x1024 .f32 0x00000000#32))
      (broadcastTo S512x1024 (shapeCast S1x1024 bo shapeCasts_S1024_S1x1024) broadcasts_S1x1024_S512x1024)) x := rfl

/-- The last stored value is the normalisation of the rows before normalisation. -/
theorem k1_pay3_eq (acc : Vec Ideal S512x1024 .f32) (l : Vec Ideal S512x1 .f32) (wo : Vec Ideal S1024x1024 .bf16)
    (bo : Vec Ideal S1024 .f32) (x : Vec Ideal S512x1024 .f32) (g b : Vec Ideal S1024 .f32) :
    k1_pay3 (F := Ideal) acc l wo bo x g b = k1_norm (k1_pre acc l wo bo x) g b := by
  delta k1_pay3 k1_norm k1_rowVar k1_rowMean k1_pre
  rfl

/-- The rows before normalisation at (p, e). -/
theorem k1_pre_apply (acc : Vec Ideal S512x1024 .f32) (l : Vec Ideal S512x1 .f32) (wo : Vec Ideal S1024x1024 .bf16)
    (bo : Vec Ideal S1024 .f32) (x : Vec Ideal S512x1024 .f32) (p : Fin 512) (e : Fin 1024) :
    k1_pre acc l wo bo x (ix2 p e)
      = (∑ d : Fin 1024, Ideal.div (acc (ix2 p d)) (l (ix2 p (0 : Fin 1))) * wo (ix2 d e)) + bo (ix1 e) + x (ix2 p e) := by
  have hm : matmul dot_S512x1024_S1024x1024_S512x1024_1_0_0_1_n_n none
      (truncf .bf16 (divf acc (broadcastTo S512x1024 l broadcasts_S512x1_S512x1024)) bitsLt_bf16_f32 : FVec Ideal S512x1024 .bf16)
      (shapeCast S1024x1024 wo shapeCasts_S1024x1024_S1024x1024 : FVec Ideal S1024x1024 .bf16)
      (constant S512x1024 .f32 0x00000000#32) (ix2 p e)
      = ∑ d : Fin 1024, Ideal.div (acc (ix2 p d)) (l (ix2 p (0 : Fin 1))) * wo (ix2 d e) := by
    rw [k1_dotP_eq, shapeCast_self]
    refine (PlainMatmul.matmul_zero_apply (m := 512) (k := 1024) (n := 1024) none
      (truncf .bf16 (divf acc (broadcastTo S512x1024 l broadcasts_S512x1_S512x1024)) bitsLt_bf16_f32 : FVec Ideal S512x1024 .bf16)
      wo p e).trans ?_
    refine Finset.sum_congr rfl fun d _ => ?_
    show Ideal.div (acc (ix2 p d)) (broadcastTo S512x1024 l broadcasts_S512x1_S512x1024 (ix2 p d)) * wo (ix2 d e) = _
    rw [ColumnLayout.broadcastTo_a1_ab_apply (a := 512) (b := 1024) l broadcasts_S512x1_S512x1024 p d]
  rw [k1_pre_eq]
  show matmul dot_S512x1024_S1024x1024_S512x1024_1_0_0_1_n_n none
      (truncf .bf16 (divf acc (broadcastTo S512x1024 l broadcasts_S512x1_S512x1024)) bitsLt_bf16_f32 : FVec Ideal S512x1024 .bf16)
      (shapeCast S1024x1024 wo shapeCasts_S1024x1024_S1024x1024 : FVec Ideal S1024x1024 .bf16)
      (constant S512x1024 .f32 0x00000000#32) (ix2 p e)
      + broadcastTo S512x1024 (shapeCast S1x1024 bo shapeCasts_S1024_S1x1024) broadcasts_S1x1024_S512x1024 (ix2 p e)
      + x (ix2 p e) = _
  rw [hm, Cert.DenseRows.biasRow_apply (a := 512) (b := 1024) bo shapeCasts_S1024_S1x1024 broadcasts_S1x1024_S512x1024 p e]

section norm
variable (h : FVec Ideal S512x1024 .f32) (r0 : Cert.CommAttn.Row) (p : Fin 512)

/-- The mean column at row p is the specification's mean of that row. -/
theorem k1_rowMean_apply :
    k1_rowMean h (ix2 p (0 : Fin 1)) = Cert.CommAttn.mean (fun _ e' => h (ix2 p e')) r0 := by
  delta k1_rowMean Cert.CommAttn.mean Cert.CommAttn.width
  show Ideal.div (shapeCast S512x1 (multiReduction .add [1] S512 h 0x00000000#32 reduces_S512x1024_S512 (.inl rfl) rfl)
      shapeCasts_S512_S512x1 (ix2 p (0 : Fin 1))) (Ideal.ofBits .f32 0x44800000#32)
    = Ideal.div (∑ e' : Fin 1024, h (ix2 p e')) (Ideal.ofBits .f32 0x44800000#32)
  refine congrArg (fun t : EReal => Ideal.div t (Ideal.ofBits .f32 0x44800000#32)) ?_
  refine (ColumnLayout.shapeCast_a_a1_apply (a := 512) _ shapeCasts_S512_S512x1 p 0).trans ?_
  exact ColumnLayout.rowSum_apply (a := 512) (b := 1024) h reduces_S512x1024_S512 _ _ p

/-- The variance column at row p is the specification's variance of that row. -/
theorem k1_rowVar_apply :
    k1_rowVar h (ix2 p (0 : Fin 1)) = Cert.CommAttn.var (fun _ e' => h (ix2 p e')) r0 := by
  have hdev : ∀ e' : Fin 1024,
      mulf (subf h (broadcastTo S512x1024 (k1_rowMean h) broadcasts_S512x1_S512x1024))
        (subf h (broadcastTo S512x1024 (k1_rowMean h) broadcasts_S512x1_S512x1024)) (ix2 p e')
      = (h (ix2 p e') - Cert.CommAttn.mean (fun _ e'' => h (ix2 p e'')) r0)
        * (h (ix2 p e') - Cert.CommAttn.mean (fun _ e'' => h (ix2 p e'')) r0) := by
    intro e'
    show (h (ix2 p e') - broadcastTo S512x1024 (k1_rowMean h) broadcasts_S512x1_S512x1024 (ix2 p e'))
      * (h (ix2 p e') - broadcastTo S512x1024 (k1_rowMean h) broadcasts_S512x1_S512x1024 (ix2 p e')) = _
    rw [ColumnLayout.broadcastTo_a1_ab_apply (a := 512) (b := 1024) (k1_rowMean h) broadcasts_S512x1_S512x1024 p e',
      k1_rowMean_apply h r0 p]
  delta k1_rowVar Cert.CommAttn.var Cert.CommAttn.width
  show Ideal.div (shapeCast S512x1 (multiReduction .add [1] S512
      (mulf (subf h (broadcastTo S512x1024 (k1_rowMean h) broadcasts_S512x1_S512x1024))
        (subf h (broadcastTo S512x1024 (k1_rowMean h) broadcasts_S512x1_S512x1024)))
      0x00000000#32 reduces_S512x1024_S512 (.inl rfl) rfl) shapeCasts_S512_S512x1 (ix2 p (0 : Fin 1)))
      (Ideal.ofBits .f32 0x44800000#32)
    = Ideal.div (∑ e' : Fin 1024, (h (ix2 p e') - Cert.CommAttn.mean (fun _ e'' => h (ix2 p e'')) r0)
        * (h (ix2 p e') - Cert.CommAttn.mean (fun _ e'' => h (ix2 p e'')) r0)) (Ideal.ofBits .f32 0x44800000#32)
  refine congrArg (fun t : EReal => Ideal.div t (Ideal.ofBits .f32 0x44800000#32)) ?_
  refine (ColumnLayout.shapeCast_a_a1_apply (a := 512) _ shapeCasts_S512_S512x1 p 0).trans ?_
  refine (ColumnLayout.rowSum_apply (a := 512) (b := 1024) _ reduces_S512x1024_S512 _ _ p).trans ?_
  exact Finset.sum_congr rfl fun e' _ => hdev e'

/-- The normalised rows at (p, e) are the specification's normalisation of row p at e. -/
theorem k1_norm_apply (g b : Vec Ideal S1024 .f32) (e : Fin 1024) :
    k1_norm h g b (ix2 p e)
      = Cert.CommAttn.layerNorm (fun _ e' => h (ix2 p e')) (fun e' => g (ix1 e')) (fun e' => b (ix1 e')) r0 e := by
  delta k1_norm Cert.CommAttn.layerNorm Cert.CommAttn.eps
  show (h (ix2 p e) - broadcastTo S512x1024 (k1_rowMean h) broadcasts_S512x1_S512x1024 (ix2 p e))
      * broadcastTo S512x1024 (rsqrt (addf (k1_rowVar h) (broadcast S512x1 (Scalar.ofBits (F := Ideal) .f32 0x3727C5AC#32))))
          broadcasts_S512x1_S512x1024 (ix2 p e)
      * broadcastTo S512x1024 (shapeCast S1x1024 g shapeCasts_S1024_S1x1024) broadcasts_S1x1024_S512x1024 (ix2 p e)
      + broadcastTo S512x1024 (shapeCast S1x1024 b shapeCasts_S1024_S1x1024) broadcasts_S1x1024_S512x1024 (ix2 p e)
    = (h (ix2 p e) - Cert.CommAttn.mean (fun _ e' => h (ix2 p e')) r0)
      * Ideal.rsqrt (Cert.CommAttn.var (fun _ e' => h (ix2 p e')) r0 + Ideal.ofBits .f32 0x3727C5AC#32)
      * g (ix1 e) + b (ix1 e)
  rw [ColumnLayout.broadcastTo_a1_ab_apply (a := 512) (b := 1024) (k1_rowMean h) broadcasts_S512x1_S512x1024 p e,
    ColumnLayout.broadcastTo_a1_ab_apply (a := 512) (b := 1024)
      (rsqrt (addf (k1_rowVar h) (broadcast S512x1 (Scalar.ofBits (F := Ideal) .f32 0x3727C5AC#32)))) broadcasts_S512x1_S512x1024 p e,
    Cert.DenseRows.biasRow_apply (a := 512) (b := 1024) g shapeCasts_S1024_S1x1024 broadcasts_S1x1024_S512x1024 p e,
    Cert.DenseRows.biasRow_apply (a := 512) (b := 1024) b shapeCasts_S1024_S1x1024 broadcasts_S1x1024_S512x1024 p e,
    k1_rowMean_apply h r0 p]
  show _ * Ideal.rsqrt (k1_rowVar h (ix2 p (0 : Fin 1)) + Ideal.ofBits .f32 0x3727C5AC#32) * _ + _ = _
  rw [k1_rowVar_apply h r0 p]

end norm

/-- The last stored value at (p, e): the specification's normalisation, at any row number, of the row whose entry e'
    is the quotient of the running weighted sum by the running sum through the output projection, plus the bias,
    plus the residual. -/
theorem k1_pay3_apply (acc : Vec Ideal S512x1024 .f32) (l : Vec Ideal S512x1 .f32) (wo : Vec Ideal S1024x1024 .bf16)
    (bo : Vec Ideal S1024 .f32) (x : Vec Ideal S512x1024 .f32) (g b : Vec Ideal S1024 .f32) (r0 : Cert.CommAttn.Row)
    (p : Fin 512) (e : Fin 1024) :
    k1_pay3 (F := Ideal) acc l wo bo x g b (ix2 p e)
      = Cert.CommAttn.layerNorm
          (fun _ e' => (∑ d : Fin 1024, Ideal.div (acc (ix2 p d)) (l (ix2 p (0 : Fin 1))) * wo (ix2 d e')) + bo (ix1 e') + x (ix2 p e'))
          (fun e' => g (ix1 e')) (fun e' => b (ix1 e')) r0 e := by
  rw [k1_pay3_eq, k1_norm_apply (k1_pre acc l wo bo x) r0 p g b e]
  have hrow : (fun (_ : Cert.CommAttn.Row) (e' : Cert.CommAttn.Col) => k1_pre acc l wo bo x (ix2 p e'))
      = fun _ e' => (∑ d : Fin 1024, Ideal.div (acc (ix2 p d)) (l (ix2 p (0 : Fin 1))) * wo (ix2 d e')) + bo (ix1 e') + x (ix2 p e') :=
    funext fun _ => funext fun e' => k1_pre_apply acc l wo bo x p e'
  rw [hrow]

end Cert.KernelIdeal.Hand

end
-- ==== Proof.KI.Value1Inv.lean ====
/- The attention region's running statistics, point by point: after the key tile ki of the query block qi, row p of the three
   scratch buffers holds the running maximum, the running sum of shifted exponentials and the running weighted sum of value rows
   of query row 512 qi + p over the keys below 1024 (ki + 1); and at the last key tile the output block holds the normalised
   row built from the statistics over all keys. By induction on the point, through the pieces each control case leaves. -/
import proofs.«117877_j82918638617236_2_alg».proof.Proof.KI.Pieces1A
import proofs.«117877_j82918638617236_2_alg».proof.Proof.KI.Pieces1B
import proofs.«117877_j82918638617236_2_alg».proof.Proof.KI.Pieces1C
import proofs.«117877_j82918638617236_2_alg».proof.Proof.KI.Value1Step
import proofs.«117877_j82918638617236_2_alg».proof.Proof.KI.Pay3
import proofs.«117877_j82918638617236_2_alg».proof.Proof.KI.Views

set_option maxRecDepth 16384

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b)) (c : Dev nD)

/-- Rows of three scratch contents hold the running statistics of the query block qi over the key set A. -/
def Inv1 (S0 S1 : Vec Ideal S512x1 .f32) (S2 : Vec Ideal S512x1024 .f32) (A : Finset Row) (qi : Fin 16) : Prop :=
  ∀ p : Fin 512, S0 (ix2 p (0 : Fin 1)) = runMax (aScore V c) A (rowOf qi p)
    ∧ S1 (ix2 p (0 : Fin 1)) = runSum (aScore V c) A (rowOf qi p)
    ∧ ∀ d : Fin 1024, S2 (ix2 p d) = runAcc (aScore V c) (aV V c) A (rowOf qi p) d

/-- One key tile: from the statistics over the keys below 1024 ki to those over the keys below 1024 (ki + 1). -/
theorem tile_core
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal))
    (t : Fin cfg1.N) (qi : Fin 16) (ki : Fin 8) (ht : t.val = 8 * qi.val + ki.val)
    (mo lo : Vec Ideal S512x1 .f32) (acco : Vec Ideal S512x1024 .f32)
    (hold : Inv1 V c mo lo acco (seen ki.val) qi) :
    Inv1 V c (k1_pay2 (F := Ideal) (k1_pay8 (F := Ideal) (iblk1 V c 0 t) (iblk1 V c 1 t) (iblk1 V c 3 t) (iblk1 V c 4 t) mo)) (k1_pay11 (F := Ideal) (iblk1 V c 0 t) (iblk1 V c 1 t) (iblk1 V c 3 t) (iblk1 V c 4 t) mo mo lo)
      (k1_pay1 (F := Ideal) (k1_pay9 (F := Ideal) (iblk1 V c 0 t) (iblk1 V c 1 t) (iblk1 V c 3 t) (iblk1 V c 4 t) mo mo) (k1_pay10 (F := Ideal) (iblk1 V c 0 t) (iblk1 V c 1 t) (iblk1 V c 3 t) (iblk1 V c 4 t) mo) acco (iblk1 V c 2 t)) (seen (ki.val + 1)) qi := by
  intro p
  rw [seen_succ ki]
  obtain ⟨hm, hl, hacc⟩ := hold p
  exact point_step (iblk1 V c 0 t) (iblk1 V c 1 t) (iblk1 V c 2 t) (iblk1 V c 3 t) (iblk1 V c 4 t) mo lo acco
    (aScore V c) (aV V c) (rowOf qi p) (seen ki.val) (tile ki) p (seen_disjoint ki) (hs (rowOf qi p)) hV
    (fun j => by
      rw [k1_pay7_apply, hQid t qi ki ht p, hKid t qi ki ht j, aScore_apply]
      by_cases h : aQid V c (rowOf qi p) = aKid V c (tile ki j)
      · rw [if_pos h, if_pos h]
      · rw [if_neg h, if_neg h]
        exact Finset.sum_congr rfl (fun d _ => by rw [hQ t qi ki ht p d, hK t qi ki ht j d]))
    (fun j d => hVv t qi ki ht j d) hm hl hacc

/-- The first key tile of a query block: the reset values are the statistics over no key. -/
theorem outs1_inv_A
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal))
    (t : Fin cfg1.N) (qi : Fin 16) (ki : Fin 8) (ht : t.val = 8 * qi.val + ki.val) (h0 : t.val % 8 = 0) (h1 : ¬t.val % 8 = 7) :
    Inv1 V c (outsAt1 V c t.val t.isLt).2.1 (outsAt1 V c t.val t.isLt).2.2.1 (outsAt1 V c t.val t.isLt).2.2.2 (seen (ki.val + 1)) qi := by
  have hki : ki.val = 0 := by omega
  rw [outsAt1_A V c t h0 h1]
  dsimp only
  rw [sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    sout1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)]
  have hold : Inv1 V c (k1_pay4 (F := Ideal)) (k1_pay5 (F := Ideal)) (k1_pay6 (F := Ideal)) (seen ki.val) qi := fun p => by
    rw [hki, seen_zero]
    exact ⟨(k1_pay4_apply p).trans (runMax_empty _ _).symm, (k1_pay5_apply p).trans (runSum_empty _ _).symm,
      fun d => (k1_pay6_apply p d).trans (runAcc_empty _ _ _ _).symm⟩
  exact tile_core V c hQ hK hVv hQid hKid hX hWo hBo hGamma hBeta hs hV t qi ki ht _ _ _ hold

/-- A middle key tile. -/
theorem outs1_inv_B
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal))
    (t : Fin cfg1.N) (qi : Fin 16) (ki : Fin 8) (ht : t.val = 8 * qi.val + ki.val) (h0 : ¬t.val % 8 = 0) (h1 : ¬t.val % 8 = 7)
    (IH : Inv1 V c (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (seen ki.val) qi) :
    Inv1 V c (outsAt1 V c t.val t.isLt).2.1 (outsAt1 V c t.val t.isLt).2.2.1 (outsAt1 V c t.val t.isLt).2.2.2 (seen (ki.val + 1)) qi := by
  rw [outsAt1_B V c t h0 h1]
  dsimp only
  rw [sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact tile_core V c hQ hK hVv hQid hKid hX hWo hBo hGamma hBeta hs hV t qi ki ht _ _ _ IH

/-- The last key tile: the same update (the epilogue reads what it stored). -/
theorem outs1_inv_C
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal))
    (t : Fin cfg1.N) (qi : Fin 16) (ki : Fin 8) (ht : t.val = 8 * qi.val + ki.val) (h0 : ¬t.val % 8 = 0) (h1 : t.val % 8 = 7)
    (IH : Inv1 V c (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (seen ki.val) qi) :
    Inv1 V c (outsAt1 V c t.val t.isLt).2.1 (outsAt1 V c t.val t.isLt).2.2.1 (outsAt1 V c t.val t.isLt).2.2.2 (seen (ki.val + 1)) qi := by
  rw [outsAt1_C V c t h0 h1]
  dsimp only
  rw [sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact tile_core V c hQ hK hVv hQid hKid hX hWo hBo hGamma hBeta hs hV t qi ki ht _ _ _ IH

/-- The statistics after every point, by induction on the point. -/
theorem outs1_inv_nat
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal)) :
    ∀ (n : ℕ) (hn : n < cfg1.N) (qi : Fin 16) (k : ℕ) (hk : k < 8), n = 8 * qi.val + k →
      Inv1 V c (outsAt1 V c n hn).2.1 (outsAt1 V c n hn).2.2.1 (outsAt1 V c n hn).2.2.2 (seen (k + 1)) qi
  | 0, hn, qi, k, hk, h =>
    outs1_inv_A V c hQ hK hVv hQid hKid hX hWo hBo hGamma hBeta hs hV ⟨0, hn⟩ qi ⟨k, hk⟩ h (Nat.zero_mod _) (by show ¬(0 % 8 = 7); omega)
  | n + 1, hn, qi, k, hk, h => by
    by_cases h0 : (n + 1) % 8 = 0
    · exact outs1_inv_A V c hQ hK hVv hQid hKid hX hWo hBo hGamma hBeta hs hV ⟨n + 1, hn⟩ qi ⟨k, hk⟩ h h0 (by show ¬((n + 1) % 8 = 7); omega)
    · obtain ⟨k', rfl⟩ : ∃ k', k = k' + 1 := ⟨k - 1, by omega⟩
      have IH := outs1_inv_nat hQ hK hVv hQid hKid hX hWo hBo hGamma hBeta hs hV n (Nat.lt_of_succ_lt hn) qi k' (by omega) (by omega)
      by_cases h1 : (n + 1) % 8 = 7
      · exact outs1_inv_C V c hQ hK hVv hQid hKid hX hWo hBo hGamma hBeta hs hV ⟨n + 1, hn⟩ qi ⟨k' + 1, hk⟩ h h0 h1 IH
      · exact outs1_inv_B V c hQ hK hVv hQid hKid hX hWo hBo hGamma hBeta hs hV ⟨n + 1, hn⟩ qi ⟨k' + 1, hk⟩ h h0 h1 IH

/-- After the key tile ki of the query block qi, row p of the three scratch buffers holds the running maximum, sum and
    weighted sum of value rows of query row 512 qi + p over the keys below 1024 (ki + 1). -/
theorem outs1_inv
    (hQ : ∀ (t : Fin cfg1.N) (qi : Fin 16) (ki : Fin 8), t.val = 8 * qi.val + ki.val → ∀ (p : Fin 512) (d : Fin 1024), (iblk1 V c 0 t : S512x1024.Idx → EReal) (ix2 p d) = aQ V c (rowOf qi p) d)
    (hK : ∀ (t : Fin cfg1.N) (qi : Fin 16) (ki : Fin 8), t.val = 8 * qi.val + ki.val → ∀ (jj d : Fin 1024), (iblk1 V c 1 t : S1024x1024.Idx → EReal) (ix2 jj d) = aK V c (tile ki jj) d)
    (hVv : ∀ (t : Fin cfg1.N) (qi : Fin 16) (ki : Fin 8), t.val = 8 * qi.val + ki.val → ∀ (jj d : Fin 1024), (iblk1 V c 2 t : S1024x1024.Idx → EReal) (ix2 jj d) = aV V c (tile ki jj) d)
    (hQid : ∀ (t : Fin cfg1.N) (qi : Fin 16) (ki : Fin 8), t.val = 8 * qi.val + ki.val → ∀ (p : Fin 512), (iblk1 V c 3 t : S512x1.Idx → BitVec 32) (ix2 p (0 : Fin 1)) = aQid V c (rowOf qi p))
    (hKid : ∀ (t : Fin cfg1.N) (qi : Fin 16) (ki : Fin 8), t.val = 8 * qi.val + ki.val → ∀ (jj : Fin 1024), (iblk1 V c 4 t : S1x1024.Idx → BitVec 32) (ix2 (0 : Fin 1) jj) = aKid V c (tile ki jj))
    (hX : ∀ (t : Fin cfg1.N) (qi : Fin 16) (ki : Fin 8), t.val = 8 * qi.val + ki.val → ∀ (p : Fin 512) (e : Fin 1024), (iblk1 V c 5 t : S512x1024.Idx → EReal) (ix2 p e) = aX V c (rowOf qi p) e)
    (hWo : ∀ (t : Fin cfg1.N) (qi : Fin 16) (ki : Fin 8), t.val = 8 * qi.val + ki.val → ∀ (d e : Fin 1024), (iblk1 V c 6 t : S1024x1024.Idx → EReal) (ix2 d e) = aWo V c d e)
    (hBo : ∀ (t : Fin cfg1.N) (qi : Fin 16) (ki : Fin 8), t.val = 8 * qi.val + ki.val → ∀ (e : Fin 1024), (iblk1 V c 7 t : S1024.Idx → EReal) (ix1 e) = aBo V c e)
    (hGamma : ∀ (t : Fin cfg1.N) (qi : Fin 16) (ki : Fin 8), t.val = 8 * qi.val + ki.val → ∀ (e : Fin 1024), (iblk1 V c 8 t : S1024.Idx → EReal) (ix1 e) = aGamma V c e)
    (hBeta : ∀ (t : Fin cfg1.N) (qi : Fin 16) (ki : Fin 8), t.val = 8 * qi.val + ki.val → ∀ (e : Fin 1024), (iblk1 V c 9 t : S1024.Idx → EReal) (ix1 e) = aBeta V c e)
    (hs : ∀ r j, aScore V c r j ≠ ⊤) (hV : ∀ j d, ∃ v : ℝ, aV V c j d = (v : EReal)) :
    ∀ (t : Fin cfg1.N) (qi : Fin 16) (ki : Fin 8), t.val = 8 * qi.val + ki.val → ∀ p : Fin 512,
      (outsAt1 V c t.val t.isLt).2.1 (ix2 p (0 : Fin 1)) = runMax (aScore V c) (seen (ki.val + 1)) (rowOf qi p)
      ∧ (outsAt1 V c t.val t.isLt).2.2.1 (ix2 p (0 : Fin 1)) = runSum (aScore V c) (seen (ki.val + 1)) (rowOf qi p)
      ∧ ∀ d : Fin 1024, (outsAt1 V c t.val t.isLt).2.2.2 (ix2 p d) = runAcc (aScore V c) (aV V c) (seen (ki.val + 1)) (rowOf qi p) d :=
  fun t qi ki ht => outs1_inv_nat V c hQ hK hVv hQid hKid hX hWo hBo hGamma hBeta hs hV t.val t.isLt qi ki.val ki.isLt ht

end Cert.KernelIdeal.Hand

end
-- ==== Proof.KI.Value1Last.lean ====
/-
  The output block the last key tile of a query block leaves.

  At the last key tile the body has taken the eighth step of the online softmax, so the accumulator and the sum it has
  just stored are the weighted sum of all value rows and the sum of all shifted exponentials of the query row; the
  epilogue reads those two back, divides, projects through the output weights, adds the bias and the residual row of
  the representations, and normalises the row. Row p of query block q is query row 512·q + p, so entry (p, e) of the
  block is the normalised residual of that row's attention output at feature e.
-/
import proofs.«117877_j82918638617236_2_alg».proof.Proof.KI.Value1
import proofs.«117877_j82918638617236_2_alg».proof.Proof.KI.Pieces1C
import proofs.«117877_j82918638617236_2_alg».proof.Proof.KI.Pay3
import proofs.«117877_j82918638617236_2_alg».proof.Proof.KI.Blocks1

set_option maxRecDepth 16384

noncomputable section

namespace Cert.KernelIdeal.Hand

open Cert.KernelIdeal Cert.KernelIdeal.Gen Cert.CommAttn
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

/-- At a last key tile the output block is the epilogue of the accumulator and the sum the tile itself has just stored. -/
theorem out1_C_of_scratch (t : Fin cfg1.N) (h0 : ¬t.val % 8 = 0) (h1 : t.val % 8 = 7) :
    (outsAt1 V c t.val t.isLt).1 = k1_pay3 (F := Ideal) (outsAt1 V c t.val t.isLt).2.2.2 (outsAt1 V c t.val t.isLt).2.2.1 (iblk1 V c 6 t) (iblk1 V c 7 t) (iblk1 V c 5 t) (iblk1 V c 8 t) (iblk1 V c 9 t) := by
  rw [outsAt1_C V c t h0 h1]
  dsimp only
  rw [out1_C_10_eq, sout1_C_1_eq, sout1_C_2_eq]

/-- THE LAST KEY TILE'S OUTPUT BLOCK, given what the carried buffers hold after every point: the running maximum, sum
    and weighted sum of the query row over the key tiles seen so far. -/
theorem out1_last
    (hinv : ∀ (t : Fin cfg1.N) (qi : Fin 16) (ki : Fin 8), t.val = 8 * qi.val + ki.val → ∀ p : Fin 512,
      (outsAt1 V c t.val t.isLt).2.1 (ix2 p (0 : Fin 1)) = runMax (aScore V c) (seen (ki.val + 1)) (rowOf qi p)
      ∧ (outsAt1 V c t.val t.isLt).2.2.1 (ix2 p (0 : Fin 1)) = runSum (aScore V c) (seen (ki.val + 1)) (rowOf qi p)
      ∧ ∀ d : Fin 1024, (outsAt1 V c t.val t.isLt).2.2.2 (ix2 p d) = runAcc (aScore V c) (aV V c) (seen (ki.val + 1)) (rowOf qi p) d) :
    ∀ (t : Fin cfg1.N) (qi : Fin 16), t.val = 8 * qi.val + 7 → ∀ (p : Fin 512) (e : Fin 1024) (r0 : Row),
      (outsAt1 V c t.val t.isLt).1 (ix2 p e) = rowOut V c (rowOf qi p) r0 e := by
  intro t qi ht p e r0
  have h0 : ¬t.val % 8 = 0 := by omega
  have h1 : t.val % 8 = 7 := by omega
  have ht' : t.val = 8 * qi.val + (7 : Fin 8).val := ht
  obtain ⟨-, hl, hacc⟩ := hinv t qi 7 ht' p
  have h8 : seen ((7 : Fin 8).val + 1) = Finset.univ := seen_eight
  rw [h8] at hl hacc
  refine ((congrFun (out1_C_of_scratch V c t h0 h1) (ix2 p e)).trans
    (k1_pay3_apply (outsAt1 V c t.val t.isLt).2.2.2 (outsAt1 V c t.val t.isLt).2.2.1 (iblk1 V c 6 t) (iblk1 V c 7 t) (iblk1 V c 5 t) (iblk1 V c 8 t) (iblk1 V c 9 t) r0 p e)).trans ?_
  rw [rowOut_apply]
  simp only [hl, hacc, blk1_6' V c t, blk1_7' V c t, blk1_8' V c t, blk1_9' V c t, blk1_5' V c t qi 7 ht' p]

end Cert.KernelIdeal.Hand

end
-- ==== Proof.RefProj.lean ====
import proofs.«117877_j82918638617236_2_alg».proof.Proof.Gen.ReferenceIdeal.Read
import proofs.«117877_j82918638617236_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.CommAttn

/-! The three affine projections of the reference, read at an entry: each is the contraction of a row of the
    representations with a column of the weight matrix, plus the bias entry of that column. -/

/-- The query projection at row r, feature d: the sum over k of x r k times W k d, plus b d. -/
theorem proj_q (x : FVec Ideal S8192x1024 .f32) (W : FVec Ideal S1024x1024 .f32) (b : FVec Ideal S1024 .f32) (r : Row) (d : Col) :
    val_main_v3 (F := Ideal) x W b (ix2 r d)
      = proj (fun r k => x (ix2 r k)) (fun k d => W (ix2 k d)) (fun d => b (ix1 d)) r d := by
  rw [val_main_v3_apply, val_main_v0_apply, val_main_v2_apply, val_main_v1_apply]
  have hl : ∀ k : Fin 1024, lidx_main_v0 (ix2 r d) k = ix2 r k := fun k => funext fun a => by
    match a with
    | ⟨0, _⟩ => rfl
    | ⟨1, _⟩ => rfl
  have hr : ∀ k : Fin 1024, ridx_main_v0 (ix2 r d) k = ix2 k d := fun k => funext fun a => by
    match a with
    | ⟨0, _⟩ => rfl
    | ⟨1, _⟩ => rfl
  have hb : idx_main_v1 (idx_main_v2 (ix2 r d)) = ix1 d := funext fun a => by
    match a with
    | ⟨0, _⟩ => rfl
  rw [hb]
  simp only [hl, hr]
  rfl

/-- The key projection is the same function of its three arrays as the query projection. -/
theorem proj_k (x : FVec Ideal S8192x1024 .f32) (W : FVec Ideal S1024x1024 .f32) (b : FVec Ideal S1024 .f32) (r : Row) (d : Col) :
    val_main_v7 (F := Ideal) x W b (ix2 r d)
      = proj (fun r k => x (ix2 r k)) (fun k d => W (ix2 k d)) (fun d => b (ix1 d)) r d :=
  proj_q x W b r d

/-- The value projection is the same function of its three arrays as the query projection. -/
theorem proj_v (x : FVec Ideal S8192x1024 .f32) (W : FVec Ideal S1024x1024 .f32) (b : FVec Ideal S1024 .f32) (r : Row) (d : Col) :
    val_main_v11 (F := Ideal) x W b (ix2 r d)
      = proj (fun r k => x (ix2 r k)) (fun k d => W (ix2 k d)) (fun d => b (ix1 d)) r d :=
  proj_q x W b r d

end Cert.ReferenceIdeal.RefValue

end
-- ==== Proof.RefScore.lean ====
import proofs.«117877_j82918638617236_2_alg».proof.Proof.Gen.ReferenceIdeal.Read
import proofs.«117877_j82918638617236_2_alg».proof.Proof.Spec
import proofs.«117877_j82918638617236_2_alg».proof.Proof.LibColumnLayout

noncomputable section

namespace Cert.ReferenceIdeal.RefValue

open Cert.ReferenceIdeal Cert.ReferenceIdeal.Gen Cert.ReferenceIdeal.Read Idealize.ShloMosaic Idealize.ShloMosaic.ValueIdx Cert.CommAttn

/-! The masked, scaled scores of the reference, read at an entry. -/

/-- The float word of minus infinity denotes the bottom element. -/
theorem ofBits_neg_inf : Ideal.ofBits .f32 0xFF800000#32 = (⊥ : EReal) := ColumnLayout.ofBits_neg_inf_f32

/-- The score of query r against key j: bottom when the two rows carry the same community number, else the inner
    product of the query row with the key row, times the scale. -/
theorem score_entry (x : FVec Ideal S8192x1024 .f32) (ids : IVec S8192 32) (Wq : FVec Ideal S1024x1024 .f32)
    (bq : FVec Ideal S1024 .f32) (Wk : FVec Ideal S1024x1024 .f32) (bk : FVec Ideal S1024 .f32) (r j : Row) :
    val_main_v21 (F := Ideal) x ids Wq bq Wk bk (ix2 r j)
      = score (fun r => ids (ix1 r)) (fun r d => val_main_v3 (F := Ideal) x Wq bq (ix2 r d))
          (fun r d => val_main_v7 (F := Ideal) x Wk bk (ix2 r d)) r j := by
  rw [val_main_v21_apply, val_main_v20_apply, val_main_v18_apply, val_main_v16_apply, val_main_v19_apply,
    val_main_v17_apply, val_main_call0_v1_apply, val_main_call0_v0_apply, val_main_cst_0_apply, val_main_v15_apply,
    val_main_v13_apply, val_main_v14_apply, val_main_cst_apply]
  have h1 : idx_main_v16 (idx_main_v18 (ix2 r j)) = ix1 r := funext fun a => by
    match a with
    | ⟨0, _⟩ => rfl
  have h2 : idx_main_v17 (idx_main_v19 (ix2 r j)) = ix1 j := funext fun a => by
    match a with
    | ⟨0, _⟩ => rfl
  have hl : ∀ k : Fin 1024, lidx_main_v13 (ix2 r j) k = ix2 r k := fun k => funext fun a => by
    match a with
    | ⟨0, _⟩ => rfl
    | ⟨1, _⟩ => rfl
  have hr : ∀ k : Fin 1024, idx_main_v12 (ridx_main_v13 (ix2 r j) k) = ix2 j k := fun k => funext fun a => by
    match a with
    | ⟨0, _⟩ => rfl
    | ⟨1, _⟩ => rfl
  rw [h1, h2]
  simp only [val_main_v12_apply, hl, hr]
  show _ = (if ids (ix1 r) = ids (ix1 j) then (⊥ : EReal)
    else (∑ d : Col, val_main_v3 (F := Ideal) x Wq bq (ix2 r d) * val_main_v7 (F := Ideal) x Wk bk (ix2 j d)) * scale)
  by_cases h : ids (ix1 r) = ids (ix1 j)
  · rw [(IntOp.cmpi_eq).2 h, select_one, if_pos h]
    exact ofBits_neg_inf
  · rw [eq_zero_of_ne_one (fun hc => h ((IntOp.cmpi_eq).1 hc)), select_zero, if_neg h]
    rfl

end Cert.ReferenceIdeal.RefValue

end
-- ==== Proof.RefSoftmax.lean ====
import proofs.«117877_j82918638617236_2_alg».proof.Proof.Gen.ReferenceIdeal.Read
import proofs.«117877_j82918638617236_2_alg».proof.Proof.Spec
import proofs.«117877_j82918638617236_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx Cert.CommAttn

/-! The row softmax of the reference's scores, read at an entry: the row's maximum, the shifted exponential, the
    row's sum and the normalised weight. The scores stay one opaque array throughout. -/

section
variable (x : FVec Ideal S8192x1024 .f32) (ids : IVec S8192 32) (Wq : FVec Ideal S1024x1024 .f32)
  (bq : FVec Ideal S1024 .f32) (Wk : FVec Ideal S1024x1024 .f32) (bk : FVec Ideal S1024 .f32)

/-- The reference's scores as a function of a query row and a key row. -/
def scores : Row → Row → EReal := fun r j => val_main_v21 (F := Ideal) x ids Wq bq Wk bk (ix2 r j)

theorem scores_apply (r j : Row) :
    scores x ids Wq bq Wk bk r j = val_main_v21 (F := Ideal) x ids Wq bq Wk bk (ix2 r j) := rfl

/-- Putting key coordinate k back into the reduced index r gives the entry (r, k). -/
theorem lift_row (h : S8192x8192.Reduces [1] S8192) (r : Row) (k : Fin (S8192x8192.size 1)) :
    h.lift (ix1 r) k = ix2 r (⟨k.val, k.isLt⟩ : Fin 8192) := by
  funext c; apply Fin.ext
  fin_cases c <;> rfl

/-- The maximum of row r of the scores, taken from bottom: the reduction starts at minus infinity, and the further
    maximum with minus infinity changes nothing. -/
theorem rowmax_entry (r : Row) :
    val_main_v24 (F := Ideal) x ids Wq bq Wk bk (ix1 r) = rowMax (scores x ids Wq bq Wk bk) r := by
  have hR : S8192x8192.Reduces [1] S8192 := by decide
  rw [val_main_v24_apply, val_main_v23_apply, val_main_cst_2_apply]
  show max (Ideal.ofBits .f32 0xFF800000#32) (val_main_v22 (F := Ideal) x ids Wq bq Wk bk (ix1 r)) = _
  rw [ofBits_neg_inf, max_bot_left]
  delta val_main_v22
  rw [Host.reduce_eq_fold_single FloatOps.maximumf _ _ reducesTo_S8192x8192_S8192_d1 hR h_S_]
  have hf : (val_main_v21 (F := Ideal) x ids Wq bq Wk bk ∘ hR.lift (ix1 r))
      = fun k : Fin 8192 => scores x ids Wq bq Wk bk r k := funext fun k => congrArg _ (lift_row hR r k)
  have h0 : val_main_cst_1 (F := Ideal) (Shape.Idx.first h_S_) = (⊥ : EReal) := ofBits_neg_inf
  rw [h0]
  delta rowMax
  exact congrArg (fun f => Finset.fold max (⊥ : EReal) f (Finset.univ : Finset (Fin 8192))) hf

/-- The exponential of a score less its row's maximum. -/
theorem expo_entry (r j : Row) :
    val_main_v28 (F := Ideal) x ids Wq bq Wk bk (ix2 r j) = expo (scores x ids Wq bq Wk bk) r j := by
  rw [val_main_v28_apply, val_main_v27_apply, val_main_v26_apply, val_main_v25_apply]
  have hi : idx_main_v25 (idx_main_v26 (ix2 r j)) = ix1 r := funext fun a => by
    match a with
    | ⟨0, _⟩ => rfl
  rw [hi, rowmax_entry]
  rfl

/-- The sum of row r of the shifted exponentials, from zero. -/
theorem denom_entry (r : Row) :
    val_main_v29 (F := Ideal) x ids Wq bq Wk bk (ix1 r) = denom (scores x ids Wq bq Wk bk) r := by
  rw [val_main_v29_apply]
  have hi : ∀ k : Fin 8192, idx_main_v29 (ix1 r) k = ix2 r k := fun k => funext fun a => by
    match a with
    | ⟨0, _⟩ => rfl
    | ⟨1, _⟩ => rfl
  have h0 : val_main_cst_3 (F := Ideal) (Shape.Idx.first h_S_) = (0 : EReal) := Ideal.ofBits_zero_f32
  simp only [hi, expo_entry]
  rw [h0, zero_add]
  rfl

/-- The normalised weight of key j in row r: its shifted exponential divided by the row's sum. -/
theorem weight_entry (r j : Row) :
    val_main_v32 (F := Ideal) x ids Wq bq Wk bk (ix2 r j)
      = Ideal.div (expo (scores x ids Wq bq Wk bk) r j) (denom (scores x ids Wq bq Wk bk) r) := by
  rw [val_main_v32_apply, val_main_v31_apply, val_main_v30_apply]
  have hi : idx_main_v30 (idx_main_v31 (ix2 r j)) = ix1 r := funext fun a => by
    match a with
    | ⟨0, _⟩ => rfl
  rw [hi, expo_entry, denom_entry]
  rfl

end

end Cert.ReferenceIdeal.RefValue

end
-- ==== Proof.RefOut.lean ====
import proofs.«117877_j82918638617236_2_alg».proof.Proof.Gen.ReferenceIdeal.Read
import proofs.«117877_j82918638617236_2_alg».proof.Proof.Spec
import proofs.«117877_j82918638617236_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx Cert.CommAttn

/-! The attention output, the output projection, its bias and the residual of the reference, read at an entry. -/

section
variable (x : FVec Ideal S8192x1024 .f32) (ids : IVec S8192 32) (Wq : FVec Ideal S1024x1024 .f32)
  (bq : FVec Ideal S1024 .f32) (Wk : FVec Ideal S1024x1024 .f32) (bk : FVec Ideal S1024 .f32)
  (Wv : FVec Ideal S1024x1024 .f32) (bv : FVec Ideal S1024 .f32) (Wo : FVec Ideal S1024x1024 .f32)
  (bo : FVec Ideal S1024 .f32)

/-- The reference's value projection as a function of a key row and a feature. -/
def values : Row → Col → EReal := fun j d => val_main_v11 (F := Ideal) x Wv bv (ix2 j d)

theorem values_apply (j : Row) (d : Col) : values x Wv bv j d = val_main_v11 (F := Ideal) x Wv bv (ix2 j d) := rfl

/-- The reference's attention output as a function of a row and a feature. -/
def attended : Row → Col → EReal := fun r d => val_main_v33 (F := Ideal) x ids Wq bq Wk bk Wv bv (ix2 r d)

theorem attended_apply (r : Row) (d : Col) :
    attended x ids Wq bq Wk bk Wv bv r d = val_main_v33 (F := Ideal) x ids Wq bq Wk bk Wv bv (ix2 r d) := rfl

/-- The reference's pre-normalisation rows as a function of a row and a feature. -/
def hidden : Row → Col → EReal := fun r e => val_main_v38 (F := Ideal) x ids Wq bq Wk bk Wv bv Wo bo (ix2 r e)

theorem hidden_apply (r : Row) (e : Col) :
    hidden x ids Wq bq Wk bk Wv bv Wo bo r e = val_main_v38 (F := Ideal) x ids Wq bq Wk bk Wv bv Wo bo (ix2 r e) := rfl

/-- The attention output at row r, feature d: the sum over keys of the normalised weight times the value entry. -/
theorem attend_entry (r : Row) (d : Col) :
    val_main_v33 (F := Ideal) x ids Wq bq Wk bk Wv bv (ix2 r d)
      = attend (scores x ids Wq bq Wk bk) (values x Wv bv) r d := by
  rw [val_main_v33_apply]
  have hl : ∀ k : Fin 8192, lidx_main_v33 (ix2 r d) k = ix2 r k := fun k => funext fun a => by
    match a with
    | ⟨0, _⟩ => rfl
    | ⟨1, _⟩ => rfl
  have hr : ∀ k : Fin 8192, ridx_main_v33 (ix2 r d) k = ix2 k d := fun k => funext fun a => by
    match a with
    | ⟨0, _⟩ => rfl
    | ⟨1, _⟩ => rfl
  simp only [hl, hr, weight_entry]
  rfl

/-- The output projection of the attention output, plus its bias, plus the residual. -/
theorem resid_entry (r : Row) (e : Col) :
    val_main_v38 (F := Ideal) x ids Wq bq Wk bk Wv bv Wo bo (ix2 r e)
      = resid (attended x ids Wq bq Wk bk Wv bv) (fun d e => Wo (ix2 d e)) (fun e => bo (ix1 e))
          (fun r e => x (ix2 r e)) r e := by
  rw [val_main_v38_apply, val_main_v37_apply, val_main_v34_apply, val_main_v36_apply, val_main_v35_apply]
  have hl : ∀ k : Fin 1024, lidx_main_v34 (ix2 r e) k = ix2 r k := fun k => funext fun a => by
    match a with
    | ⟨0, _⟩ => rfl
    | ⟨1, _⟩ => rfl
  have hr : ∀ k : Fin 1024, ridx_main_v34 (ix2 r e) k = ix2 k e := fun k => funext fun a => by
    match a with
    | ⟨0, _⟩ => rfl
    | ⟨1, _⟩ => rfl
  have hb : idx_main_v35 (idx_main_v36 (ix2 r e)) = ix1 e := funext fun a => by
    match a with
    | ⟨0, _⟩ => rfl
  rw [hb]
  simp only [hl, hr]
  rfl

end

end Cert.ReferenceIdeal.RefValue

end
-- ==== Proof.RefNorm.lean ====
import proofs.«117877_j82918638617236_2_alg».proof.Proof.Gen.ReferenceIdeal.Read
import proofs.«117877_j82918638617236_2_alg».proof.Proof.Spec
import proofs.«117877_j82918638617236_2_alg».proof.Proof.RefOut

noncomputable section

namespace Cert.ReferenceIdeal.RefValue

open Cert.ReferenceIdeal Cert.ReferenceIdeal.Gen Cert.ReferenceIdeal.Read Idealize.ShloMosaic Idealize.ShloMosaic.ValueIdx Cert.CommAttn

/-! The row normalisation of the reference, read at an entry: the row's mean and variance, kept as columns of
    width one, then the shifted row times the reciprocal root, scaled and shifted feature by feature. The rows being
    normalised stay one opaque array throughout. -/

section
variable (x : FVec Ideal S8192x1024 .f32) (ids : IVec S8192 32) (Wq : FVec Ideal S1024x1024 .f32)
  (bq : FVec Ideal S1024 .f32) (Wk : FVec Ideal S1024x1024 .f32) (bk : FVec Ideal S1024 .f32)
  (Wv : FVec Ideal S1024x1024 .f32) (bv : FVec Ideal S1024 .f32) (Wo : FVec Ideal S1024x1024 .f32)
  (bo : FVec Ideal S1024 .f32)

/-- The one coordinate of an axis of size one. -/
abbrev z1 : Fin 1 := ⟨0, Nat.one_pos⟩

/-- The mean of row r: the row's sum from zero, divided by the number of features. -/
theorem mean_entry (r : Row) :
    val_main_v42 (F := Ideal) x ids Wq bq Wk bk Wv bv Wo bo (ix2 r z1) = mean (hidden x ids Wq bq Wk bk Wv bv Wo bo) r := by
  rw [val_main_v42_apply, val_main_v40_apply, val_main_v39_apply, val_main_v41_apply, val_main_cst_5_apply]
  have hi : idx_main_v40 (ix2 r z1) = ix1 r := funext fun a => by
    match a with
    | ⟨0, _⟩ => rfl
  have hk : ∀ k : Fin 1024, idx_main_v39 (ix1 r) k = ix2 r k := fun k => funext fun a => by
    match a with
    | ⟨0, _⟩ => rfl
    | ⟨1, _⟩ => rfl
  have h0 : val_main_cst_4 (F := Ideal) (Shape.Idx.first h_S_) = (0 : EReal) := Ideal.ofBits_zero_f32
  rw [hi]
  simp only [hk]
  rw [h0, zero_add]
  rfl

/-- The variance of row r: the sum from zero of the squared deviations from the mean, divided by the number of
    features. -/
theorem var_entry (r : Row) :
    val_main_v49 (F := Ideal) x ids Wq bq Wk bk Wv bv Wo bo (ix2 r z1) = var (hidden x ids Wq bq Wk bk Wv bv Wo bo) r := by
  rw [val_main_v49_apply, val_main_v47_apply, val_main_v46_apply, val_main_v48_apply, val_main_cst_7_apply]
  have hi : idx_main_v47 (ix2 r z1) = ix1 r := funext fun a => by
    match a with
    | ⟨0, _⟩ => rfl
  have hk : ∀ k : Fin 1024, idx_main_v46 (ix1 r) k = ix2 r k := fun k => funext fun a => by
    match a with
    | ⟨0, _⟩ => rfl
    | ⟨1, _⟩ => rfl
  have hm : ∀ k : Fin 1024, idx_main_v43 (ix2 r k) = ix2 r z1 := fun k => funext fun a => by
    match a with
    | ⟨0, _⟩ => rfl
    | ⟨1, _⟩ => rfl
  have h0 : val_main_cst_6 (F := Ideal) (Shape.Idx.first h_S_) = (0 : EReal) := Ideal.ofBits_zero_f32
  rw [hi]
  simp only [hk, val_main_v45_apply, val_main_v44_apply, val_main_v43_apply, hm, mean_entry]
  rw [h0, zero_add]
  rfl

/-- The normalised entry: the deviation from the row's mean, times the reciprocal root of the variance plus
    epsilon, times gamma, plus beta. -/
theorem norm_entry (γ β : FVec Ideal S1024 .f32) (r : Row) (e : Col) :
    val_main_v62 (F := Ideal) x ids Wq bq Wk bk Wv bv Wo bo γ β (ix2 r e)
      = layerNorm (hidden x ids Wq bq Wk bk Wv bv Wo bo) (fun e => γ (ix1 e)) (fun e => β (ix1 e)) r e := by
  rw [val_main_v62_apply, val_main_v61_apply, val_main_v60_apply, val_main_v59_apply, val_main_v58_apply,
    val_main_v57_apply, val_main_v56_apply, val_main_v55_apply, val_main_v54_apply, val_main_v53_apply,
    val_main_v52_apply, val_main_cst_8_apply, val_main_v51_apply, val_main_v50_apply]
  have hg : idx_main_v57 (idx_main_v58 (ix2 r e)) = ix1 e := funext fun a => by
    match a with
    | ⟨0, _⟩ => rfl
  have hb : idx_main_v60 (idx_main_v61 (ix2 r e)) = ix1 e := funext fun a => by
    match a with
    | ⟨0, _⟩ => rfl
  have hv : idx_main_v55 (ix2 r e) = ix2 r z1 := funext fun a => by
    match a with
    | ⟨0, _⟩ => rfl
    | ⟨1, _⟩ => rfl
  have hm : idx_main_v50 (ix2 r e) = ix2 r z1 := funext fun a => by
    match a with
    | ⟨0, _⟩ => rfl
    | ⟨1, _⟩ => rfl
  rw [hg, hb, hv, hm, var_entry, mean_entry]
  rfl

end

end Cert.ReferenceIdeal.RefValue

end
-- ==== Proof.RefValue.lean ====
import proofs.«117877_j82918638617236_2_alg».proof.Proof.Gen.ReferenceIdeal.Read
import proofs.«117877_j82918638617236_2_alg».proof.Proof.Spec
import proofs.«117877_j82918638617236_2_alg».proof.Proof.RefProj
import proofs.«117877_j82918638617236_2_alg».proof.Proof.RefNorm

noncomputable section

namespace Cert.ReferenceIdeal.RefValue

open Cert.ReferenceIdeal Cert.ReferenceIdeal.Gen Cert.ReferenceIdeal.Read Idealize.ShloMosaic Idealize.ShloMosaic.ValueIdx Cert.CommAttn

/-! The reference program's result, read at an entry, is the specification's function of the twelve argument
    arrays: the stages of the reference are the specification's stages one for one, so the composition is a chain
    of substitutions of equal arrays. -/

/-- The reference's result at row r, feature e is the specification's result there. -/
theorem ref_eq (a0 : FVec Ideal S8192x1024 .f32) (a1 : IVec S8192 32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 a10 a11 : FVec Ideal S1024 .f32) (r : Row) (e : Col) :
    val_main_v62 (F := Ideal) a0 a1 a2 a3 a4 a5 a6 a7 a8 a9 a10 a11 (ix2 r e)
      = result (fun r k => a0 (ix2 r k)) (fun r => a1 (ix1 r)) (fun k d => a2 (ix2 k d)) (fun d => a3 (ix1 d))
          (fun k d => a4 (ix2 k d)) (fun d => a5 (ix1 d)) (fun k d => a6 (ix2 k d)) (fun d => a7 (ix1 d))
          (fun k d => a8 (ix2 k d)) (fun d => a9 (ix1 d)) (fun d => a10 (ix1 d)) (fun d => a11 (ix1 d)) r e := by
  have hQ : (fun r d => val_main_v3 (F := Ideal) a0 a2 a3 (ix2 r d))
      = proj (fun r k => a0 (ix2 r k)) (fun k d => a2 (ix2 k d)) (fun d => a3 (ix1 d)) :=
    funext fun r => funext fun d => proj_q a0 a2 a3 r d
  have hK : (fun r d => val_main_v7 (F := Ideal) a0 a4 a5 (ix2 r d))
      = proj (fun r k => a0 (ix2 r k)) (fun k d => a4 (ix2 k d)) (fun d => a5 (ix1 d)) :=
    funext fun r => funext fun d => proj_k a0 a4 a5 r d
  have hV : values a0 a6 a7
      = proj (fun r k => a0 (ix2 r k)) (fun k d => a6 (ix2 k d)) (fun d => a7 (ix1 d)) :=
    funext fun j => funext fun d => proj_v a0 a6 a7 j d
  have hS : scores a0 a1 a2 a3 a4 a5
      = score (fun r => a1 (ix1 r)) (proj (fun r k => a0 (ix2 r k)) (fun k d => a2 (ix2 k d)) (fun d => a3 (ix1 d)))
          (proj (fun r k => a0 (ix2 r k)) (fun k d => a4 (ix2 k d)) (fun d => a5 (ix1 d))) :=
    funext fun r => funext fun j => (score_entry a0 a1 a2 a3 a4 a5 r j).trans (by rw [hQ, hK])
  have hA : attended a0 a1 a2 a3 a4 a5 a6 a7
      = attend (scores a0 a1 a2 a3 a4 a5) (values a0 a6 a7) :=
    funext fun r => funext fun d => attend_entry a0 a1 a2 a3 a4 a5 a6 a7 r d
  have hH : hidden a0 a1 a2 a3 a4 a5 a6 a7 a8 a9
      = resid (attended a0 a1 a2 a3 a4 a5 a6 a7) (fun d e => a8 (ix2 d e)) (fun e => a9 (ix1 e))
          (fun r e => a0 (ix2 r e)) :=
    funext fun r => funext fun e => resid_entry a0 a1 a2 a3 a4 a5 a6 a7 a8 a9 r e
  rw [norm_entry, hH, hA, hS, hV]
  rfl

/-- The same at the run's own name for the result: from any memory, the composed term the reference's run ends at,
    read at row r, feature e, is the specification's result of the memory's twelve argument arrays. -/
theorem res_eq (m : (ℓ : Loc nD τ sig) → Buf (Elt Ideal) ℓ) (c : Dev nD) (r : Row) (e : Col) :
    (Cert.ReferenceIdeal.Value.res_main_v62 (F := Ideal) m c : FVec Ideal S8192x1024 .f32) (ix2 r e)
      = result (fun r k => (m ((c.tc : Thread nD τ).loc main_arg0) : FVec Ideal S8192x1024 .f32) (ix2 r k))
          (fun r => (m ((c.tc : Thread nD τ).loc main_arg1) : IVec S8192 32) (ix1 r))
          (fun k d => (m ((c.tc : Thread nD τ).loc main_arg2) : FVec Ideal S1024x1024 .f32) (ix2 k d))
          (fun d => (m ((c.tc : Thread nD τ).loc main_arg3) : FVec Ideal S1024 .f32) (ix1 d))
          (fun k d => (m ((c.tc : Thread nD τ).loc main_arg4) : FVec Ideal S1024x1024 .f32) (ix2 k d))
          (fun d => (m ((c.tc : Thread nD τ).loc main_arg5) : FVec Ideal S1024 .f32) (ix1 d))
          (fun k d => (m ((c.tc : Thread nD τ).loc main_arg6) : FVec Ideal S1024x1024 .f32) (ix2 k d))
          (fun d => (m ((c.tc : Thread nD τ).loc main_arg7) : FVec Ideal S1024 .f32) (ix1 d))
          (fun k d => (m ((c.tc : Thread nD τ).loc main_arg8) : FVec Ideal S1024x1024 .f32) (ix2 k d))
          (fun d => (m ((c.tc : Thread nD τ).loc main_arg9) : FVec Ideal S1024 .f32) (ix1 d))
          (fun d => (m ((c.tc : Thread nD τ).loc main_arg10) : FVec Ideal S1024 .f32) (ix1 d))
          (fun d => (m ((c.tc : Thread nD τ).loc main_arg11) : FVec Ideal S1024 .f32) (ix1 d)) r e := by
  rw [val_main_v62_eq]
  exact ref_eq _ _ _ _ _ _ _ _ _ _ _ _ r e

end Cert.ReferenceIdeal.RefValue

end
-- ==== Proof.LibReduceAny.lean ====
/-
  A printed predicate's "some element is true", read back. A disjunction over all entries of an array of one-bit words is
  a fold by "or" starting from the word 0; when the fold comes out 1, some entry is 1. This is the twin, for "or", of the
  corresponding facts for a fold by "and" (where a result 1 says every entry is 1).
-/
import Idealize.ShloMosaic.Lib.Affine
import Idealize.ShloMosaic.PureOps.Reduce

namespace Cert.Lib.ReduceAny

open Idealize.ShloMosaic

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

variable {s t u : Shape} {axes : List (Fin s.rank)}

/-- A reduction by "or" from an initial word 0 that is 1 at a result index met a 1 at some operand index reducing into it. -/
theorem reduce_ori_eq_one (x : s.Idx → BitVec 1) (init : u.Idx → BitVec 1) (h : s.ReducesTo axes t) (hu : 0 < u.numel)
    (j : t.Idx) (hinit : init (Shape.Idx.first hu) = 0#1) (e : Host.reduce IntOp.ori x init h hu j = 1#1) :
    ∃ i, h.drop i = j ∧ x i = 1#1 := by
  rw [Host.reduce_eq_foldl] at e
  rcases foldl_ori_eq_one x _ _ e with h0 | ⟨i, hi, hx⟩
  · rw [hinit] at h0
    exact absurd h0 (by decide)
  · rw [List.mem_filter] at hi
    exact ⟨i, by simpa using hi.2, hx⟩

/-- The same without the index bookkeeping: some operand entry is 1. -/
theorem reduce_ori_any (x : s.Idx → BitVec 1) (init : u.Idx → BitVec 1) (h : s.ReducesTo axes t) (hu : 0 < u.numel)
    (j : t.Idx) (hinit : init (Shape.Idx.first hu) = 0#1) (e : Host.reduce IntOp.ori x init h hu j = 1#1) :
    ∃ i, x i = 1#1 :=
  (reduce_ori_eq_one x init h hu j hinit e).imp fun _ hi => hi.2

end Cert.Lib.ReduceAny
-- ==== Proof.PreDecode.lean ====
/-
  The precondition read back. The stated precondition is a conjunction of twelve one-bit words: for each of the eleven
  real-number arrays, "every entry has absolute value below +infinity", and for the array of community numbers, "some entry
  differs from the first". Read on the extended reals, the first eleven say every entry is a real number (an extended real whose
  absolute value max x (-x) lies below the top element is neither top nor bottom), and the last gives an index whose community
  number is not the one at index 0.
-/
import proofs.«117877_j82918638617236_2_alg».proof.Pre_finite_inputs
import proofs.«117877_j82918638617236_2_alg».proof.Proof.Gen.Pre_finite_inputs
import proofs.«117877_j82918638617236_2_alg».proof.Proof.LibReduceAny
import Idealize.ShloMosaic.PureOps.Ideal
import Idealize.ShloMosaic.Lib.ReduceAll
import Idealize.ShloMosaic.Lib.ValueIdx

noncomputable section

namespace Cert.PreDecode

open Idealize.ShloMosaic
open Cert.Pre_finite_inputs

/-- The rank-0 shape has one index. -/
instance : Subsingleton S_.Idx := ⟨fun _ _ => funext fun d => d.elim0⟩

/-- The word of +infinity denotes the top element. -/
theorem ofBits_inf : Ideal.ofBits .f32 0x7F800000#32 = (⊤ : EReal) := by
  show Ideal.ieee 8 23 (0x7F800000#32) = ⊤
  delta Ideal.ieee
  dsimp only
  rw [if_pos (by decide), if_pos (by decide), if_neg (by decide)]

/-- An extended real whose absolute value compares below +infinity is a real number. -/
theorem real_of_abs_lt_inf (x : EReal)
    (h : Ideal.cmp .olt (max x (-x)) (Ideal.ofBits .f32 0x7F800000#32) = 1#1) : ∃ v : ℝ, x = (v : EReal) := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd hlt (by simp)
  | top => exact absurd hlt (by simp)
  | coe v => exact ⟨v, rfl⟩

/-- One finiteness conjunct: "all entries have absolute value below +infinity" says every entry is a real number. -/
theorem all_real {s : Shape} {axes : List (Fin s.rank)} (x : FVec Ideal s .f32) (dims : Fin S_.rank → Fin s.rank)
    (bc : S_.BroadcastsInDim s dims) (hr : s.ReducesTo axes S_) (hS : 0 < S_.numel)
    (e : Host.reduce IntOp.andi (cmpf .olt (Host.absf x) (broadcastInDim s dims bc (constant S_ .f32 0x7F800000#32)))
      (constantI S_ 1 1#1) hr hS ValueIdx.ix0 = 1#1) :
    ∀ i, ∃ v : ℝ, x i = (v : EReal) := fun i =>
  real_of_abs_lt_inf (x i) (Host.reduce_andi_all _ _ hr hS ValueIdx.ix0 e i)

/-- The first community number, repeated: the one-entry slice at offset 0, reshaped to a scalar and broadcast, reads entry 0
    at every index. -/
theorem first_entry (a1 : IVec S8192 32) (sl : S8192.Slices ![0] S1) (sc : S1.ShapeCasts S_)
    (dims : Fin S_.rank → Fin S8192.rank) (bc : S_.BroadcastsInDim S8192 dims) (i : S8192.Idx) :
    broadcastInDim S8192 dims bc (shapeCast S_ (extractStridedSlice S1 ![0] a1 sl) sc) i = a1 (ValueIdx.ix1 0) := by
  show a1 _ = a1 _
  congr 1
  funext d
  apply Fin.ext
  have hd : d = 0 := Subsingleton.elim _ _
  subst hd
  have key : ∀ k : Fin 1, (0 : ℕ) + k.val = 0 := fun k => by omega
  exact key _

/-- The last conjunct: "some community number differs from the first" gives such an index. -/
theorem some_differs (a1 : IVec S8192 32) (sl : S8192.Slices ![0] S1) (sc : S1.ShapeCasts S_)
    (dims : Fin S_.rank → Fin S8192.rank) (bc : S_.BroadcastsInDim S8192 dims) {axes : List (Fin S8192.rank)}
    (hr : S8192.ReducesTo axes S_) (hS : 0 < S_.numel)
    (e : Host.reduce IntOp.ori
      (cmpi .ne a1 (broadcastInDim S8192 dims bc (shapeCast S_ (extractStridedSlice S1 ![0] a1 sl) sc)))
      (constantI S_ 1 0#1) hr hS ValueIdx.ix0 = 1#1) :
    ∃ j : Fin 8192, a1 (ValueIdx.ix1 j) ≠ a1 (ValueIdx.ix1 0) := by
  obtain ⟨i, hi⟩ := Cert.Lib.ReduceAny.reduce_ori_any _ _ hr hS ValueIdx.ix0 rfl e
  have hne : a1 i ≠ broadcastInDim S8192 dims bc (shapeCast S_ (extractStridedSlice S1 ![0] a1 sl) sc) i :=
    IntOp.cmpi_ne.1 hi
  rw [first_entry] at hne
  have hi1 : i = ValueIdx.ix1 (i 0) := ValueIdx.eq_ix1 i
  rw [hi1] at hne
  exact ⟨_, hne⟩

/-- The entrywise "and" of two arrays of one-bit words, at an index. -/
theorem andi_at {s : Shape} {w : Nat} (x y : IVec s w) (i : s.Idx) : andi x y i = IntOp.andi (x i) (y i) := rfl

/-- The precondition read back: every entry of the eleven real-number arrays is a real number, and some community number
    differs from the one at index 0. -/
theorem pre_decode (a0 : FVec Ideal S8192x1024 .f32) (a1 : IVec S8192 32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 a10 a11 : FVec Ideal S1024 .f32)
    (h : Cert.Pre_finite_inputs.fn (F := Ideal) a0 a1 a2 a3 a4 a5 a6 a7 a8 a9 a10 a11 = fun _ => 1#1) :
    (∀ i, ∃ v : ℝ, a0 i = (v : EReal)) ∧ (∀ i, ∃ v : ℝ, a2 i = (v : EReal)) ∧ (∀ i, ∃ v : ℝ, a3 i = (v : EReal))
      ∧ (∀ i, ∃ v : ℝ, a4 i = (v : EReal)) ∧ (∀ i, ∃ v : ℝ, a5 i = (v : EReal)) ∧ (∀ i, ∃ v : ℝ, a6 i = (v : EReal))
      ∧ (∀ i, ∃ v : ℝ, a7 i = (v : EReal)) ∧ (∀ i, ∃ v : ℝ, a8 i = (v : EReal)) ∧ (∀ i, ∃ v : ℝ, a9 i = (v : EReal))
      ∧ (∀ i, ∃ v : ℝ, a10 i = (v : EReal)) ∧ (∀ i, ∃ v : ℝ, a11 i = (v : EReal))
      ∧ (∃ j : Fin 8192, a1 (ValueIdx.ix1 j) ≠ a1 (ValueIdx.ix1 0)) := by
  have h0 := congrFun h ValueIdx.ix0
  dsimp only [Cert.Pre_finite_inputs.fn, Cert.Pre_finite_inputs.fn_part1, Cert.Pre_finite_inputs.fn_part2,
    Cert.Pre_finite_inputs.fn_part3] at h0
  simp only [andi_at, IntOp.andi_eq_one] at h0
  obtain ⟨⟨⟨⟨⟨⟨⟨⟨⟨⟨⟨c0, c2⟩, c3⟩, c4⟩, c5⟩, c6⟩, c7⟩, c8⟩, c9⟩, c10⟩, c11⟩, cid⟩ := h0
  exact ⟨all_real a0 _ _ _ _ c0, all_real a2 _ _ _ _ c2, all_real a3 _ _ _ _ c3, all_real a4 _ _ _ _ c4,
    all_real a5 _ _ _ _ c5, all_real a6 _ _ _ _ c6, all_real a7 _ _ _ _ c7, all_real a8 _ _ _ _ c8,
    all_real a9 _ _ _ _ c9, all_real a10 _ _ _ _ c10, all_real a11 _ _ _ _ c11,
    some_differs a1 _ _ _ _ _ _ cid⟩

end Cert.PreDecode

end
-- ==== Proof.PreGlue.lean ====
/-
  The precondition in the form the softmax laws take: each of the eleven real-number arrays, read by its coordinates (two for a
  matrix, one for a vector), has only real entries; and among the community numbers, read by their one coordinate, some entry
  differs from the entry at index 0.
-/
import proofs.«117877_j82918638617236_2_alg».proof.Proof.PreDecode
import proofs.«117877_j82918638617236_2_alg».proof.Proof.OnlineLaw

noncomputable section

namespace Cert.PreGlue

open Idealize.ShloMosaic
open Cert.Pre_finite_inputs
open Cert.CommAttn

/-- The precondition, array by array, by coordinates. -/
theorem pre_glue (a0 : FVec Ideal S8192x1024 .f32) (a1 : IVec S8192 32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 a10 a11 : FVec Ideal S1024 .f32)
    (h : Cert.Pre_finite_inputs.fn (F := Ideal) a0 a1 a2 a3 a4 a5 a6 a7 a8 a9 a10 a11 = fun _ => 1#1) :
    (∀ (r : Row) (k : Col), ∃ v : ℝ, a0 (ValueIdx.ix2 r k) = (v : EReal))
      ∧ (∀ k d : Col, ∃ v : ℝ, a2 (ValueIdx.ix2 k d) = (v : EReal)) ∧ (∀ d : Col, ∃ v : ℝ, a3 (ValueIdx.ix1 d) = (v : EReal))
      ∧ (∀ k d : Col, ∃ v : ℝ, a4 (ValueIdx.ix2 k d) = (v : EReal)) ∧ (∀ d : Col, ∃ v : ℝ, a5 (ValueIdx.ix1 d) = (v : EReal))
      ∧ (∀ k d : Col, ∃ v : ℝ, a6 (ValueIdx.ix2 k d) = (v : EReal)) ∧ (∀ d : Col, ∃ v : ℝ, a7 (ValueIdx.ix1 d) = (v : EReal))
      ∧ (∀ k d : Col, ∃ v : ℝ, a8 (ValueIdx.ix2 k d) = (v : EReal)) ∧ (∀ d : Col, ∃ v : ℝ, a9 (ValueIdx.ix1 d) = (v : EReal))
      ∧ (∀ d : Col, ∃ v : ℝ, a10 (ValueIdx.ix1 d) = (v : EReal)) ∧ (∀ d : Col, ∃ v : ℝ, a11 (ValueIdx.ix1 d) = (v : EReal))
      ∧ (∃ j : Row, a1 (ValueIdx.ix1 j) ≠ a1 (ValueIdx.ix1 0)) := by
  obtain ⟨h0, h2, h3, h4, h5, h6, h7, h8, h9, h10, h11, hid⟩ :=
    Cert.PreDecode.pre_decode a0 a1 a2 a3 a4 a5 a6 a7 a8 a9 a10 a11 h
  exact ⟨fun r k => h0 _, fun k d => h2 _, fun d => h3 _, fun k d => h4 _, fun d => h5 _, fun k d => h6 _, fun d => h7 _,
    fun k d => h8 _, fun d => h9 _, fun d => h10 _, fun d => h11 _, hid⟩

end Cert.PreGlue

end
-- ==== Proof.lean ====
/-
  The certificate of the community-attention kernel against its reference.

  The kernel is two launches. The first computes the three projections of the representations (queries, keys, values; the
  score scale is multiplied into the queries there). The second visits, for each block of 512 queries, the keys in eight
  tiles of 1024: it keeps for every query a running maximum of the masked scores, a running sum of the exponentials shifted by
  that maximum and a running weighted sum of the values, rescaling the two sums whenever the maximum grows; after the last tile
  it divides the weighted sum by the sum once, applies the output projection, adds the residual and normalises each row. The
  reference computes the whole score matrix, normalises each row by the softmax and then applies the same last steps.

  On the extended reals the two agree wherever every row has a key outside the query's own community (then each row's
  maximum is a real number, the row's sum is at least one, and every intermediate is finite): the rescaled running sums are
  the shifted sums over the keys seen so far, by the law exp (s - m) · exp (m - m') = exp (s - m'); multiplying the scale into
  the query first is distributivity over a finite sum of reals; dividing once at the end instead of dividing every weight is
  again distributivity. A row whose keys are all masked is the one place the two differ (both reach 0/0, but on different
  sides of a product), and the precondition excludes it: some community number differs from the first.
-/
import proofs.«117877_j82918638617236_2_alg».proof.Defs
import proofs.«117877_j82918638617236_2_alg».proof.Proof.Gen.Kernel
import proofs.«117877_j82918638617236_2_alg».proof.Proof.Gen.KernelIdeal
import proofs.«117877_j82918638617236_2_alg».proof.Proof.Gen.ReferenceIdeal
import proofs.«117877_j82918638617236_2_alg».proof.Proof.Gen.Pre_finite_inputs
import proofs.«117877_j82918638617236_2_alg».proof.Proof.Gen.ReferenceIdeal.Run
import proofs.«117877_j82918638617236_2_alg».proof.Proof.K.Run
import proofs.«117877_j82918638617236_2_alg».proof.Proof.KI.Run
import proofs.«117877_j82918638617236_2_alg».proof.Proof.KI.Final
import proofs.«117877_j82918638617236_2_alg».proof.Proof.KI.Blocks1
import proofs.«117877_j82918638617236_2_alg».proof.Proof.KI.Value1Inv
import proofs.«117877_j82918638617236_2_alg».proof.Proof.KI.Value1Last
import proofs.«117877_j82918638617236_2_alg».proof.Proof.RefValue
import proofs.«117877_j82918638617236_2_alg».proof.Proof.PreGlue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section
variable [hKernel : Cert.Kernel.Facts] [hKernelIdeal : Cert.KernelIdeal.Facts] [hReferenceIdeal : Cert.ReferenceIdeal.Facts]
  [hPre_finite_inputs : Cert.Pre_finite_inputs.Facts]

/-- The word-level kernel runs and leaves its arguments as launched. -/
theorem frame_k : Cert.frame_Kernel := fun m ρ _ => Cert.Kernel.Hand.frame (F := Bits) m ρ

/-- The idealized kernel runs and leaves its arguments as launched. -/
theorem frame_ki : Cert.frame_KernelIdeal := fun m ρ _ => Cert.KernelIdeal.Hand.frame (F := Ideal) m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's finite stand-in for minus infinity is read as bottom. -/
theorem preserves : Cert.preserves_Kernel_KernelIdeal :=
  IdealRules.named_const.statement Cert.KernelIdeal.κ "neg_big" .f32 0xFF333332#32 ⊥ rfl

/-- The two results are one function of the arguments: the reference's result is the specification's function of its
    arguments, its arguments are the kernel's, and the kernel's result array is the same function of those. -/
theorem value_bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    Cert.ReferenceIdeal.Value.res_main_v62 m' c
      = (Cert.KernelIdeal.Hand.dat1 (F := Ideal) (Cert.KernelIdeal.Hand.V3 m ρ) c).arrAt 10 Cert.KernelIdeal.cfg1.N := by
  funext i
  obtain ⟨r, e, rfl⟩ : ∃ (r : Cert.CommAttn.Row) (e : Cert.CommAttn.Col), i = ix2 r e := ⟨i 0, i 1, eq_ix2 i⟩
  obtain ⟨h0, h1, h2, h3, h4, h5, h6, h7, h8, h9, h10, h11⟩ := hagree c
  obtain ⟨hx, hWq, hbq, hWk, hbk, hWv, hbv, hWo, hbo, hγ, hβ, hids⟩ := Cert.PreGlue.pre_glue _ _ _ _ _ _ _ _ _ _ _ _ (hpre c)
  have hlast := Cert.KernelIdeal.Hand.out1_last (Cert.KernelIdeal.Hand.V3 m ρ) c
    (Cert.KernelIdeal.Hand.outs1_inv (Cert.KernelIdeal.Hand.V3 m ρ) c
      (Cert.KernelIdeal.Hand.blk1_0' (Cert.KernelIdeal.Hand.V3 m ρ) c) (Cert.KernelIdeal.Hand.blk1_1' (Cert.KernelIdeal.Hand.V3 m ρ) c) (Cert.KernelIdeal.Hand.blk1_2' (Cert.KernelIdeal.Hand.V3 m ρ) c) (Cert.KernelIdeal.Hand.blk1_3' (Cert.KernelIdeal.Hand.V3 m ρ) c) (Cert.KernelIdeal.Hand.blk1_4' (Cert.KernelIdeal.Hand.V3 m ρ) c) (Cert.KernelIdeal.Hand.blk1_5' (Cert.KernelIdeal.Hand.V3 m ρ) c)
      (fun t _ _ _ d e => Cert.KernelIdeal.Hand.blk1_6' (Cert.KernelIdeal.Hand.V3 m ρ) c t d e) (fun t _ _ _ e => Cert.KernelIdeal.Hand.blk1_7' (Cert.KernelIdeal.Hand.V3 m ρ) c t e)
      (fun t _ _ _ e => Cert.KernelIdeal.Hand.blk1_8' (Cert.KernelIdeal.Hand.V3 m ρ) c t e) (fun t _ _ _ e => Cert.KernelIdeal.Hand.blk1_9' (Cert.KernelIdeal.Hand.V3 m ρ) c t e)
      (Cert.KernelIdeal.Hand.score_ne_top' m ρ c hx hWq hbq hWk hbk) (Cert.KernelIdeal.Hand.value_real m ρ c hx hWv hbv))
  refine (Cert.ReferenceIdeal.RefValue.res_eq m' c r e).trans ?_
  rw [h0, h1, h2, h3, h4, h5, h6, h7, h8, h9, h10, h11]
  exact (Cert.KernelIdeal.Hand.final_value m ρ c hlast hx hWq hbq hWk hbk hWv hbv hids r e).symm

/-- The two idealized programs, run from memories agreeing on the arguments, end with equal results. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact value_bridge m ρ m' hpre hagree c

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
